-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x14x32768x2 : Shape := ⟨4, ![16, 14, 32768, 2]⟩
abbrev S16x3 : Shape := ⟨2, ![16, 3]⟩
abbrev S_ : Shape := ⟨0, ![]⟩

class Facts : Prop where
  bcast_S_S16x14x32768x2 : S_.BroadcastsInDim S16x14x32768x2 (![] : Fin 0 → Fin S16x14x32768x2.rank)
  reducesTo_S16x14x32768x2_S_d0_1_2_3 : S16x14x32768x2.ReducesTo [0, 1, 2, 3] S_
  h_S_ : 0 < S_.numel
  bcast_S_S16x3 : S_.BroadcastsInDim S16x3 (![] : Fin 0 → Fin S16x3.rank)
  reducesTo_S16x3_S_d0_1 : S16x3.ReducesTo [0, 1] S_

variable [Facts]

def fn {F : FTy → Type} [FloatOps F] (main_arg0 : FVec F S16x14x32768x2 .f32) (main_arg1 : FVec F S16x3 .f32) : IVec S_ 1 :=
  let main_v0 : FVec F S16x14x32768x2 .f32 := Host.absf main_arg0
  let main_cst : FVec F S_ .f32 := constant S_ .f32 0x7F800000#32
  let main_v1 : FVec F S16x14x32768x2 .f32 := broadcastInDim S16x14x32768x2 ![] bcast_S_S16x14x32768x2 main_cst
  let main_v2 : IVec S16x14x32768x2 1 := cmpf .olt main_v0 main_v1
  let main_c : IVec S_ 1 := constantI S_ 1 1#1
  let main_v3 : IVec S_ 1 := (fun x v => Host.reduce IntOp.andi x v reducesTo_S16x14x32768x2_S_d0_1_2_3 h_S_) main_v2 main_c
  let main_v4 : FVec F S16x3 .f32 := Host.absf main_arg1
  let main_cst_0 : FVec F S_ .f32 := constant S_ .f32 0x7F800000#32
  let main_v5 : FVec F S16x3 .f32 := broadcastInDim S16x3 ![] bcast_S_S16x3 main_cst_0
  let main_v6 : IVec S16x3 1 := cmpf .olt main_v4 main_v5
  let main_c_1 : IVec S_ 1 := constantI S_ 1 1#1
  let main_v7 : IVec S_ 1 := (fun x v => Host.reduce IntOp.andi x v reducesTo_S16x3_S_d0_1 h_S_) main_v6 main_c_1
  let main_v8 : IVec S_ 1 := andi main_v3 main_v7
  main_v8
-- ==== Kernel.lean ====
abbrev S16x14x32768x2 : Shape := ⟨4, ![16, 14, 32768, 2]⟩
abbrev S16x3 : Shape := ⟨2, ![16, 3]⟩
abbrev S16x2x14x32768 : Shape := ⟨4, ![16, 2, 14, 32768]⟩
abbrev S16x161x32768 : Shape := ⟨3, ![16, 161, 32768]⟩
abbrev S1x2x14x32768 : Shape := ⟨4, ![1, 2, 14, 32768]⟩
abbrev S1x161x32768 : Shape := ⟨3, ![1, 161, 32768]⟩
abbrev S7x32768 : Shape := ⟨2, ![7, 32768]⟩
abbrev S1x1x7x32768 : Shape := ⟨4, ![1, 1, 7, 32768]⟩
abbrev S7x1 : Shape := ⟨2, ![7, 1]⟩
abbrev S1x7x32768 : Shape := ⟨3, ![1, 7, 32768]⟩
abbrev S1x32768 : Shape := ⟨2, ![1, 32768]⟩

abbrev nBuf : Space → Nat
  | .hbm => 4
  | .vmem => 3
  | .smem => 0
  | _ => 0

abbrev bufTy : (tb : Table) → Fin (tcTables nBuf tb) → BufTy
  | .hbm, ⟨0, _⟩ => ⟨S16x14x32768x2, .f32⟩
  | .hbm, ⟨1, _⟩ => ⟨S16x3, .f32⟩
  | .hbm, ⟨2, _⟩ => ⟨S16x2x14x32768, .f32⟩
  | .hbm, ⟨3, _⟩ => ⟨S16x161x32768, .f32⟩
  | .local _ .vmem, ⟨0, _⟩ => ⟨S1x2x14x32768, .f32⟩
  | .local _ .vmem, ⟨1, _⟩ => ⟨S1x2x14x32768, .f32⟩
  | .local _ .vmem, ⟨2, _⟩ => ⟨S1x161x32768, .f32⟩
  | _, _ => ⟨S16x14x32768x2, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x14x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x161x32768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

class Facts₀ : Prop where
  transposes_S16x14x32768x2_S16x2x14x32768_0_3_1_2 : S16x14x32768x2.Transposes [0, 3, 1, 2] S16x2x14x32768
  iota_S7x32768_d1_w32 : S7x32768.Iotas .tc 32 [1]
  inb_S1x2x14x32768_S1x1x7x32768_0_0_0_0 : ∀ a, (![0, 0, 0, 0] : Fin 4 → Nat) a + S1x1x7x32768.size a ≤ S1x2x14x32768.size a
  h_S1x1x7x32768 : 0 < S1x1x7x32768.numel
  shapeCasts_S1x1x7x32768_S7x32768 : S1x1x7x32768.ShapeCasts S7x32768
  inb_S1x2x14x32768_S1x1x7x32768_0_1_0_0 : ∀ a, (![0, 1, 0, 0] : Fin 4 → Nat) a + S1x1x7x32768.size a ≤ S1x2x14x32768.size a
  inb_S1x2x14x32768_S1x1x7x32768_0_0_7_0 : ∀ a, (![0, 0, 7, 0] : Fin 4 → Nat) a + S1x1x7x32768.size a ≤ S1x2x14x32768.size a
  inb_S1x2x14x32768_S1x1x7x32768_0_1_7_0 : ∀ a, (![0, 1, 7, 0] : Fin 4 → Nat) a + S1x1x7x32768.size a ≤ S1x2x14x32768.size a
  rotates_S7x32768_d1 : S7x32768.Rotates 1 none
  slices_S7x32768_o0_0_S7x1 : S7x32768.Slices ![0, 0] S7x1
  shapeCasts_S7x1_S7x1 : S7x1.ShapeCasts S7x1
  broadcasts_S7x1_S7x32768 : S7x1.Broadcasts S7x32768
  inb_S1x161x32768_S1x7x32768_0_0_0 : ∀ a, (![0, 0, 0] : Fin 3 → Nat) a + S1x7x32768.size a ≤ S1x161x32768.size a
  h_S1x7x32768 : 0 < S1x7x32768.numel
  shapeCasts_S1x7x32768_S7x32768 : S1x7x32768.ShapeCasts S7x32768
  shapeCasts_S7x32768_S1x7x32768 : S7x32768.ShapeCasts S1x7x32768
  inb_S1x161x32768_S1x7x32768_0_7_0 : ∀ a, (![0, 7, 0] : Fin 3 → Nat) a + S1x7x32768.size a ≤ S1x161x32768.size a
  inb_S1x161x32768_S1x7x32768_0_14_0 : ∀ a, (![0, 14, 0] : Fin 3 → Nat) a + S1x7x32768.size a ≤ S1x161x32768.size a
  inb_S1x161x32768_S1x7x32768_0_21_0 : ∀ a, (![0, 21, 0] : Fin 3 → Nat) a + S1x7x32768.size a ≤ S1x161x32768.size a
  inb_S1x161x32768_S1x7x32768_0_28_0 : ∀ a, (![0, 28, 0] : Fin 3 → Nat) a + S1x7x32768.size a ≤ S1x161x32768.size a
  inb_S1x161x32768_S1x7x32768_0_35_0 : ∀ a, (![0, 35, 0] : Fin 3 → Nat) a + S1x7x32768.size a ≤ S1x161x32768.size a
  inb_S1x161x32768_S1x7x32768_0_42_0 : ∀ a, (![0, 42, 0] : Fin 3 → Nat) a + S1x7x32768.size a ≤ S1x161x32768.size a
  inb_S1x161x32768_S1x7x32768_0_147_0 : ∀ a, (![0, 147, 0] : Fin 3 → Nat) a + S1x7x32768.size a ≤ S1x161x32768.size a
  inb_S1x161x32768_S1x7x32768_0_154_0 : ∀ a, (![0, 154, 0] : Fin 3 → Nat) a + S1x7x32768.size a ≤ S1x161x32768.size a
  slices_S7x32768_o6_0_S1x32768 : S7x32768.Slices ![6, 0] S1x32768
  slices_S7x32768_o0_0_S1x32768 : S7x32768.Slices ![0, 0] S1x32768
  slices_S7x32768_o1_0_S1x32768 : S7x32768.Slices ![1, 0] S1x32768
  slices_S7x32768_o2_0_S1x32768 : S7x32768.Slices ![2, 0] S1x32768
  slices_S7x32768_o3_0_S1x32768 : S7x32768.Slices ![3, 0] S1x32768
  slices_S7x32768_o4_0_S1x32768 : S7x32768.Slices ![4, 0] S1x32768
  slices_S7x32768_o5_0_S1x32768 : S7x32768.Slices ![5, 0] S1x32768
  concatenates_S1x32768_S1x32768_S1x32768_S1x32768_S1x32768_S1x32768_S1x32768_S7x32768_d0 : Shape.Concatenates [S1x32768, S1x32768, S1x32768, S1x32768, S1x32768, S1x32768, S1x32768] S7x32768 0
  inb_S1x161x32768_S1x7x32768_0_49_0 : ∀ a, (![0, 49, 0] : Fin 3 → Nat) a + S1x7x32768.size a ≤ S1x161x32768.size a
  inb_S1x161x32768_S1x7x32768_0_98_0 : ∀ a, (![0, 98, 0] : Fin 3 → Nat) a + S1x7x32768.size a ≤ S1x161x32768.size a
  inb_S1x161x32768_S1x7x32768_0_56_0 : ∀ a, (![0, 56, 0] : Fin 3 → Nat) a + S1x7x32768.size a ≤ S1x161x32768.size a
  inb_S1x161x32768_S1x7x32768_0_105_0 : ∀ a, (![0, 105, 0] : Fin 3 → Nat) a + S1x7x32768.size a ≤ S1x161x32768.size a
  inb_S1x161x32768_S1x7x32768_0_63_0 : ∀ a, (![0, 63, 0] : Fin 3 → Nat) a + S1x7x32768.size a ≤ S1x161x32768.size a
  inb_S1x161x32768_S1x7x32768_0_112_0 : ∀ a, (![0, 112, 0] : Fin 3 → Nat) a + S1x7x32768.size a ≤ S1x161x32768.size a
  inb_S1x161x32768_S1x7x32768_0_70_0 : ∀ a, (![0, 70, 0] : Fin 3 → Nat) a + S1x7x32768.size a ≤ S1x161x32768.size a
  inb_S1x161x32768_S1x7x32768_0_119_0 : ∀ a, (![0, 119, 0] : Fin 3 → Nat) a + S1x7x32768.size a ≤ S1x161x32768.size a
  inb_S1x161x32768_S1x7x32768_0_77_0 : ∀ a, (![0, 77, 0] : Fin 3 → Nat) a + S1x7x32768.size a ≤ S1x161x32768.size a
  inb_S1x161x32768_S1x7x32768_0_126_0 : ∀ a, (![0, 126, 0] : Fin 3 → Nat) a + S1x7x32768.size a ≤ S1x161x32768.size a
  inb_S1x161x32768_S1x7x32768_0_84_0 : ∀ a, (![0, 84, 0] : Fin 3 → Nat) a + S1x7x32768.size a ≤ S1x161x32768.size a
  inb_S1x161x32768_S1x7x32768_0_133_0 : ∀ a, (![0, 133, 0] : Fin 3 → Nat) a + S1x7x32768.size a ≤ S1x161x32768.size a
  inb_S1x161x32768_S1x7x32768_0_91_0 : ∀ a, (![0, 91, 0] : Fin 3 → Nat) a + S1x7x32768.size a ≤ S1x161x32768.size a
  inb_S1x161x32768_S1x7x32768_0_140_0 : ∀ a, (![0, 140, 0] : Fin 3 → Nat) a + S1x7x32768.size a ≤ S1x161x32768.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x14x32768.size a ≤ S16x2x14x32768.size a
  hwx0_0 : ∀ i : grid0.Coords, EltTy.bits .f32 = 32 ∨ (Rect.block (s := S16x2x14x32768) S1x2x14x32768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x161x32768.size a ≤ S16x161x32768.size a
  hwx0_1 : ∀ i : grid0.Coords, EltTy.bits .f32 = 32 ∨ (Rect.block (s := S16x161x32768) S1x161x32768.size (cc0_transform_1 i) (hinb0_1 i)).WholeWords (EltTy.packing .f32)

variable [Facts₀]

abbrev win0_0 : Pipeline.Window sig grid0 :=
  Pipeline.Window.ofSpec (Memref.whole main_v0) S1x2x14x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x161x32768.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x14x32768x2 : Shape := ⟨4, ![16, 14, 32768, 2]⟩
abbrev S16x3 : Shape := ⟨2, ![16, 3]⟩
abbrev S16x7x32768x2 : Shape := ⟨4, ![16, 7, 32768, 2]⟩
abbrev S16x7x1x2 : Shape := ⟨4, ![16, 7, 1, 2]⟩
abbrev S16x7x32769x2 : Shape := ⟨4, ![16, 7, 32769, 2]⟩
abbrev S_ : Shape := ⟨0, ![]⟩
abbrev S16x7x32768 : Shape := ⟨3, ![16, 7, 32768]⟩
abbrev S16x7x32767x2 : Shape := ⟨4, ![16, 7, 32767, 2]⟩
abbrev S16x7x32767 : Shape := ⟨3, ![16, 7, 32767]⟩
abbrev S16x7x1 : Shape := ⟨3, ![16, 7, 1]⟩
abbrev S16x7x32768x1 : Shape := ⟨4, ![16, 7, 32768, 1]⟩
abbrev S7 : Shape := ⟨1, ![7]⟩
abbrev S1x7 : Shape := ⟨2, ![1, 7]⟩
abbrev S7x1 : Shape := ⟨2, ![7, 1]⟩
abbrev S7x7 : Shape := ⟨2, ![7, 7]⟩
abbrev S49 : Shape := ⟨1, ![49]⟩
abbrev S49x1 : Shape := ⟨2, ![49, 1]⟩
abbrev S16x49x32768x2 : Shape := ⟨4, ![16, 49, 32768, 2]⟩
abbrev S1x16x1x7x1x32768x1x2 : Shape := ⟨8, ![1, 16, 1, 7, 1, 32768, 1, 2]⟩
abbrev S1x16x7x7x1x32768x1x2 : Shape := ⟨8, ![1, 16, 7, 7, 1, 32768, 1, 2]⟩
abbrev S16x49x32768 : Shape := ⟨3, ![16, 49, 32768]⟩
abbrev S16x49x1 : Shape := ⟨3, ![16, 49, 1]⟩
abbrev S16x49x32769 : Shape := ⟨3, ![16, 49, 32769]⟩
abbrev S16x161x32768 : Shape := ⟨3, ![16, 161, 32768]⟩

abbrev nBuf : Space → Nat
  | .hbm => 177
  | .vmem => 0
  | .smem => 0
  | _ => 0

abbrev hbmTy0_0 (i : Nat) : BufTy := match i % 128 with
  | 0 => ⟨S16x14x32768x2, .f32⟩
  | 1 => ⟨S16x3, .f32⟩
  | 2 => ⟨S16x7x32768x2, .f32⟩
  | 3 => ⟨S16x7x32768x2, .f32⟩
  | 4 => ⟨S16x7x1x2, .f32⟩
  | 5 => ⟨S16x7x32769x2, .f32⟩
  | 6 => ⟨S16x7x32768x2, .f32⟩
  | 7 => ⟨S16x7x32768x2, .f32⟩
  | 8 => ⟨S16x7x32768x2, .f32⟩
  | 9 => ⟨S16x7x1x2, .f32⟩
  | 10 => ⟨S16x7x32769x2, .f32⟩
  | 11 => ⟨S16x7x32768x2, .f32⟩
  | 12 => ⟨S16x7x32768x2, .f32⟩
  | 13 => ⟨S16x7x32768x2, .f32⟩
  | 14 => ⟨S16x7x32768x2, .f32⟩
  | 15 => ⟨S_, .f32⟩
  | 16 => ⟨S16x7x32768, .f32⟩
  | 17 => ⟨S16x7x32768, .f32⟩
  | 18 => ⟨S16x7x32768x2, .f32⟩
  | 19 => ⟨S_, .f32⟩
  | 20 => ⟨S16x7x32768, .f32⟩
  | 21 => ⟨S16x7x32768, .f32⟩
  | 22 => ⟨S16x7x32767x2, .f32⟩
  | 23 => ⟨S16x7x32767x2, .f32⟩
  | 24 => ⟨S16x7x32767x2, .f32⟩
  | 25 => ⟨S_, .f32⟩
  | 26 => ⟨S16x7x32767, .f32⟩
  | 27 => ⟨S16x7x32767, .f32⟩
  | 28 => ⟨S16x7x32767, .f32⟩
  | 29 => ⟨S16x7x32767, .f32⟩
  | 30 => ⟨S_, .f32⟩
  | 31 => ⟨S16x7x32767, .f32⟩
  | 32 => ⟨S16x7x32767, .f32⟩
  | 33 => ⟨S16x7x32767, .f32⟩
  | 34 => ⟨S16x7x1, .f32⟩
  | 35 => ⟨S_, .f32⟩
  | 36 => ⟨S16x7x1, .f32⟩
  | 37 => ⟨S16x7x32768, .f32⟩
  | 38 => ⟨S16x7x32767x2, .f32⟩
  | 39 => ⟨S16x7x32767x2, .f32⟩
  | 40 => ⟨S16x7x32767x2, .f32⟩
  | 41 => ⟨S_, .f32⟩
  | 42 => ⟨S16x7x32767, .f32⟩
  | 43 => ⟨S16x7x32767, .f32⟩
  | 44 => ⟨S16x7x32767, .f32⟩
  | 45 => ⟨S16x7x32767, .f32⟩
  | 46 => ⟨S_, .f32⟩
  | 47 => ⟨S16x7x32767, .f32⟩
  | 48 => ⟨S16x7x32767, .f32⟩
  | 49 => ⟨S16x7x32767, .f32⟩
  | 50 => ⟨S16x7x1, .f32⟩
  | 51 => ⟨S_, .f32⟩
  | 52 => ⟨S16x7x1, .f32⟩
  | 53 => ⟨S16x7x32768, .f32⟩
  | 54 => ⟨S16x7x1x2, .f32⟩
  | 55 => ⟨S16x7x32769x2, .f32⟩
  | 56 => ⟨S16x7x32768x2, .f32⟩
  | 57 => ⟨S16x7x32768x2, .f32⟩
  | 58 => ⟨S16x7x32768x2, .f32⟩
  | 59 => ⟨S16x7x1x2, .f32⟩
  | 60 => ⟨S16x7x32769x2, .f32⟩
  | 61 => ⟨S16x7x32768x2, .f32⟩
  | 62 => ⟨S16x7x32768x2, .f32⟩
  | 63 => ⟨S16x7x32768x2, .f32⟩
  | 64 => ⟨S16x7x32768x1, .f32⟩
  | 65 => ⟨S16x7x32768, .f32⟩
  | 66 => ⟨S16x7x32768x1, .f32⟩
  | 67 => ⟨S16x7x32768, .f32⟩
  | 68 => ⟨S16x7x32768, .f32⟩
  | 69 => ⟨S16x7x32768x1, .f32⟩
  | 70 => ⟨S16x7x32768, .f32⟩
  | 71 => ⟨S16x7x32768x1, .f32⟩
  | 72 => ⟨S16x7x32768, .f32⟩
  | 73 => ⟨S16x7x32768, .f32⟩
  | 74 => ⟨S16x7x32768, .f32⟩
  | 75 => ⟨S16x7x32768x1, .f32⟩
  | 76 => ⟨S16x7x32768, .f32⟩
  | 77 => ⟨S16x7x32768x1, .f32⟩
  | 78 => ⟨S16x7x32768, .f32⟩
  | 79 => ⟨S16x7x32768, .f32⟩
  | 80 => ⟨S16x7x32768x1, .f32⟩
  | 81 => ⟨S16x7x32768, .f32⟩
  | 82 => ⟨S16x7x32768x1, .f32⟩
  | 83 => ⟨S16x7x32768, .f32⟩
  | 84 => ⟨S16x7x32768, .f32⟩
  | 85 => ⟨S16x7x32768, .f32⟩
  | 86 => ⟨S16x7x32768x2, .f32⟩
  | 87 => ⟨S_, .f32⟩
  | 88 => ⟨S16x7x32768, .f32⟩
  | 89 => ⟨S16x7x32768, .f32⟩
  | 90 => ⟨S_, .f32⟩
  | 91 => ⟨S16x7x32768, .f32⟩
  | 92 => ⟨S16x7x32768, .f32⟩
  | 93 => ⟨S16x7x32768, .f32⟩
  | 94 => ⟨S16x7x32768x2, .f32⟩
  | 95 => ⟨S16x7x32768x2, .f32⟩
  | 96 => ⟨S_, .f32⟩
  | 97 => ⟨S16x7x32768, .f32⟩
  | 98 => ⟨S16x7x32768, .f32⟩
  | 99 => ⟨S16x7x32768x2, .f32⟩
  | 100 => ⟨S_, .f32⟩
  | 101 => ⟨S16x7x32768, .f32⟩
  | 102 => ⟨S16x7x32768, .f32⟩
  | 103 => ⟨S_, .f32⟩
  | 104 => ⟨S16x7x32768, .f32⟩
  | 105 => ⟨S16x7x32768, .f32⟩
  | 106 => ⟨S16x7x32768, .f32⟩
  | 107 => ⟨S16x7x32768x2, .f32⟩
  | 108 => ⟨S16x7x32768x2, .f32⟩
  | 109 => ⟨S_, .f32⟩
  | 110 => ⟨S16x7x32768, .f32⟩
  | 111 => ⟨S16x7x32768, .f32⟩
  | 112 => ⟨S_, .f32⟩
  | 113 => ⟨S16x7x32768, .f32⟩
  | 114 => ⟨S16x7x32768, .f32⟩
  | 115 => ⟨S16x7x32768, .f32⟩
  | 116 => ⟨S7, .i32⟩
  | 117 => ⟨S1x7, .i32⟩
  | 118 => ⟨S7, .i32⟩
  | 119 => ⟨S_, .i32⟩
  | 120 => ⟨S7, .i32⟩
  | 121 => ⟨S7, .i32⟩
  | 122 => ⟨S7x1, .i32⟩
  | 123 => ⟨S7x7, .i32⟩
  | 124 => ⟨S7x7, .i32⟩
  | 125 => ⟨S7x7, .i32⟩
  | 126 => ⟨S_, .i32⟩
  | 127 => ⟨S_, .i32⟩
  | _ => ⟨S16x14x32768x2, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S7x7, .i32⟩
  | 5 => ⟨S7x7, .i32⟩
  | 6 => ⟨S_, .i32⟩
  | 7 => ⟨S7x7, .i32⟩
  | 8 => ⟨S7x7, .i1⟩
  | 9 => ⟨S_, .i32⟩
  | 10 => ⟨S7x7, .i32⟩
  | 11 => ⟨S7x7, .i1⟩
  | 12 => ⟨S_, .i32⟩
  | 13 => ⟨S_, .i1⟩
  | 14 => ⟨S7x7, .i1⟩
  | 15 => ⟨S7x7, .i1⟩
  | 16 => ⟨S7x7, .i1⟩
  | 17 => ⟨S7x7, .i32⟩
  | 18 => ⟨S7x7, .i32⟩
  | 19 => ⟨S7x7, .i32⟩
  | 20 => ⟨S49, .i32⟩
  | 21 => ⟨S_, .i32⟩
  | 22 => ⟨S49, .i32⟩
  | 23 => ⟨S49, .i1⟩
  | 24 => ⟨S_, .i32⟩
  | 25 => ⟨S49, .i32⟩
  | 26 => ⟨S49, .i32⟩
  | 27 => ⟨S49, .i32⟩
  | 28 => ⟨S49x1, .i32⟩
  | 29 => ⟨S16x49x32768x2, .f32⟩
  | 30 => ⟨S1x16x1x7x1x32768x1x2, .f32⟩
  | 31 => ⟨S1x16x7x7x1x32768x1x2, .f32⟩
  | 32 => ⟨S16x49x32768x2, .f32⟩
  | 33 => ⟨S16x49x32768x2, .f32⟩
  | 34 => ⟨S_, .f32⟩
  | 35 => ⟨S16x49x32768x2, .f32⟩
  | 36 => ⟨S16x49x32768x2, .f32⟩
  | 37 => ⟨S16x49x32768x2, .f32⟩
  | 38 => ⟨S_, .f32⟩
  | 39 => ⟨S16x49x32768, .f32⟩
  | 40 => ⟨S16x49x32768, .f32⟩
  | 41 => ⟨S16x49x1, .f32⟩
  | 42 => ⟨S_, .f32⟩
  | 43 => ⟨S16x49x1, .f32⟩
  | 44 => ⟨S16x49x32769, .f32⟩
  | 45 => ⟨S16x49x32768, .f32⟩
  | 46 => ⟨S16x49x32768, .f32⟩
  | 47 => ⟨S16x49x32768, .f32⟩
  | 48 => ⟨S16x161x32768, .f32⟩
  | _ => ⟨S16x14x32768x2, .f32⟩

abbrev hbmTy (i : Nat) : BufTy := match i / 128 with
  | 0 => hbmTy0_0 i
  | 1 => hbmTy0_1 i
  | _ => ⟨S16x14x32768x2, .f32⟩

abbrev bufTy : (tb : Table) → Fin (tcTables nBuf tb) → BufTy
  | .hbm, ⟨i, _⟩ => hbmTy i
  | _, _ => ⟨S16x14x32768x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_v3 : Ref sig .tc := ⟨.hbm, 8, rfl⟩
abbrev main_v4 : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_v5 : Ref sig .tc := ⟨.hbm, 13, rfl⟩
abbrev main_call2_v0 : Ref sig .tc := ⟨.hbm, 14, rfl⟩
abbrev main_call2_cst : Ref sig .tc := ⟨.hbm, 15, rfl⟩
abbrev main_call2_v1 : Ref sig .tc := ⟨.hbm, 16, rfl⟩
abbrev main_v6 : Ref sig .tc := ⟨.hbm, 17, rfl⟩
abbrev main_call3_v0 : Ref sig .tc := ⟨.hbm, 18, rfl⟩
abbrev main_call3_cst : Ref sig .tc := ⟨.hbm, 19, rfl⟩
abbrev main_call3_v1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call4_v0 : Ref sig .tc := ⟨.hbm, 55, rfl⟩
abbrev main_call4_v1 : Ref sig .tc := ⟨.hbm, 56, rfl⟩
abbrev main_call4_v2 : Ref sig .tc := ⟨.hbm, 57, rfl⟩
abbrev main_v35 : Ref sig .tc := ⟨.hbm, 58, rfl⟩
abbrev main_v36 : Ref sig .tc := ⟨.hbm, 59, rfl⟩
abbrev main_call5_v0 : Ref sig .tc := ⟨.hbm, 60, rfl⟩
abbrev main_call5_v1 : Ref sig .tc := ⟨.hbm, 61, rfl⟩
abbrev main_call5_v2 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_5 : Ref sig .tc := ⟨.hbm, 87, rfl⟩
abbrev main_v61 : Ref sig .tc := ⟨.hbm, 88, rfl⟩
abbrev main_v62 : Ref sig .tc := ⟨.hbm, 89, rfl⟩
abbrev main_cst_6 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call6_v0 : Ref sig .tc := ⟨.hbm, 95, rfl⟩
abbrev main_call6_cst : Ref sig .tc := ⟨.hbm, 96, rfl⟩
abbrev main_call6_v1 : Ref sig .tc := ⟨.hbm, 97, rfl⟩
abbrev main_v67 : Ref sig .tc := ⟨.hbm, 98, rfl⟩
abbrev main_v68 : Ref sig .tc := ⟨.hbm, 99, rfl⟩
abbrev main_cst_7 : Ref sig .tc := ⟨.hbm, 100, rfl⟩
abbrev main_v69 : Ref sig .tc := ⟨.hbm, 101, rfl⟩
abbrev main_v70 : Ref sig .tc := ⟨.hbm, 102, rfl⟩
abbrev main_cst_8 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_9 : Ref sig .tc := ⟨.hbm, 109, rfl⟩
abbrev main_v76 : Ref sig .tc := ⟨.hbm, 110, rfl⟩
abbrev main_v77 : Ref sig .tc := ⟨.hbm, 111, rfl⟩
abbrev main_cst_10 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_c : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_c_11 : Ref sig .tc := ⟨.hbm, 126, rfl⟩
abbrev main_call7_v0 : Ref sig .tc := ⟨.hbm, 127, rfl⟩
abbrev main_call7_c : Ref sig .tc := ⟨.hbm, 128, rfl⟩
abbrev main_call7_v1 : Ref sig .tc := ⟨.hbm, 129, rfl⟩
abbrev main_call7_c_0 : Ref sig .tc := ⟨.hbm, 130, rfl⟩
abbrev main_call7_v2 : Ref sig .tc := ⟨.hbm, 131, rfl⟩
abbrev main_call7_v3 : Ref sig .tc := ⟨.hbm, 132, rfl⟩
abbrev main_call7_v4 : Ref sig .tc := ⟨.hbm, 133, rfl⟩
abbrev main_call7_c_1 : Ref sig .tc := ⟨.hbm, 134, rfl⟩
abbrev main_call7_v5 : Ref sig .tc := ⟨.hbm, 135, rfl⟩
abbrev main_call7_v6 : Ref sig .tc := ⟨.hbm, 136, rfl⟩
abbrev main_call7_c_2 : Ref sig .tc := ⟨.hbm, 137, rfl⟩
abbrev main_call7_v7 : Ref sig .tc := ⟨.hbm, 138, rfl⟩
abbrev main_call7_v8 : Ref sig .tc := ⟨.hbm, 139, rfl⟩
abbrev main_call7_c_3 : Ref sig .tc := ⟨.hbm, 140, rfl⟩
abbrev main_call7_v9 : Ref sig .tc := ⟨.hbm, 141, rfl⟩
abbrev main_call7_v10 : Ref sig .tc := ⟨.hbm, 142, rfl⟩
abbrev main_call7_v11 : Ref sig .tc := ⟨.hbm, 143, rfl⟩
abbrev main_call7_v12 : Ref sig .tc := ⟨.hbm, 144, rfl⟩
abbrev main_call7_v13 : Ref sig .tc := ⟨.hbm, 145, rfl⟩
abbrev main_call7_v14 : Ref sig .tc := ⟨.hbm, 146, rfl⟩
abbrev main_v90 : Ref sig .tc := ⟨.hbm, 147, rfl⟩
abbrev main_v91 : Ref sig .tc := ⟨.hbm, 148, rfl⟩
abbrev main_c_12 : Ref sig .tc := ⟨.hbm, 149, rfl⟩
abbrev main_v92 : Ref sig .tc := ⟨.hbm, 150, rfl⟩
abbrev main_v93 : Ref sig .tc := ⟨.hbm, 151, rfl⟩
abbrev main_c_13 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_cst_14 : Ref sig .tc := ⟨.hbm, 162, rfl⟩
abbrev main_v103 : Ref sig .tc := ⟨.hbm, 163, rfl⟩
abbrev main_v104 : Ref sig .tc := ⟨.hbm, 164, rfl⟩
abbrev main_call8_v0 : Ref sig .tc := ⟨.hbm, 165, rfl⟩
abbrev main_call8_cst : Ref sig .tc := ⟨.hbm, 166, rfl⟩
abbrev main_call8_v1 : Ref sig .tc := ⟨.hbm, 167, rfl⟩
abbrev main_v105 : Ref sig .tc := ⟨.hbm, 168, rfl⟩
abbrev main_v106 : Ref sig .tc := ⟨.hbm, 169, rfl⟩
abbrev main_cst_15 : Ref sig .tc := ⟨.hbm, 170, rfl⟩
abbrev main_v107 : Ref sig .tc := ⟨.hbm, 171, rfl⟩
abbrev main_v108 : Ref sig .tc := ⟨.hbm, 172, rfl⟩
abbrev main_call9_v0 : Ref sig .tc := ⟨.hbm, 173, rfl⟩
abbrev main_call9_v1 : Ref sig .tc := ⟨.hbm, 174, rfl⟩
abbrev main_v109 : Ref sig .tc := ⟨.hbm, 175, rfl⟩
abbrev main_v110 : Ref sig .tc := ⟨.hbm, 176, rfl⟩

abbrev nD : Nat := 1
abbrev τ : Topo := Topo.v7x

variable {F : FTy → Type} [FloatOps F]

class Facts₀ : Prop where
  slices_S16x14x32768x2_S16x7x32768x2_0_0_0_0 : S16x14x32768x2.Slices ![0, 0, 0, 0] S16x7x32768x2
  slices_S16x14x32768x2_S16x7x32768x2_0_7_0_0 : S16x14x32768x2.Slices ![0, 7, 0, 0] S16x7x32768x2
  slices_S16x7x32768x2_S16x7x1x2_0_0_0_0 : S16x7x32768x2.Slices ![0, 0, 0, 0] S16x7x1x2
  concatenates_S16x7x1x2_S16x7x32768x2_S16x7x32769x2_d2 : Shape.Concatenates [S16x7x1x2, S16x7x32768x2] S16x7x32769x2 2
  slices_S16x7x32769x2_S16x7x32768x2_0_0_1_0 : S16x7x32769x2.Slices ![0, 0, 1, 0] S16x7x32768x2
  slices_S16x7x32769x2_S16x7x32768x2_0_0_0_0 : S16x7x32769x2.Slices ![0, 0, 0, 0] S16x7x32768x2
  reducesTo_S16x7x32768x2_S16x7x32768_d3 : S16x7x32768x2.ReducesTo [3] S16x7x32768
  h_S_ : 0 < S_.numel
  slices_S16x7x32768x2_S16x7x32767x2_0_0_1_0 : S16x7x32768x2.Slices ![0, 0, 1, 0] S16x7x32767x2
  slices_S16x7x32768x2_S16x7x32767x2_0_0_0_0 : S16x7x32768x2.Slices ![0, 0, 0, 0] S16x7x32767x2
  reducesTo_S16x7x32767x2_S16x7x32767_d3 : S16x7x32767x2.ReducesTo [3] S16x7x32767
  slices_S16x7x32768_S16x7x32767_0_0_1 : S16x7x32768.Slices ![0, 0, 1] S16x7x32767
  slices_S16x7x32768_S16x7x32767_0_0_0 : S16x7x32768.Slices ![0, 0, 0] S16x7x32767
  bcast_S_S16x7x32767 : S_.BroadcastsInDim S16x7x32767 (![] : Fin 0 → Fin S16x7x32767.rank)
  slices_S16x7x32767_S16x7x1_0_0_0 : S16x7x32767.Slices ![0, 0, 0] S16x7x1
  bcast_S_S16x7x1 : S_.BroadcastsInDim S16x7x1 (![] : Fin 0 → Fin S16x7x1.rank)
  concatenates_S16x7x1_S16x7x32767_S16x7x32768_d2 : Shape.Concatenates [S16x7x1, S16x7x32767] S16x7x32768 2
  slices_S16x7x32768x2_S16x7x32768x1_0_0_0_0 : S16x7x32768x2.Slices ![0, 0, 0, 0] S16x7x32768x1
  shapeCasts_S16x7x32768x1_S16x7x32768 : S16x7x32768x1.ShapeCasts S16x7x32768
  slices_S16x7x32768x2_S16x7x32768x1_0_0_0_1 : S16x7x32768x2.Slices ![0, 0, 0, 1] S16x7x32768x1
  bcast_S_S16x7x32768 : S_.BroadcastsInDim S16x7x32768 (![] : Fin 0 → Fin S16x7x32768.rank)
  bcast_S7_S1x7_1 : S7.BroadcastsInDim S1x7 (![1] : Fin 1 → Fin S1x7.rank)
  bcast_S_S7 : S_.BroadcastsInDim S7 (![] : Fin 0 → Fin S7.rank)
  bcast_S7_S7x1_0 : S7.BroadcastsInDim S7x1 (![0] : Fin 1 → Fin S7x1.rank)
  bcast_S1x7_S7x7_0_1 : S1x7.BroadcastsInDim S7x7 (![0, 1] : Fin 2 → Fin S7x7.rank)
  bcast_S7x1_S7x7_0_1 : S7x1.BroadcastsInDim S7x7 (![0, 1] : Fin 2 → Fin S7x7.rank)
  bcast_S_S7x7 : S_.BroadcastsInDim S7x7 (![] : Fin 0 → Fin S7x7.rank)
  shapeCasts_S7x7_S49 : S7x7.ShapeCasts S49
  bcast_S_S49 : S_.BroadcastsInDim S49 (![] : Fin 0 → Fin S49.rank)
  bcast_S49_S49x1_0 : S49.BroadcastsInDim S49x1 (![0] : Fin 1 → Fin S49x1.rank)
  shapeCasts_S16x7x32768x2_S1x16x1x7x1x32768x1x2 : S16x7x32768x2.ShapeCasts S1x16x1x7x1x32768x1x2
  bcast_S1x16x1x7x1x32768x1x2_S1x16x7x7x1x32768x1x2_0_1_2_3_4_5_6_7 : S1x16x1x7x1x32768x1x2.BroadcastsInDim S1x16x7x7x1x32768x1x2 (![0, 1, 2, 3, 4, 5, 6, 7] : Fin 8 → Fin S1x16x7x7x1x32768x1x2.rank)
  shapeCasts_S1x16x7x7x1x32768x1x2_S16x49x32768x2 : S1x16x7x7x1x32768x1x2.ShapeCasts S16x49x32768x2
  bcast_S_S16x49x32768x2 : S_.BroadcastsInDim S16x49x32768x2 (![] : Fin 0 → Fin S16x49x32768x2.rank)
  reducesTo_S16x49x32768x2_S16x49x32768_d3 : S16x49x32768x2.ReducesTo [3] S16x49x32768
  slices_S16x49x32768_S16x49x1_0_0_0 : S16x49x32768.Slices ![0, 0, 0] S16x49x1
  bcast_S_S16x49x1 : S_.BroadcastsInDim S16x49x1 (![] : Fin 0 → Fin S16x49x1.rank)
  concatenates_S16x49x32768_S16x49x1_S16x49x32769_d2 : Shape.Concatenates [S16x49x32768, S16x49x1] S16x49x32769 2
  slices_S16x49x32769_S16x49x32768_0_0_1 : S16x49x32769.Slices ![0, 0, 1] S16x49x32768
  slices_S16x49x32769_S16x49x32768_0_0_0 : S16x49x32769.Slices ![0, 0, 0] S16x49x32768
  concatenates_S16x7x32768_S16x7x32768_S16x7x32768_S16x7x32768_S16x7x32768_S16x7x32768_S16x7x32768_S16x49x32768_S16x49x32768_S16x7x32768_S16x7x32768_S16x161x32768_d1 : Shape.Concatenates [S16x7x32768, S16x7x32768, S16x7x32768, S16x7x32768, S16x7x32768, S16x7x32768, S16x7x32768, S16x49x32768, S16x49x32768, S16x7x32768, S16x7x32768] S16x161x32768 1
  gather_S16x7x32768x2_S49x1_S16x49x32768x2_023_1_n_n_1_1_161327682_wf : GatherDims.WF S16x7x32768x2 S49x1 S16x49x32768x2 [0, 2, 3] [1] [] [1] [] 1 ![16, 1, 32768, 2]

variable [Facts₀]

def gather_S16x7x32768x2_S49x1_S16x49x32768x2_023_1_n_n_1_1_161327682 : GatherDims S16x7x32768x2 S49x1 S16x49x32768x2 where
  offsetDims := [0, 2, 3]
  collapsedSliceDims := [1]
  operandBatchingDims := []
  startIndicesBatchingDims := []
  startIndexMap := [1]
  indexVectorDim := 1
  sliceSizes := ![16, 1, 32768, 2]
  wf := gather_S16x7x32768x2_S49x1_S16x49x32768x2_023_1_n_n_1_1_161327682_wf

class Facts : Prop extends Facts₀ where

variable [Facts]
-- ==== Proof.Tracks.lean ====
/-
  Two animals, seven keypoints each, tracked over 32768 frames in the plane; sixteen recordings.
  The array `x` holds, for recording `b`, channel `ch` (animal one's keypoints are channels 0–6, animal two's 7–13),
  frame `n` and coordinate `k` (0 = horizontal, 1 = vertical), one position. From these, 161 feature rows per recording,
  in 23 groups of seven rows (group `s`, keypoint `c`, row `7·s + c`):

    0, 1    the speed of each animal's keypoint: the length of its step from the previous frame (frame 0 steps from itself);
    2, 3    the planar cross product of the step with the change of the step (a signed curvature);
    4, 5    the cosine of the turn between consecutive steps, regularised by 1e-4 in the denominator, zero at frame 0;
    6       the cosine between the two animals' steps, regularised by 1e-6;
    7–13    for a rotation `i` of animal one's keypoints, the distance from its keypoint `(c - i - 1) mod 7` to animal
            two's keypoint `c`, with 1e-6 added to each coordinate difference;
    14–20   the forward difference in time of that distance, the last frame differencing against zero;
    21, 22  the cosine between each animal's step and the vector towards (for animal two: away from) the other animal.

  Everything is over the extended reals, every operation the exact one; the two regularisers are kept as the float words
  they are written with, so that they are never evaluated.
-/
import Idealize.ShloMosaic.PureOps.Ideal
import Idealize.ShloMosaic.Lib.ValueIdx

noncomputable section

namespace Cert.Tracks

open Idealize.ShloMosaic Idealize.ShloMosaic.ValueIdx

/-- The positions: recording, channel, frame, coordinate. -/
abbrev Pos := (⟨4, ![16, 14, 32768, 2]⟩ : Shape).Idx → EReal

/-- One animal in one recording: keypoint, frame, coordinate. -/
abbrev Track := Fin 7 → Fin 32768 → Fin 2 → EReal

/-- The regulariser of the turning cosine, the float word of 1e-4. -/
def eps4 : EReal := Ideal.ofBits .f32 0x38D1B717#32
/-- The regulariser of the other cosines and of the distances, the float word of 1e-6. -/
def eps6 : EReal := Ideal.ofBits .f32 0x358637BD#32

/-- The frame before `n`; frame 0 is its own predecessor. -/
def prev (n : Fin 32768) : Fin 32768 := ⟨n.val - 1, by omega⟩
/-- The frame after `n`, wrapping at the end (the wrapped value is never used). -/
def next (n : Fin 32768) : Fin 32768 := ⟨(n.val + 1) % 32768, Nat.mod_lt _ (by decide)⟩

/-- Animal one of recording `b`: channels 0–6. -/
def one (x : Pos) (b : Fin 16) : Track := fun c n k => x (ix4 b ⟨c.val, by omega⟩ n k)
/-- Animal two of recording `b`: channels 7–13. -/
def two (x : Pos) (b : Fin 16) : Track := fun c n k => x (ix4 b ⟨c.val + 7, by omega⟩ n k)

/-- The step of a keypoint into frame `n` (zero-like at frame 0: the position minus itself). -/
def step (p : Track) (c : Fin 7) (n : Fin 32768) (k : Fin 2) : EReal := p c n k - p c (prev n) k
/-- The length of a planar vector given by its two coordinates. -/
def len (u v : EReal) : EReal := Ideal.sqrt (u * u + v * v)
/-- The speed: the length of the step. -/
def speed (p : Track) (c : Fin 7) (n : Fin 32768) : EReal := len (step p c n 0) (step p c n 1)
/-- The change of the step from the previous frame. -/
def bend (p : Track) (c : Fin 7) (n : Fin 32768) (k : Fin 2) : EReal := step p c n k - step p c (prev n) k
/-- The planar cross product of the step and its change. -/
def cross (p : Track) (c : Fin 7) (n : Fin 32768) : EReal :=
  step p c n 0 * bend p c n 1 - step p c n 1 * bend p c n 0
/-- The cosine of the turn between the step into `n` and the step before it; zero at frame 0. -/
def turn (p : Track) (c : Fin 7) (n : Fin 32768) : EReal :=
  if n.val = 0 then 0 else
    Ideal.div (step p c n 0 * step p c (prev n) 0 + step p c n 1 * step p c (prev n) 1)
      (speed p c n * speed p c (prev n) + eps4)
/-- The cosine between the two animals' steps at the same keypoint. -/
def align (p q : Track) (c : Fin 7) (n : Fin 32768) : EReal :=
  Ideal.div (step p c n 0 * step q c n 0 + step p c n 1 * step q c n 1) (speed p c n * speed q c n + eps6)
/-- The vector from animal two's keypoint to animal one's. -/
def rel (p q : Track) (c : Fin 7) (n : Fin 32768) (k : Fin 2) : EReal := p c n k - q c n k
/-- Its length. -/
def gap (p q : Track) (c : Fin 7) (n : Fin 32768) : EReal := len (rel p q c n 0) (rel p q c n 1)
/-- The cosine between animal one's step and the vector from the other animal. -/
def lead1 (p q : Track) (c : Fin 7) (n : Fin 32768) : EReal :=
  Ideal.div (step p c n 0 * rel p q c n 0 + step p c n 1 * rel p q c n 1) (speed p c n * gap p q c n + eps6)
/-- The cosine between animal two's step and the opposite vector. -/
def lead2 (p q : Track) (c : Fin 7) (n : Fin 32768) : EReal :=
  Ideal.div (step q c n 0 * -(rel p q c n 0) + step q c n 1 * -(rel p q c n 1)) (speed q c n * gap p q c n + eps6)
/-- Rotation `i` pairs animal two's keypoint `j` with animal one's keypoint `(j - i - 1) mod 7`. -/
def partner (i : Nat) (j : Fin 7) : Fin 7 := ⟨(j.val + 13 - i) % 7, Nat.mod_lt _ (by decide)⟩
/-- The regularised distance between the paired keypoints. -/
def dist (p q : Track) (i : Nat) (j : Fin 7) (n : Fin 32768) : EReal :=
  len (p (partner i j) n 0 - q j n 0 + eps6) (p (partner i j) n 1 - q j n 1 + eps6)
/-- Its forward difference in time; the last frame differences against zero. -/
def ddist (p q : Track) (i : Nat) (j : Fin 7) (n : Fin 32768) : EReal :=
  if n.val = 32767 then -(dist p q i j n) else dist p q i j (next n) - dist p q i j n

/-- Group `s` of the features of two animals `p`, `q`, keypoint `c`, frame `n`. -/
def featureOf (p q : Track) (s : Nat) (c : Fin 7) (n : Fin 32768) : EReal :=
  if s = 0 then speed p c n
  else if s = 1 then speed q c n
  else if s = 2 then cross p c n
  else if s = 3 then cross q c n
  else if s = 4 then turn p c n
  else if s = 5 then turn q c n
  else if s = 6 then align p q c n
  else if s < 14 then dist p q (s - 7) c n
  else if s < 21 then ddist p q (s - 14) c n
  else if s = 21 then lead1 p q c n
  else lead2 p q c n

/-- Group `s` of the features of recording `b`, keypoint `c`, frame `n`. -/
def feature (x : Pos) (b : Fin 16) (s : Nat) (c : Fin 7) (n : Fin 32768) : EReal :=
  featureOf (one x b) (two x b) s c n

/-- The whole feature array: recording, row `7·s + c`, frame. -/
def features (x : Pos) : (⟨3, ![16, 161, 32768]⟩ : Shape).Idx → EReal :=
  fun o => feature x (o 0) ((o 1).val / 7) ⟨(o 1).val % 7, Nat.mod_lt _ (by decide)⟩ (o 2)

end Cert.Tracks

end
-- ==== Proof.KernelRead.lean ====
/-
  Reading the kernel's vector operations at an index.

  The kernel works on [7, 32768] vectors: seven keypoints by 32768 frames. Its time shifts are lane rotations with
  the wrapped lane repaired by a select on the lane number: "the previous frame, frame 0 staying put" is a rotation
  by one whose lane 0 is replaced by the vector's own first column; "the next frame" is a rotation by 32767, whose
  last lane the caller replaces. Each such composite is read here as ONE function of the operand, so that a payload
  which nests them is read from the outside in. The block the body loads from is [1, 2, 14, 32768]: coordinate,
  channel, frame; its four loads are the two coordinates of the two animals.
-/
import proofs.«129414_j76424648065748_2_alg».proof.Proof.Gen.KernelIdeal.Value
import proofs.«129414_j76424648065748_2_alg».proof.Proof.Tracks
import Idealize.ShloMosaic.Lib.ValueIdx
import Idealize.ShloMosaic.Lib.ValueLayout
import Idealize.ShloMosaic.Lib.Pipeline.Value
import Idealize.ShloMosaic.Lib.KernelVsHost

set_option maxRecDepth 16384

noncomputable section

namespace Cert.KernelIdeal.Read

open Cert.KernelIdeal Cert.KernelIdeal.Gen Idealize.ShloMosaic Idealize.ShloMosaic.ValueIdx Cert.Tracks

variable {α : Type}

/-! ## The lane number and the selects on it -/

/-- Comparing a lane number below 2³² with a word below 2³² compares the numbers. -/
theorem cmpi_eq_ofNat (n k : Nat) (hn : n < 32768) (hk : k < 32768) :
    IntOp.cmpi .eq (BitVec.ofNat 32 n) (BitVec.ofNat 32 k) = if n = k then 1#1 else 0#1 := by
  unfold IntOp.cmpi
  by_cases h : n = k
  · subst h; simp
  · have : BitVec.ofNat 32 n ≠ BitVec.ofNat 32 k := by
      intro e
      have := congrArg BitVec.toNat e
      simp only [BitVec.toNat_ofNat] at this
      rw [Nat.mod_eq_of_lt (by omega), Nat.mod_eq_of_lt (by omega)] at this
      exact h this
    rw [if_neg h, beq_eq_false_iff_ne.mpr this]; rfl

/-- A select on "the lane is `k`" is the `if` on the frame. -/
theorem select_lane (k : Nat) (hk : k < 32768) (A B : S7x32768.Idx → α) (hI : S7x32768.Iotas .tc 32 [1]) (c : Fin 7) (n : Fin 32768) :
    select (cmpi .eq (iota .tc S7x32768 32 [1] hI) (broadcast S7x32768 (BitVec.ofNat 32 k))) A B (ix2 c n)
      = if n.val = k then A (ix2 c n) else B (ix2 c n) := by
  show Scalar.select (IntOp.cmpi .eq (iota .tc S7x32768 32 [1] hI (ix2 c n)) (BitVec.ofNat 32 k)) _ _ = _
  rw [iota_single_apply]
  show Scalar.select (IntOp.cmpi .eq (BitVec.ofNat 32 n.val) (BitVec.ofNat 32 k)) _ _ = _
  rw [cmpi_eq_ofNat n.val k n.isLt hk]
  by_cases h : n.val = k
  · rw [if_pos h, if_pos h]; rfl
  · rw [if_neg h, if_neg h]; rfl

/-! ## Time shifts -/

/-- A vector read one frame back, frame 0 staying put. -/
def back (a : S7x32768.Idx → α) : S7x32768.Idx → α := fun y => a (ix2 (y 0) (prev (y 1)))

theorem back_apply (a : S7x32768.Idx → α) (c : Fin 7) (n : Fin 32768) : back a (ix2 c n) = a (ix2 c (prev n)) := rfl

/-- Away from lane 0 the rotation by one reads the lane before. -/
theorem rot1_apply (a : S7x32768.Idx → α) (h : S7x32768.Rotates 1 none) (c : Fin 7) (n : Fin 32768) (hn : n.val ≠ 0) :
    dynamicRotate 1 1#32 none a h (ix2 c n) = a (ix2 c (prev n)) :=
  Idealize.ShloMosaic.dynamicRotate_apply 1 1#32 a h _ _ (fun b => by
    match b with
    | ⟨0, _⟩ => rfl
    | ⟨1, _⟩ =>
      show n.val - 1 = (n.val + 32768 - 1 % 32768) % 32768
      have := n.isLt
      omega)

/-- The first column of a vector laid along every lane. -/
theorem firstCol_apply (a : S7x32768.Idx → α) (h1 : S7x32768.Slices ![0, 0] S7x1) (h2 : S7x1.ShapeCasts S7x1)
    (h3 : S7x1.Broadcasts S7x32768) (c : Fin 7) (n : Fin 32768) :
    broadcastTo S7x32768 (shapeCast S7x1 (extractStridedSlice S7x1 ![0, 0] a h1) h2) h3 (ix2 c n) = a (ix2 c 0) := by
  rw [shapeCast_self]
  rw [broadcastTo_apply _ h3 (ix2 c n) (ix2 c (0 : Fin 1)) (fun b => by
    match b with
    | ⟨0, _⟩ => rfl
    | ⟨1, _⟩ => rfl)]
  exact slice2_axis1_apply 0 a h1 c (0 : Fin 1) (0 : Fin 32768) rfl

/-- "The previous frame, frame 0 staying put", as the kernel spells it: the rotation by one with lane 0 replaced by
    the first column. -/
theorem shift_eq (a : S7x32768.Idx → α) (hI : S7x32768.Iotas .tc 32 [1]) (h1 : S7x32768.Slices ![0, 0] S7x1)
    (h2 : S7x1.ShapeCasts S7x1) (h3 : S7x1.Broadcasts S7x32768) (h4 : S7x32768.Rotates 1 none) :
    select (cmpi .eq (iota .tc S7x32768 32 [1] hI) (broadcast S7x32768 0#32))
        (broadcastTo S7x32768 (shapeCast S7x1 (extractStridedSlice S7x1 ![0, 0] a h1) h2) h3)
        (dynamicRotate 1 1#32 none a h4) = back a := by
  funext y
  obtain ⟨c, n, rfl⟩ : ∃ (c : Fin 7) (n : Fin 32768), y = ix2 c n := ⟨y 0, y 1, eq_ix2 y⟩
  rw [show (0#32 : BitVec 32) = BitVec.ofNat 32 0 from rfl, select_lane 0 (by omega), back_apply]
  by_cases hn : n.val = 0
  · rw [if_pos hn, firstCol_apply]
    exact congrArg (fun k => a (ix2 c k)) (Fin.ext (by show 0 = n.val - 1; omega))
  · rw [if_neg hn, rot1_apply _ _ _ _ hn]

/-- The rotation by 32767 reads the next lane, around the end. -/
theorem rotLast_apply (a : S7x32768.Idx → α) (h : S7x32768.Rotates 1 none) (c : Fin 7) (n : Fin 32768) :
    dynamicRotate 1 32767#32 none a h (ix2 c n) = a (ix2 c (next n)) :=
  Idealize.ShloMosaic.dynamicRotate_apply 1 32767#32 a h _ _ (fun b => by
    match b with
    | ⟨0, _⟩ => rfl
    | ⟨1, _⟩ =>
      show (n.val + 1) % 32768 = (n.val + 32768 - 32767 % 32768) % 32768
      have := n.isLt
      omega)

/-! ## The block and its four loads -/

/-- Animal one as the block holds it: coordinate, then channel, then frame. -/
def blockOne (x0 : Vec Ideal S1x2x14x32768 .f32) : Track := fun c n k => x0 (ix4 0 k ⟨c.val, by omega⟩ n)
/-- Animal two: channels 7–13. -/
def blockTwo (x0 : Vec Ideal S1x2x14x32768 .f32) : Track := fun c n k => x0 (ix4 0 k ⟨c.val + 7, by omega⟩ n)

/-- One coordinate of an animal as a [7, 32768] vector. -/
def coordOf (p : Track) (k : Fin 2) : FVec Ideal S7x32768 .f32 := fun y => p (y 0) (y 1) k

theorem coordOf_apply (p : Track) (k : Fin 2) (c : Fin 7) (n : Fin 32768) : coordOf p k (ix2 c n) = p c n k := rfl

/-- The features of one block: row `7·s + c`, frame `n`. -/
def blockFeatures (x0 : Vec Ideal S1x2x14x32768 .f32) : S1x161x32768.Idx → EReal :=
  fun y => featureOf (blockOne x0) (blockTwo x0) ((y 1).val / 7) ⟨(y 1).val % 7, Nat.mod_lt _ (by decide)⟩ (y 2)

/-- A load of seven channels from channel `ch0` of coordinate `k`, squeezed to [7, 32768], at keypoint `c`, frame `n`. -/
theorem load_apply (arg1 : Memref sig .tc .vmem S1x2x14x32768 .f32) (harg1 : arg1.IsWhole) (x0 : Vec Ideal S1x2x14x32768 .f32)
    (k : Fin 2) (ch0 : Nat) (hch : ch0 + 7 ≤ 14)
    (inb : ∀ a, (![0, k.val, ch0, 0] : Fin 4 → Nat) a + S1x1x7x32768.size a ≤ S1x2x14x32768.size a)
    (h : S1x1x7x32768.ShapeCasts S7x32768) (c : Fin 7) (n : Fin 32768) :
    shapeCast S7x32768 (View.readAt (Elt Ideal) arg1.view (Rect.unit (s := S1x2x14x32768) ![0, k.val, ch0, 0] S1x1x7x32768.size inb).toLoadRect
        (harg1.unread x0)) h (ix2 c n) = x0 (ix4 0 k ⟨ch0 + c.val, by omega⟩ n) := by
  unfold shapeCast
  rw [reshapeEquiv_ix2_11ab, View.readAt_eq_ld, harg1.read_unread]
  show x0 _ = x0 _
  refine congrArg x0 (funext fun a => Fin.ext ?_)
  match a with
  | ⟨0, _⟩ => rfl
  | ⟨1, _⟩ => show k.val + 1 * 0 = k.val; omega
  | ⟨2, _⟩ => show ch0 + 1 * c.val = ch0 + c.val; omega
  | ⟨3, _⟩ => show 0 + 1 * n.val = n.val; omega

/-! The four loads: the two coordinates of the two animals. -/

theorem load_x1 (arg1 : Memref sig .tc .vmem S1x2x14x32768 .f32) (harg1 : arg1.IsWhole) (x0 : Vec Ideal S1x2x14x32768 .f32)
    (inb : ∀ a, (![0, 0, 0, 0] : Fin 4 → Nat) a + S1x1x7x32768.size a ≤ S1x2x14x32768.size a)
    (h : S1x1x7x32768.ShapeCasts S7x32768) :
    shapeCast S7x32768 (View.readAt (Elt Ideal) arg1.view (Rect.unit (s := S1x2x14x32768) ![0, 0, 0, 0] S1x1x7x32768.size inb).toLoadRect
        (harg1.unread x0)) h = coordOf (blockOne x0) 0 := by
  funext y
  obtain ⟨c, n, rfl⟩ : ∃ (c : Fin 7) (n : Fin 32768), y = ix2 c n := ⟨y 0, y 1, eq_ix2 y⟩
  exact (load_apply arg1 harg1 x0 0 0 (by omega) inb h c n).trans
    (congrArg (fun ch => x0 (ix4 0 0 ch n)) (Fin.ext (by show 0 + c.val = c.val; omega)))

theorem load_y1 (arg1 : Memref sig .tc .vmem S1x2x14x32768 .f32) (harg1 : arg1.IsWhole) (x0 : Vec Ideal S1x2x14x32768 .f32)
    (inb : ∀ a, (![0, 1, 0, 0] : Fin 4 → Nat) a + S1x1x7x32768.size a ≤ S1x2x14x32768.size a)
    (h : S1x1x7x32768.ShapeCasts S7x32768) :
    shapeCast S7x32768 (View.readAt (Elt Ideal) arg1.view (Rect.unit (s := S1x2x14x32768) ![0, 1, 0, 0] S1x1x7x32768.size inb).toLoadRect
        (harg1.unread x0)) h = coordOf (blockOne x0) 1 := by
  funext y
  obtain ⟨c, n, rfl⟩ : ∃ (c : Fin 7) (n : Fin 32768), y = ix2 c n := ⟨y 0, y 1, eq_ix2 y⟩
  exact (load_apply arg1 harg1 x0 1 0 (by omega) inb h c n).trans
    (congrArg (fun ch => x0 (ix4 0 1 ch n)) (Fin.ext (by show 0 + c.val = c.val; omega)))

theorem load_x2 (arg1 : Memref sig .tc .vmem S1x2x14x32768 .f32) (harg1 : arg1.IsWhole) (x0 : Vec Ideal S1x2x14x32768 .f32)
    (inb : ∀ a, (![0, 0, 7, 0] : Fin 4 → Nat) a + S1x1x7x32768.size a ≤ S1x2x14x32768.size a)
    (h : S1x1x7x32768.ShapeCasts S7x32768) :
    shapeCast S7x32768 (View.readAt (Elt Ideal) arg1.view (Rect.unit (s := S1x2x14x32768) ![0, 0, 7, 0] S1x1x7x32768.size inb).toLoadRect
        (harg1.unread x0)) h = coordOf (blockTwo x0) 0 := by
  funext y
  obtain ⟨c, n, rfl⟩ : ∃ (c : Fin 7) (n : Fin 32768), y = ix2 c n := ⟨y 0, y 1, eq_ix2 y⟩
  exact (load_apply arg1 harg1 x0 0 7 (by omega) inb h c n).trans
    (congrArg (fun ch => x0 (ix4 0 0 ch n)) (Fin.ext (by show 7 + c.val = c.val + 7; omega)))

theorem load_y2 (arg1 : Memref sig .tc .vmem S1x2x14x32768 .f32) (harg1 : arg1.IsWhole) (x0 : Vec Ideal S1x2x14x32768 .f32)
    (inb : ∀ a, (![0, 1, 7, 0] : Fin 4 → Nat) a + S1x1x7x32768.size a ≤ S1x2x14x32768.size a)
    (h : S1x1x7x32768.ShapeCasts S7x32768) :
    shapeCast S7x32768 (View.readAt (Elt Ideal) arg1.view (Rect.unit (s := S1x2x14x32768) ![0, 1, 7, 0] S1x1x7x32768.size inb).toLoadRect
        (harg1.unread x0)) h = coordOf (blockTwo x0) 1 := by
  funext y
  obtain ⟨c, n, rfl⟩ : ∃ (c : Fin 7) (n : Fin 32768), y = ix2 c n := ⟨y 0, y 1, eq_ix2 y⟩
  exact (load_apply arg1 harg1 x0 1 7 (by omega) inb h c n).trans
    (congrArg (fun ch => x0 (ix4 0 1 ch n)) (Fin.ext (by show 7 + c.val = c.val + 7; omega)))

/-! ## A stored piece: seven rows, as a [1, 7, 32768] block -/

/-- A piece's local index by coordinates. -/
theorem piece_idx (y : S1x7x32768.Idx) : ∃ (r : Fin 7) (n : Fin 32768), y = ix3 (0 : Fin 1) r n :=
  ⟨y 1, y 2, by
    have h0 : (y 0).val = 0 := by have : (y 0).val < 1 := (y 0).isLt; omega
    funext a
    match a with
    | ⟨0, _⟩ => exact Fin.ext h0
    | ⟨1, _⟩ => rfl
    | ⟨2, _⟩ => rfl⟩

/-- A piece's local index `(0, r, n)` of the piece at rows `7·s …` sits at row `7·s + r` of the block: group `s`, keypoint `r`. -/
theorem blockFeatures_piece (x0 : Vec Ideal S1x2x14x32768 .f32) (s : Nat)
    (inb : ∀ a, (![0, 7 * s, 0] : Fin 3 → Nat) a + S1x7x32768.size a ≤ S1x161x32768.size a) (r : Fin 7) (n : Fin 32768) :
    blockFeatures x0 ((Rect.unit (s := S1x161x32768) ![0, 7 * s, 0] S1x7x32768.size inb).emb (ix3 (0 : Fin 1) r n))
      = featureOf (blockOne x0) (blockTwo x0) s r n := by
  have key : ∀ (a : Nat) (m : Fin 32768), a = 7 * s + r.val → m = n →
      featureOf (blockOne x0) (blockTwo x0) (a / 7) ⟨a % 7, Nat.mod_lt _ (by decide)⟩ m
        = featureOf (blockOne x0) (blockTwo x0) s r n := by
    intro a m e1 e2
    subst e1 e2
    have hd : (7 * s + r.val) / 7 = s := by have := r.isLt; omega
    have hm : (⟨(7 * s + r.val) % 7, Nat.mod_lt _ (by decide)⟩ : Fin 7) = r :=
      Fin.ext (by show (7 * s + r.val) % 7 = r.val; have := r.isLt; omega)
    rw [hd, hm]
  exact key _ _ (by show 7 * s + 1 * r.val = 7 * s + r.val; omega) (Fin.ext (by show 0 + 1 * n.val = n.val; omega))

end Cert.KernelIdeal.Read

end
-- ==== Proof.MotionSteps.lean ====
/-
  The steps of the two animals as [7, 32768] vectors: what the body's first values hold.
  A coordinate vector minus itself one frame back (frame 0 staying put) is the step; the four loads give the four
  coordinate vectors, so four of the body's values are the four step vectors.
-/
import proofs.«129414_j76424648065748_2_alg».proof.Proof.KernelRead

set_option maxRecDepth 16384

noncomputable section

namespace Cert.KernelIdeal.Motion

open Cert.KernelIdeal Cert.KernelIdeal.Gen Cert.KernelIdeal.Read Idealize.ShloMosaic Idealize.ShloMosaic.ValueIdx Cert.Tracks
open Idealize.ShloMosaic.Tactic

/-- The step of every keypoint into every frame, one coordinate. -/
def stepV (p : Track) (k : Fin 2) : FVec Ideal S7x32768 .f32 := fun y => step p (y 0) (y 1) k

theorem stepV_apply (p : Track) (k : Fin 2) (c : Fin 7) (n : Fin 32768) : stepV p k (ix2 c n) = step p c n k := rfl

variable (c : Dev nD) (arg1 : Memref sig .tc .vmem S1x2x14x32768 .f32) (harg1 : arg1.IsWhole)
  (arg2 : Memref sig .tc .vmem S1x161x32768 .f32) (x0 : Vec Ideal S1x2x14x32768 .f32)

/-! The four coordinate vectors. -/
theorem x1_eq : kernelRun0_A.sl.r (F := Ideal) c arg1 harg1 x0 = coordOf (blockOne x0) 0 := by
  sl_unfold_run_names; unfold k0_pay4; exact load_x1 arg1 harg1 x0 _ _
theorem y1_eq : kernelRun0_A.sl.r_1 (F := Ideal) c arg1 harg1 x0 = coordOf (blockOne x0) 1 := by
  sl_unfold_run_names; unfold k0_pay5; exact load_y1 arg1 harg1 x0 _ _
theorem x2_eq : kernelRun0_A.sl.r_2 (F := Ideal) c arg1 harg1 x0 = coordOf (blockTwo x0) 0 := by
  sl_unfold_run_names; unfold k0_pay6; exact load_x2 arg1 harg1 x0 _ _
theorem y2_eq : kernelRun0_A.sl.r_3 (F := Ideal) c arg1 harg1 x0 = coordOf (blockTwo x0) 1 := by
  sl_unfold_run_names; unfold k0_pay7; exact load_y2 arg1 harg1 x0 _ _

/-! The four step vectors. -/
theorem dx1_eq : kernelRun0_A.sl.r_4 (F := Ideal) c arg1 harg1 x0 = stepV (blockOne x0) 0 := by
  sl_unfold_run_names; unfold k0_pay8 k0_pay4; dsimp only
  rw [load_x1 arg1 harg1 x0, shift_eq]; rfl
theorem dy1_eq : kernelRun0_A.sl.r_5 (F := Ideal) c arg1 harg1 x0 = stepV (blockOne x0) 1 := by
  sl_unfold_run_names; unfold k0_pay9 k0_pay5; dsimp only
  rw [load_y1 arg1 harg1 x0, shift_eq]; rfl
theorem dx2_eq : kernelRun0_A.sl.r_6 (F := Ideal) c arg1 harg1 x0 = stepV (blockTwo x0) 0 := by
  sl_unfold_run_names; unfold k0_pay10 k0_pay6; dsimp only
  rw [load_x2 arg1 harg1 x0, shift_eq]; rfl
theorem dy2_eq : kernelRun0_A.sl.r_9 (F := Ideal) c arg1 harg1 x0 = stepV (blockTwo x0) 1 := by
  sl_unfold_run_names; unfold k0_pay13 k0_pay11 k0_pay12 k0_pay7; dsimp only
  rw [load_y2 arg1 harg1 x0, shift_eq]; rfl

end Cert.KernelIdeal.Motion

end
-- ==== Proof.MotionA.lean ====
/-
  The first four stored pieces: the two speeds and the two cross products.
  Speed: the square root of the sum of the squared step coordinates. Cross product: the step's first coordinate times
  the change of its second, minus the second times the change of the first — the change of a step being the step
  minus itself one frame back.
-/
import proofs.«129414_j76424648065748_2_alg».proof.Proof.MotionSteps

set_option maxRecDepth 16384

noncomputable section

namespace Cert.KernelIdeal.Motion

open Cert.KernelIdeal Cert.KernelIdeal.Gen Cert.KernelIdeal.Read Idealize.ShloMosaic Idealize.ShloMosaic.ValueIdx Cert.Tracks
open Idealize.ShloMosaic.Tactic

variable (c : Dev nD) (arg1 : Memref sig .tc .vmem S1x2x14x32768 .f32) (harg1 : arg1.IsWhole)
  (arg2 : Memref sig .tc .vmem S1x161x32768 .f32) (x0 : Vec Ideal S1x2x14x32768 .f32)

/-- Rows 0–6: animal one's speeds. -/
theorem piece0 (r : Fin 7) (n : Fin 32768) :
    k0_pay14 (kernelRun0_A.sl.r_4 (F := Ideal) c arg1 harg1 x0) (kernelRun0_A.sl.r_5 c arg1 harg1 x0) (ix3 (0 : Fin 1) r n)
      = featureOf (blockOne x0) (blockTwo x0) 0 r n := by
  sl_unfold_run_names
  unfold k0_pay14 k0_pay8 k0_pay9 k0_pay4 k0_pay5
  dsimp only
  simp only [load_x1 arg1 harg1 x0, load_y1 arg1 harg1 x0]
  repeat rw [shift_eq]
  rw [shapeCast_ab_1ab_apply]
  rfl

/-- Rows 7–13: animal two's speeds. -/
theorem piece7 (r : Fin 7) (n : Fin 32768) :
    k0_pay15 kernelRun0_A.sl.v0 (kernelRun0_A.sl.r_3 (F := Ideal) c arg1 harg1 x0) (kernelRun0_A.sl.r_6 c arg1 harg1 x0)
        (kernelRun0_A.sl.r_7 c arg1 harg1 x0) (kernelRun0_A.sl.r_8 c arg1 harg1 x0) (ix3 (0 : Fin 1) r n)
      = featureOf (blockOne x0) (blockTwo x0) 1 r n := by
  sl_unfold_run_names
  unfold k0_pay15 k0_pay13 k0_pay12 k0_pay11 k0_pay10 k0_pay7 k0_pay6
  dsimp only
  simp only [load_x2 arg1 harg1 x0, load_y2 arg1 harg1 x0]
  repeat rw [shift_eq]
  rw [shapeCast_ab_1ab_apply]
  rfl

/-- Rows 14–20: animal one's cross products. -/
theorem piece14 (r : Fin 7) (n : Fin 32768) :
    k0_pay16 kernelRun0_A.sl.v0 (kernelRun0_A.sl.r_4 (F := Ideal) c arg1 harg1 x0) (kernelRun0_A.sl.r_5 c arg1 harg1 x0)
        (ix3 (0 : Fin 1) r n)
      = featureOf (blockOne x0) (blockTwo x0) 2 r n := by
  sl_unfold_run_names
  unfold k0_pay16 k0_pay8 k0_pay9 k0_pay4 k0_pay5
  dsimp only
  simp only [load_x1 arg1 harg1 x0, load_y1 arg1 harg1 x0]
  repeat rw [shift_eq]
  rw [shapeCast_ab_1ab_apply]
  rfl

/-- Rows 21–27: animal two's cross products. -/
theorem piece21 (r : Fin 7) (n : Fin 32768) :
    k0_pay18 kernelRun0_A.sl.v0 (kernelRun0_A.sl.r_6 (F := Ideal) c arg1 harg1 x0) (kernelRun0_A.sl.r_9 c arg1 harg1 x0)
        (kernelRun0_A.sl.r_10 c arg1 harg1 x0) (ix3 (0 : Fin 1) r n)
      = featureOf (blockOne x0) (blockTwo x0) 3 r n := by
  sl_unfold_run_names
  unfold k0_pay18 k0_pay17 k0_pay13 k0_pay12 k0_pay11 k0_pay10 k0_pay7 k0_pay6
  dsimp only
  simp only [load_x2 arg1 harg1 x0, load_y2 arg1 harg1 x0]
  repeat rw [shift_eq]
  rw [shapeCast_ab_1ab_apply]
  rfl

end Cert.KernelIdeal.Motion

end
-- ==== Proof.MotionB.lean ====
/-
  Rows read back, and the pieces computed from them: the turning cosines and the alignment of the two animals.
  The body reads the speeds back from the rows it has already stored. What a load of rows 7·s … 7·s + 6 reads, after
  stores each of which holds its rows of the block's features, is those features.
-/
import proofs.«129414_j76424648065748_2_alg».proof.Proof.MotionA

set_option maxRecDepth 16384

noncomputable section

namespace Cert.KernelIdeal.Motion

open Cert.KernelIdeal Cert.KernelIdeal.Gen Cert.KernelIdeal.Read Idealize.ShloMosaic Idealize.ShloMosaic.ValueIdx Cert.Tracks
open Idealize.ShloMosaic.Tactic

variable (c : Dev nD) (arg1 : Memref sig .tc .vmem S1x2x14x32768 .f32) (harg1 : arg1.IsWhole)
  (arg2 : Memref sig .tc .vmem S1x161x32768 .f32) (x0 : Vec Ideal S1x2x14x32768 .f32)

/-- The speeds of every keypoint at every frame. -/
def speedV (p : Track) : FVec Ideal S7x32768 .f32 := fun y => speed p (y 0) (y 1)

/-- A stored piece holds its rows of the block's features. -/
def Holds (p : View.Piece (Elt Ideal) S1x161x32768 .f32) : Prop :=
  ∀ x : p.1.shape.Idx, p.2 x = blockFeatures x0 (p.1.emb x)

/-- From the piece's rows by coordinates to the piece as stored. -/
theorem holds_of (s : Nat) (inb : ∀ a, (![0, 7 * s, 0] : Fin 3 → Nat) a + S1x7x32768.size a ≤ S1x161x32768.size a)
    (w : FVec Ideal S1x7x32768 .f32)
    (h : ∀ (r : Fin 7) (n : Fin 32768), w (ix3 (0 : Fin 1) r n) = featureOf (blockOne x0) (blockTwo x0) s r n) :
    Holds x0 ⟨Rect.unit (s := S1x161x32768) ![0, 7 * s, 0] S1x7x32768.size inb, w⟩ := by
  intro x
  obtain ⟨r, n, rfl⟩ := piece_idx x
  exact (h r n).trans (blockFeatures_piece x0 s inb r n).symm

/-- Rows 7·s … 7·s + 6 read back after stores that hold the features, squeezed to [7, 32768]. -/
theorem reload (L : List (View.Piece (Elt Ideal) S1x161x32768 .f32)) (s : Nat)
    (inb : ∀ a, (![0, 7 * s, 0] : Fin 3 → Nat) a + S1x7x32768.size a ≤ S1x161x32768.size a)
    (hL : ∀ p ∈ L, Holds x0 p) (w : FVec Ideal S1x7x32768 .f32)
    (hmem : (⟨Rect.unit (s := S1x161x32768) ![0, 7 * s, 0] S1x7x32768.size inb, w⟩ : View.Piece (Elt Ideal) S1x161x32768 .f32) ∈ L)
    (h : S1x7x32768.ShapeCasts S7x32768) (r : Fin 7) (n : Fin 32768) :
    shapeCast S7x32768 (arg2.view.readCov L (Rect.unit (s := S1x161x32768) ![0, 7 * s, 0] S1x7x32768.size inb).toLoadRect) h (ix2 r n)
      = featureOf (blockOne x0) (blockTwo x0) s r n := by
  rw [shapeCast_1ab_ab_apply, View.readCov_eq_canon']
  show View.canon L ((Rect.unit (s := S1x161x32768) ![0, 7 * s, 0] S1x7x32768.size inb).toLoadRect.idx (ix3 (0 : Fin 1) r n)) = _
  rw [View.canon_apply_of_pieces (blockFeatures x0) L (fun p hp x => hL p hp x) _ ⟨_, hmem, LoadRect.idx_mem _ _⟩]
  exact blockFeatures_piece x0 s inb r n

/-- After the first four stores every piece holds its features. -/
theorem holds4 : ∀ p ∈ kernelRun0_A.sl.H1_4 (F := Ideal) c arg1 harg1 x0, Holds x0 p := by
  unfold kernelRun0_A.sl.H1_4
  intro p hp
  simp only [List.mem_cons, List.mem_nil_iff, or_false] at hp
  rcases hp with rfl | rfl | rfl | rfl
  · exact holds_of x0 3 _ _ (piece21 c arg1 harg1 x0)
  · exact holds_of x0 2 _ _ (piece14 c arg1 harg1 x0)
  · exact holds_of x0 1 _ _ (piece7 c arg1 harg1 x0)
  · exact holds_of x0 0 _ _ (piece0 c arg1 harg1 x0)

/-- Animal one's speeds read back after the fourth store. -/
theorem n1a_eq : k0_pay19 (kernelRun0_A.sl.v99 (F := Ideal) c arg1 harg1 arg2 x0) = speedV (blockOne x0) := by
  funext y
  obtain ⟨r, n, rfl⟩ : ∃ (r : Fin 7) (n : Fin 32768), y = ix2 r n := ⟨y 0, y 1, eq_ix2 y⟩
  unfold k0_pay19 kernelRun0_A.sl.v99
  dsimp only
  exact reload arg2 x0 _ 0 _ (holds4 c arg1 harg1 x0) _
    (by unfold kernelRun0_A.sl.H1_4
        exact List.mem_cons_of_mem _ (List.mem_cons_of_mem _ (List.mem_cons_of_mem _ List.mem_cons_self))) _ r n

/-- Rows 28–34: animal one's turning cosines. -/
theorem piece28 (r : Fin 7) (n : Fin 32768) :
    k0_pay23 kernelRun0_A.sl.v0 (kernelRun0_A.sl.r_4 (F := Ideal) c arg1 harg1 x0) (kernelRun0_A.sl.r_5 c arg1 harg1 x0)
        (kernelRun0_A.sl.r_11 c arg1 harg1 arg2 x0) (kernelRun0_A.sl.r_12 c arg1 harg1 x0)
        (kernelRun0_A.sl.r_13 c arg1 harg1 x0) (kernelRun0_A.sl.r_14 c arg1 harg1 arg2 x0) (ix3 (0 : Fin 1) r n)
      = featureOf (blockOne x0) (blockTwo x0) 4 r n := by
  unfold kernelRun0_A.sl.r_11 kernelRun0_A.sl.r_12 kernelRun0_A.sl.r_13 kernelRun0_A.sl.r_14 kernelRun0_A.sl.v0
  rw [dx1_eq, dy1_eq]
  unfold k0_pay23 k0_pay22 k0_pay21 k0_pay20
  dsimp only
  rw [n1a_eq]
  repeat rw [shift_eq]
  rw [shapeCast_ab_1ab_apply, show (0#32 : BitVec 32) = BitVec.ofNat 32 0 from rfl, select_lane 0 (by omega)]
  show (if n.val = 0 then Ideal.ofBits .f32 0x00000000#32 else _) = turn (blockOne x0) r n
  unfold turn
  rw [Ideal.ofBits_zero_f32]
  rfl

end Cert.KernelIdeal.Motion

end
-- ==== Proof.MotionC.lean ====
/-
  The remaining motion pieces: animal two's turning cosines, the alignment of the two animals' steps, and the two
  leading cosines (each animal's step against the vector to, or from, the other animal).
-/
import proofs.«129414_j76424648065748_2_alg».proof.Proof.MotionB

set_option maxRecDepth 16384

noncomputable section

namespace Cert.KernelIdeal.Motion

open Cert.KernelIdeal Cert.KernelIdeal.Gen Cert.KernelIdeal.Read Idealize.ShloMosaic Idealize.ShloMosaic.ValueIdx Cert.Tracks
open Idealize.ShloMosaic.Tactic

variable (c : Dev nD) (arg1 : Memref sig .tc .vmem S1x2x14x32768 .f32) (harg1 : arg1.IsWhole)
  (arg2 : Memref sig .tc .vmem S1x161x32768 .f32) (x0 : Vec Ideal S1x2x14x32768 .f32)

/-- Zero minus a vector is its negation (on every extended real). -/
theorem zero_sub_eq (a : FVec Ideal S7x32768 .f32) :
    subf (broadcast S7x32768 (Scalar.ofBits (F := Ideal) .f32 0x00000000#32)) a = negf a := by
  funext y
  show Ideal.ofBits .f32 0x00000000#32 - a y = -(a y)
  rw [Ideal.ofBits_zero_f32, zero_sub]

theorem holds5 : ∀ p ∈ kernelRun0_A.sl.H1_5 (F := Ideal) c arg1 harg1 arg2 x0, Holds x0 p := by
  unfold kernelRun0_A.sl.H1_5
  intro p hp
  rcases List.mem_cons.mp hp with rfl | hp
  · exact holds_of x0 4 _ _ (piece28 c arg1 harg1 arg2 x0)
  · exact holds4 c arg1 harg1 x0 p hp

/-- Animal two's speeds read back after the fifth store. -/
theorem n2a_eq : shapeCast S7x32768 (kernelRun0_A.sl.v136 (F := Ideal) c arg1 harg1 arg2 x0) shapeCasts_S1x7x32768_S7x32768
    = speedV (blockTwo x0) := by
  funext y
  obtain ⟨r, n, rfl⟩ : ∃ (r : Fin 7) (n : Fin 32768), y = ix2 r n := ⟨y 0, y 1, eq_ix2 y⟩
  unfold kernelRun0_A.sl.v136
  exact reload arg2 x0 _ 1 _ (holds5 c arg1 harg1 arg2 x0) _
    (by unfold kernelRun0_A.sl.H1_5 kernelRun0_A.sl.H1_4
        exact List.mem_cons_of_mem _ (List.mem_cons_of_mem _ (List.mem_cons_of_mem _ List.mem_cons_self))) _ r n

/-- Rows 35–41: animal two's turning cosines. -/
theorem piece35 (r : Fin 7) (n : Fin 32768) :
    k0_pay26 kernelRun0_A.sl.v0 (kernelRun0_A.sl.r_15 (F := Ideal) c arg1 harg1 x0) (kernelRun0_A.sl.r_16 c arg1 harg1 arg2 x0)
        (ix3 (0 : Fin 1) r n)
      = featureOf (blockOne x0) (blockTwo x0) 5 r n := by
  unfold kernelRun0_A.sl.r_15 kernelRun0_A.sl.r_16 kernelRun0_A.sl.v0
  rw [dx2_eq, dy2_eq]
  unfold k0_pay26 k0_pay25 k0_pay24
  dsimp only
  rw [n2a_eq]
  repeat rw [shift_eq]
  rw [shapeCast_ab_1ab_apply, show (0#32 : BitVec 32) = BitVec.ofNat 32 0 from rfl, select_lane 0 (by omega)]
  show (if n.val = 0 then Ideal.ofBits .f32 0x00000000#32 else _) = turn (blockTwo x0) r n
  unfold turn
  rw [Ideal.ofBits_zero_f32]
  rfl

theorem holds6 : ∀ p ∈ kernelRun0_A.sl.H1_6 (F := Ideal) c arg1 harg1 arg2 x0, Holds x0 p := by
  unfold kernelRun0_A.sl.H1_6
  intro p hp
  rcases List.mem_cons.mp hp with rfl | hp
  · exact holds_of x0 5 _ _ (piece35 c arg1 harg1 arg2 x0)
  · exact holds5 c arg1 harg1 arg2 x0 p hp

/-- Both speeds read back after the sixth store. -/
theorem n1b_eq : shapeCast S7x32768 (kernelRun0_A.sl.v173 (F := Ideal) c arg1 harg1 arg2 x0) shapeCasts_S1x7x32768_S7x32768
    = speedV (blockOne x0) := by
  funext y
  obtain ⟨r, n, rfl⟩ : ∃ (r : Fin 7) (n : Fin 32768), y = ix2 r n := ⟨y 0, y 1, eq_ix2 y⟩
  unfold kernelRun0_A.sl.v173
  exact reload arg2 x0 _ 0 _ (holds6 c arg1 harg1 arg2 x0) _
    (by unfold kernelRun0_A.sl.H1_6 kernelRun0_A.sl.H1_5 kernelRun0_A.sl.H1_4
        exact List.mem_cons_of_mem _ (List.mem_cons_of_mem _ (List.mem_cons_of_mem _ (List.mem_cons_of_mem _
          (List.mem_cons_of_mem _ List.mem_cons_self))))) _ r n

theorem n2b_eq : shapeCast S7x32768 (kernelRun0_A.sl.v175 (F := Ideal) c arg1 harg1 arg2 x0) shapeCasts_S1x7x32768_S7x32768
    = speedV (blockTwo x0) := by
  funext y
  obtain ⟨r, n, rfl⟩ : ∃ (r : Fin 7) (n : Fin 32768), y = ix2 r n := ⟨y 0, y 1, eq_ix2 y⟩
  unfold kernelRun0_A.sl.v175
  exact reload arg2 x0 _ 1 _ (holds6 c arg1 harg1 arg2 x0) _
    (by unfold kernelRun0_A.sl.H1_6 kernelRun0_A.sl.H1_5 kernelRun0_A.sl.H1_4
        exact List.mem_cons_of_mem _ (List.mem_cons_of_mem _ (List.mem_cons_of_mem _ (List.mem_cons_of_mem _
          List.mem_cons_self)))) _ r n

/-- Rows 42–48: the cosine between the two animals' steps. -/
theorem piece42 (r : Fin 7) (n : Fin 32768) :
    k0_pay27 (kernelRun0_A.sl.r_4 (F := Ideal) c arg1 harg1 x0) (kernelRun0_A.sl.r_5 c arg1 harg1 x0)
        (kernelRun0_A.sl.r_6 c arg1 harg1 x0) (kernelRun0_A.sl.r_9 c arg1 harg1 x0)
        (kernelRun0_A.sl.v173 c arg1 harg1 arg2 x0) (kernelRun0_A.sl.v175 c arg1 harg1 arg2 x0) (ix3 (0 : Fin 1) r n)
      = featureOf (blockOne x0) (blockTwo x0) 6 r n := by
  rw [dx1_eq, dy1_eq, dx2_eq, dy2_eq]
  unfold k0_pay27
  rw [n1b_eq, n2b_eq, shapeCast_ab_1ab_apply]
  rfl

theorem holds7 : ∀ p ∈ kernelRun0_A.sl.H1_7 (F := Ideal) c arg1 harg1 arg2 x0, Holds x0 p := by
  unfold kernelRun0_A.sl.H1_7
  intro p hp
  rcases List.mem_cons.mp hp with rfl | hp
  · exact holds_of x0 6 _ _ (piece42 c arg1 harg1 arg2 x0)
  · exact holds6 c arg1 harg1 arg2 x0 p hp

/-- Both speeds read back after the seventh store. -/
theorem n1c_eq : shapeCast S7x32768 (kernelRun0_A.sl.v193 (F := Ideal) c arg1 harg1 arg2 x0) shapeCasts_S1x7x32768_S7x32768
    = speedV (blockOne x0) := by
  funext y
  obtain ⟨r, n, rfl⟩ : ∃ (r : Fin 7) (n : Fin 32768), y = ix2 r n := ⟨y 0, y 1, eq_ix2 y⟩
  unfold kernelRun0_A.sl.v193
  exact reload arg2 x0 _ 0 _ (holds7 c arg1 harg1 arg2 x0) _
    (by unfold kernelRun0_A.sl.H1_7 kernelRun0_A.sl.H1_6 kernelRun0_A.sl.H1_5 kernelRun0_A.sl.H1_4
        exact List.mem_cons_of_mem _ (List.mem_cons_of_mem _ (List.mem_cons_of_mem _ (List.mem_cons_of_mem _
          (List.mem_cons_of_mem _ (List.mem_cons_of_mem _ List.mem_cons_self)))))) _ r n

theorem n2c_eq : k0_pay31 (kernelRun0_A.sl.v195 (F := Ideal) c arg1 harg1 arg2 x0) = speedV (blockTwo x0) := by
  funext y
  obtain ⟨r, n, rfl⟩ : ∃ (r : Fin 7) (n : Fin 32768), y = ix2 r n := ⟨y 0, y 1, eq_ix2 y⟩
  unfold k0_pay31 kernelRun0_A.sl.v195
  dsimp only
  exact reload arg2 x0 _ 1 _ (holds7 c arg1 harg1 arg2 x0) _
    (by unfold kernelRun0_A.sl.H1_7 kernelRun0_A.sl.H1_6 kernelRun0_A.sl.H1_5 kernelRun0_A.sl.H1_4
        exact List.mem_cons_of_mem _ (List.mem_cons_of_mem _ (List.mem_cons_of_mem _ (List.mem_cons_of_mem _
          (List.mem_cons_of_mem _ List.mem_cons_self))))) _ r n

/-- Rows 147–153: animal one's step against the vector from animal two. -/
theorem piece147 (r : Fin 7) (n : Fin 32768) :
    k0_pay34 (kernelRun0_A.sl.r_21 (F := Ideal) c arg1 harg1 x0) (kernelRun0_A.sl.r_22 c arg1 harg1 arg2 x0)
        kernelRun0_A.sl.cst_79 (ix3 (0 : Fin 1) r n)
      = featureOf (blockOne x0) (blockTwo x0) 21 r n := by
  unfold kernelRun0_A.sl.r_21 kernelRun0_A.sl.r_22 kernelRun0_A.sl.cst_79
  rw [x1_eq, y1_eq, x2_eq, y2_eq, dx1_eq, dy1_eq]
  unfold k0_pay34 k0_pay33 k0_pay32 k0_pay30 k0_pay29 k0_pay28
  dsimp only
  rw [n1c_eq, shapeCast_ab_1ab_apply]
  rfl

/-- Rows 154–160: animal two's step against the opposite vector. -/
theorem piece154 (r : Fin 7) (n : Fin 32768) :
    k0_pay35 (kernelRun0_A.sl.r_6 (F := Ideal) c arg1 harg1 x0) (kernelRun0_A.sl.r_9 c arg1 harg1 x0)
        (kernelRun0_A.sl.r_17 c arg1 harg1 x0) (kernelRun0_A.sl.r_18 c arg1 harg1 x0)
        (kernelRun0_A.sl.r_19 c arg1 harg1 x0) (kernelRun0_A.sl.r_20 c arg1 harg1 arg2 x0) (ix3 (0 : Fin 1) r n)
      = featureOf (blockOne x0) (blockTwo x0) 22 r n := by
  unfold kernelRun0_A.sl.r_17 kernelRun0_A.sl.r_18 kernelRun0_A.sl.r_19 kernelRun0_A.sl.r_20
  rw [x1_eq, y1_eq, x2_eq, y2_eq, dx2_eq, dy2_eq]
  unfold k0_pay35 k0_pay30 k0_pay29 k0_pay28
  dsimp only
  rw [n2c_eq, zero_sub_eq, zero_sub_eq, shapeCast_ab_1ab_apply]
  rfl

end Cert.KernelIdeal.Motion

end
-- ==== Proof.DistCore.lean ====
/-
  The pairwise distances between the two animals' keypoints and their forward differences in time.

  For a rotation `i` of animal one's keypoints, row `j` of the distance block is the regularised distance from
  animal one's keypoint `(j - i - 1) mod 7` to animal two's keypoint `j`; the body computes each row from four
  one-row slices of the loaded coordinates, stacks the seven rows, and stores the stack and its forward difference
  in time (the stack rotated by 32767 frames minus the stack, the last frame differencing against zero).
  Here each is read at a row and a frame.
-/
import proofs.«129414_j76424648065748_2_alg».proof.Proof.KernelRead

set_option maxRecDepth 16384

noncomputable section

namespace Cert.KernelIdeal.Dist

open Cert.KernelIdeal Cert.KernelIdeal.Gen Idealize.ShloMosaic Idealize.ShloMosaic.ValueIdx
open Cert.KernelIdeal.Read Idealize.ShloMosaic.Tactic

/-- One row of a distance block, as the body computes it from four one-row slices:
    the length of the vector whose coordinates are the two differences, each with the regulariser added. -/
def rowOf (a b c d : FVec Ideal S1x32768 .f32) : FVec Ideal S1x32768 .f32 :=
  sqrt (addf (mulf (addf (subf a b) (broadcast S1x32768 (Scalar.ofBits .f32 0x358637BD#32)))
                   (addf (subf a b) (broadcast S1x32768 (Scalar.ofBits .f32 0x358637BD#32))))
             (mulf (addf (subf c d) (broadcast S1x32768 (Scalar.ofBits .f32 0x358637BD#32)))
                   (addf (subf c d) (broadcast S1x32768 (Scalar.ofBits .f32 0x358637BD#32)))))

theorem rowOf_apply (a b c d : FVec Ideal S1x32768 .f32) (j : S1x32768.Idx) :
    rowOf a b c d j = Tracks.len (a j - b j + Tracks.eps6) (c j - d j + Tracks.eps6) := rfl

/-- Any of the seven rows can be sliced out. -/
theorem slices_row (k : Fin 7) : S7x32768.Slices ![k.val, 0] S1x32768 :=
  ⟨rfl, fun a => by
    have := k.isLt
    fin_cases a
    · show k.val + 1 ≤ 7; omega
    · show 0 + 32768 ≤ 32768; omega⟩

/-- Row `k` of a seven-row array, as a one-row array. -/
def sl (k : Fin 7) (v : FVec Ideal S7x32768 .f32) : FVec Ideal S1x32768 .f32 :=
  extractStridedSlice S1x32768 ![k.val, 0] v (slices_row k)

theorem sl_apply (k : Fin 7) (v : FVec Ideal S7x32768 .f32) (n : Fin 32768) :
    sl k v (ix2 (0 : Fin 1) n) = v (ix2 k n) :=
  by
  unfold sl
  exact extractStridedSlice_apply ![k.val, 0] v (slices_row k) (ix2 (0 : Fin 1) n) (ix2 k n) (by
    intro a; fin_cases a <;> simp [ix2])

/-- Row `j` of rotation `i`: animal one's keypoint `partner i j` against animal two's keypoint `j`. -/
def rowAt (i : Nat) (v2 v4 v6 v8 : FVec Ideal S7x32768 .f32) (j : Fin 7) : FVec Ideal S1x32768 .f32 :=
  rowOf (sl (Tracks.partner i j) v2) (sl j v6) (sl (Tracks.partner i j) v4) (sl j v8)

/-- The seven rows of rotation `i`, stacked. -/
def chunkOf (i : Nat) (v2 v4 v6 v8 : FVec Ideal S7x32768 .f32) : FVec Ideal S7x32768 .f32 :=
  concatenate S7x32768 0 [⟨S1x32768, rowAt i v2 v4 v6 v8 0⟩, ⟨S1x32768, rowAt i v2 v4 v6 v8 1⟩,
    ⟨S1x32768, rowAt i v2 v4 v6 v8 2⟩, ⟨S1x32768, rowAt i v2 v4 v6 v8 3⟩, ⟨S1x32768, rowAt i v2 v4 v6 v8 4⟩,
    ⟨S1x32768, rowAt i v2 v4 v6 v8 5⟩, ⟨S1x32768, rowAt i v2 v4 v6 v8 6⟩]
    Gen.concatenates_S1x32768_S1x32768_S1x32768_S1x32768_S1x32768_S1x32768_S1x32768_S7x32768_d0

/-- Seven one-row arrays stacked along the rows, read at row `r`, frame `n`: array `r` at its only row. -/
theorem cat7_apply (f : Fin 7 → FVec Ideal S1x32768 .f32)
    (h : Shape.Concatenates [S1x32768, S1x32768, S1x32768, S1x32768, S1x32768, S1x32768, S1x32768] S7x32768 0)
    (r : Fin 7) (n : Fin 32768) :
    concatenate S7x32768 0 [⟨S1x32768, f 0⟩, ⟨S1x32768, f 1⟩, ⟨S1x32768, f 2⟩, ⟨S1x32768, f 3⟩,
      ⟨S1x32768, f 4⟩, ⟨S1x32768, f 5⟩, ⟨S1x32768, f 6⟩] h (ix2 r n) = f r (ix2 (0 : Fin 1) n) := by
  have key : ∀ (k : Nat) (hk : k < 7),
      concatenate S7x32768 0 [⟨S1x32768, f 0⟩, ⟨S1x32768, f 1⟩, ⟨S1x32768, f 2⟩, ⟨S1x32768, f 3⟩,
        ⟨S1x32768, f 4⟩, ⟨S1x32768, f 5⟩, ⟨S1x32768, f 6⟩] h (ix2 (⟨k, hk⟩ : Fin 7) n)
        = f ⟨k, hk⟩ (ix2 (0 : Fin 1) n) := by
    intro k hk
    have hi : ∀ b : Fin S1x32768.rank, b.cast (rfl : S1x32768.rank = S7x32768.rank) ≠ (0 : Fin S7x32768.rank) →
        ((ix2 (0 : Fin 1) n : S1x32768.Idx) b).val
          = ((ix2 (⟨k, hk⟩ : Fin 7) n : S7x32768.Idx) (b.cast (rfl : S1x32768.rank = S7x32768.rank))).val := by
      intro b hb
      fin_cases b
      · exact absurd rfl hb
      · rfl
    interval_cases k
    · exact concatenate_apply_piece 0 [⟨S1x32768, f 0⟩, ⟨S1x32768, f 1⟩, ⟨S1x32768, f 2⟩, ⟨S1x32768, f 3⟩, ⟨S1x32768, f 4⟩, ⟨S1x32768, f 5⟩, ⟨S1x32768, f 6⟩] h _ 0 (by simp) S1x32768 (f 0) rfl rfl 0 rfl (ix2 0 n) hi rfl
    · exact concatenate_apply_piece 0 [⟨S1x32768, f 0⟩, ⟨S1x32768, f 1⟩, ⟨S1x32768, f 2⟩, ⟨S1x32768, f 3⟩, ⟨S1x32768, f 4⟩, ⟨S1x32768, f 5⟩, ⟨S1x32768, f 6⟩] h _ 1 (by simp) S1x32768 (f 1) rfl rfl 1 rfl (ix2 0 n) hi rfl
    · exact concatenate_apply_piece 0 [⟨S1x32768, f 0⟩, ⟨S1x32768, f 1⟩, ⟨S1x32768, f 2⟩, ⟨S1x32768, f 3⟩, ⟨S1x32768, f 4⟩, ⟨S1x32768, f 5⟩, ⟨S1x32768, f 6⟩] h _ 2 (by simp) S1x32768 (f 2) rfl rfl 2 rfl (ix2 0 n) hi rfl
    · exact concatenate_apply_piece 0 [⟨S1x32768, f 0⟩, ⟨S1x32768, f 1⟩, ⟨S1x32768, f 2⟩, ⟨S1x32768, f 3⟩, ⟨S1x32768, f 4⟩, ⟨S1x32768, f 5⟩, ⟨S1x32768, f 6⟩] h _ 3 (by simp) S1x32768 (f 3) rfl rfl 3 rfl (ix2 0 n) hi rfl
    · exact concatenate_apply_piece 0 [⟨S1x32768, f 0⟩, ⟨S1x32768, f 1⟩, ⟨S1x32768, f 2⟩, ⟨S1x32768, f 3⟩, ⟨S1x32768, f 4⟩, ⟨S1x32768, f 5⟩, ⟨S1x32768, f 6⟩] h _ 4 (by simp) S1x32768 (f 4) rfl rfl 4 rfl (ix2 0 n) hi rfl
    · exact concatenate_apply_piece 0 [⟨S1x32768, f 0⟩, ⟨S1x32768, f 1⟩, ⟨S1x32768, f 2⟩, ⟨S1x32768, f 3⟩, ⟨S1x32768, f 4⟩, ⟨S1x32768, f 5⟩, ⟨S1x32768, f 6⟩] h _ 5 (by simp) S1x32768 (f 5) rfl rfl 5 rfl (ix2 0 n) hi rfl
    · exact concatenate_apply_piece 0 [⟨S1x32768, f 0⟩, ⟨S1x32768, f 1⟩, ⟨S1x32768, f 2⟩, ⟨S1x32768, f 3⟩, ⟨S1x32768, f 4⟩, ⟨S1x32768, f 5⟩, ⟨S1x32768, f 6⟩] h _ 6 (by simp) S1x32768 (f 6) rfl rfl 6 rfl (ix2 0 n) hi rfl
  exact key r.val r.isLt

theorem chunkOf_apply (p q : Tracks.Track) (v2 v4 v6 v8 : FVec Ideal S7x32768 .f32)
    (h2 : ∀ (ch : Fin 7) (n : Fin 32768), v2 (ix2 ch n) = p ch n 0)
    (h4 : ∀ (ch : Fin 7) (n : Fin 32768), v4 (ix2 ch n) = p ch n 1)
    (h6 : ∀ (ch : Fin 7) (n : Fin 32768), v6 (ix2 ch n) = q ch n 0)
    (h8 : ∀ (ch : Fin 7) (n : Fin 32768), v8 (ix2 ch n) = q ch n 1)
    (i : Nat) (r : Fin 7) (n : Fin 32768) :
    chunkOf i v2 v4 v6 v8 (ix2 r n) = Tracks.dist p q i r n := by
  unfold chunkOf
  refine (cat7_apply (rowAt i v2 v4 v6 v8) _ r n).trans ?_
  unfold rowAt
  rw [rowOf_apply, sl_apply, sl_apply, sl_apply, sl_apply, h2, h4, h6, h8]
  rfl

/-- The forward difference in time of a seven-row block, as the body computes it: the block rotated by 32767
    frames (frame `n` reads frame `n + 1`, around the end) minus the block, and at the last frame zero minus
    the block. -/
def ddOf (D : FVec Ideal S7x32768 .f32) : FVec Ideal S7x32768 .f32 :=
  select (cmpi .eq kernelRun0_A.sl.v0 (broadcast S7x32768 32767#32))
    (subf (broadcast S7x32768 (Scalar.ofBits .f32 0x00000000#32)) D)
    (subf (dynamicRotate 1 32767#32 none D Gen.rotates_S7x32768_d1) D)

theorem ddOf_apply (D : FVec Ideal S7x32768 .f32) (r : Fin 7) (n : Fin 32768) :
    ddOf D (ix2 r n)
      = if n.val = 32767 then -(D (ix2 r n)) else D (ix2 r (Tracks.next n)) - D (ix2 r n) := by
  have hrot : dynamicRotate 1 32767#32 none D Gen.rotates_S7x32768_d1 (ix2 r n) = D (ix2 r (Tracks.next n)) :=
    dynamicRotate_apply 1 32767#32 D _ (ix2 r n) (ix2 r (Tracks.next n)) (by
      intro b; fin_cases b
      · simp [ix2]
      · have := n.isLt
        simp [ix2, Tracks.next])
  have hv0 : kernelRun0_A.sl.v0 (ix2 r n) = BitVec.ofNat 32 n.val := by
    unfold kernelRun0_A.sl.v0
    exact iota_single_apply .tc S7x32768 32 1 _ (ix2 r n)
  show Scalar.select (IntOp.cmpi .eq (kernelRun0_A.sl.v0 (ix2 r n)) 32767#32)
      (Ideal.ofBits .f32 0x00000000#32 - D (ix2 r n))
      (dynamicRotate 1 32767#32 none D Gen.rotates_S7x32768_d1 (ix2 r n) - D (ix2 r n)) = _
  rw [hrot, hv0, Ideal.ofBits_zero_f32, zero_sub]
  unfold Scalar.select
  have hn := n.isLt
  by_cases h : n.val = 32767
  · rw [if_pos h, if_pos]
    rw [h]; decide
  · rw [if_neg h, if_neg]
    intro hc
    apply h
    have : BitVec.ofNat 32 n.val = 32767#32 := by
      by_contra hne
      have hb : (BitVec.ofNat 32 n.val == 32767#32) = false := beq_eq_false_iff_ne.mpr hne
      simp [IntOp.cmpi, hb] at hc
    have := congrArg BitVec.toNat this
    simp at this
    omega

/-- The distance block of rotation `i` over the two animals' coordinates, read at a row and a frame. -/
theorem chunkOf_coord (p q : Tracks.Track) (i : Nat) (r : Fin 7) (n : Fin 32768) :
    chunkOf i (coordOf p 0) (coordOf p 1) (coordOf q 0) (coordOf q 1) (ix2 r n) = Tracks.dist p q i r n :=
  chunkOf_apply p q _ _ _ _ (fun _ _ => rfl) (fun _ _ => rfl) (fun _ _ => rfl) (fun _ _ => rfl) i r n

/-- Groups 7–13 of the features are the distances. -/
theorem featureOf_dist (p q : Tracks.Track) (i : Nat) (hi : i < 7) (r : Fin 7) (n : Fin 32768) :
    Tracks.featureOf p q (7 + i) r n = Tracks.dist p q i r n := by
  unfold Tracks.featureOf
  rw [if_neg (by omega), if_neg (by omega), if_neg (by omega), if_neg (by omega), if_neg (by omega),
    if_neg (by omega), if_neg (by omega), if_pos (by omega), Nat.add_sub_cancel_left]

/-- Groups 14–20 are their forward differences. -/
theorem featureOf_ddist (p q : Tracks.Track) (i : Nat) (hi : i < 7) (r : Fin 7) (n : Fin 32768) :
    Tracks.featureOf p q (14 + i) r n = Tracks.ddist p q i r n := by
  unfold Tracks.featureOf
  rw [if_neg (by omega), if_neg (by omega), if_neg (by omega), if_neg (by omega), if_neg (by omega),
    if_neg (by omega), if_neg (by omega), if_neg (by omega), if_pos (by omega), Nat.add_sub_cancel_left]

/-- The stored distance block of rotation `i`, as a [1, 7, 32768] piece, read at a row and a frame. -/
theorem dpiece_at (x0 : Vec Ideal S1x2x14x32768 .f32) (i : Nat) (hi : i < 7) (h : S7x32768.ShapeCasts S1x7x32768)
    (r : Fin 7) (n : Fin 32768) :
    shapeCast S1x7x32768 (chunkOf i (coordOf (blockOne x0) 0) (coordOf (blockOne x0) 1)
        (coordOf (blockTwo x0) 0) (coordOf (blockTwo x0) 1)) h (ix3 (0 : Fin 1) r n)
      = Tracks.featureOf (blockOne x0) (blockTwo x0) (7 + i) r n := by
  rw [featureOf_dist _ _ i hi]
  exact (shapeCast_ab_1ab_apply _ h 0 r n).trans (chunkOf_coord _ _ i r n)

/-- The stored forward difference of the distance block of rotation `i`, read at a row and a frame. -/
theorem ddpiece_at (x0 : Vec Ideal S1x2x14x32768 .f32) (i : Nat) (hi : i < 7) (h : S7x32768.ShapeCasts S1x7x32768)
    (r : Fin 7) (n : Fin 32768) :
    shapeCast S1x7x32768 (ddOf (chunkOf i (coordOf (blockOne x0) 0) (coordOf (blockOne x0) 1)
        (coordOf (blockTwo x0) 0) (coordOf (blockTwo x0) 1))) h (ix3 (0 : Fin 1) r n)
      = Tracks.featureOf (blockOne x0) (blockTwo x0) (14 + i) r n := by
  rw [featureOf_ddist _ _ i hi]
  refine (shapeCast_ab_1ab_apply _ h 0 r n).trans ?_
  rw [ddOf_apply, chunkOf_coord, chunkOf_coord]
  rfl

/-! The four loads of the run, as the coordinates of the two animals. -/

theorem run_x1 (c : Dev nD) (arg1 : Memref sig .tc .vmem S1x2x14x32768 .f32) (harg1 : arg1.IsWhole)
    (x0 : Vec Ideal S1x2x14x32768 .f32) :
    kernelRun0_A.sl.r (F := Ideal) c arg1 harg1 x0 = coordOf (blockOne x0) 0 := by
  unfold kernelRun0_A.sl.r k0_pay4; exact load_x1 arg1 harg1 x0 _ _

theorem run_y1 (c : Dev nD) (arg1 : Memref sig .tc .vmem S1x2x14x32768 .f32) (harg1 : arg1.IsWhole)
    (x0 : Vec Ideal S1x2x14x32768 .f32) :
    kernelRun0_A.sl.r_1 (F := Ideal) c arg1 harg1 x0 = coordOf (blockOne x0) 1 := by
  unfold kernelRun0_A.sl.r_1 k0_pay5; exact load_y1 arg1 harg1 x0 _ _

theorem run_x2 (c : Dev nD) (arg1 : Memref sig .tc .vmem S1x2x14x32768 .f32) (harg1 : arg1.IsWhole)
    (x0 : Vec Ideal S1x2x14x32768 .f32) :
    kernelRun0_A.sl.r_2 (F := Ideal) c arg1 harg1 x0 = coordOf (blockTwo x0) 0 := by
  unfold kernelRun0_A.sl.r_2 k0_pay6; exact load_x2 arg1 harg1 x0 _ _

theorem run_y2 (c : Dev nD) (arg1 : Memref sig .tc .vmem S1x2x14x32768 .f32) (harg1 : arg1.IsWhole)
    (x0 : Vec Ideal S1x2x14x32768 .f32) :
    kernelRun0_A.sl.r_3 (F := Ideal) c arg1 harg1 x0 = coordOf (blockTwo x0) 1 := by
  unfold kernelRun0_A.sl.r_3 k0_pay7; exact load_y2 arg1 harg1 x0 _ _

end Cert.KernelIdeal.Dist
end
-- ==== Proof.Dist0.lean ====
/-
  Rotation 0 of the pairwise distances (rows 49–55 of the block) and its forward difference in time
  (rows 98–104): what the body stores there is the stack of the seven rows of rotation 0, and the
  difference of that stack, over the four loaded coordinates. Unfolding the body's named values shows each
  stored value to be that stack (the two sides are the same term once the names are opened).
-/
import proofs.«129414_j76424648065748_2_alg».proof.Proof.DistCore

set_option maxRecDepth 16384

noncomputable section

namespace Cert.KernelIdeal.Dist

open Cert.KernelIdeal Cert.KernelIdeal.Gen Idealize.ShloMosaic Idealize.ShloMosaic.ValueIdx
open Cert.KernelIdeal.Read

/-- Rows 49–55, read at a row and a frame: the distances of rotation 0 (feature group 7). -/
theorem piece49 (c : Dev nD) (arg1 : Memref sig .tc .vmem S1x2x14x32768 .f32) (harg1 : arg1.IsWhole)
    (x0 : Vec Ideal S1x2x14x32768 .f32) (r : Fin 7) (n : Fin 32768) :
    k0_pay46 (F := Ideal) (kernelRun0_A.sl.r c arg1 harg1 x0) (kernelRun0_A.sl.r_1 c arg1 harg1 x0)
      (kernelRun0_A.sl.r_2 c arg1 harg1 x0) (kernelRun0_A.sl.r_3 c arg1 harg1 x0)
      (kernelRun0_A.sl.r_23 c arg1 harg1 x0) (kernelRun0_A.sl.r_26 c arg1 harg1 x0)
      (kernelRun0_A.sl.r_27 c arg1 harg1 x0) (kernelRun0_A.sl.r_28 c arg1 harg1 x0)
      (kernelRun0_A.sl.r_29 c arg1 harg1 x0) (kernelRun0_A.sl.r_30 c arg1 harg1 x0)
      (kernelRun0_A.sl.r_31 c arg1 harg1 x0)
        (ix3 (0 : Fin 1) r n)
      = Tracks.featureOf (blockOne x0) (blockTwo x0) 7 r n := by
  have e : k0_pay46 (F := Ideal) (kernelRun0_A.sl.r c arg1 harg1 x0) (kernelRun0_A.sl.r_1 c arg1 harg1 x0)
          (kernelRun0_A.sl.r_2 c arg1 harg1 x0) (kernelRun0_A.sl.r_3 c arg1 harg1 x0)
          (kernelRun0_A.sl.r_23 c arg1 harg1 x0) (kernelRun0_A.sl.r_26 c arg1 harg1 x0)
          (kernelRun0_A.sl.r_27 c arg1 harg1 x0) (kernelRun0_A.sl.r_28 c arg1 harg1 x0)
          (kernelRun0_A.sl.r_29 c arg1 harg1 x0) (kernelRun0_A.sl.r_30 c arg1 harg1 x0)
          (kernelRun0_A.sl.r_31 c arg1 harg1 x0)
      = shapeCast S1x7x32768 (chunkOf 0 (kernelRun0_A.sl.r c arg1 harg1 x0) (kernelRun0_A.sl.r_1 c arg1 harg1 x0)
          (kernelRun0_A.sl.r_2 c arg1 harg1 x0) (kernelRun0_A.sl.r_3 c arg1 harg1 x0))
          Gen.shapeCasts_S7x32768_S1x7x32768 := rfl
  rw [e, run_x1, run_y1, run_x2, run_y2]
  exact dpiece_at x0 0 (by omega) _ r n

/-- Rows 98–104, read at a row and a frame: the forward differences of the distances of rotation 0
    (feature group 14). -/
theorem piece98 (c : Dev nD) (arg1 : Memref sig .tc .vmem S1x2x14x32768 .f32) (harg1 : arg1.IsWhole)
    (x0 : Vec Ideal S1x2x14x32768 .f32) (r : Fin 7) (n : Fin 32768) :
    k0_pay47 (F := Ideal) kernelRun0_A.sl.v0 (kernelRun0_A.sl.r c arg1 harg1 x0)
      (kernelRun0_A.sl.r_1 c arg1 harg1 x0) (kernelRun0_A.sl.r_2 c arg1 harg1 x0)
      (kernelRun0_A.sl.r_3 c arg1 harg1 x0) (kernelRun0_A.sl.r_23 c arg1 harg1 x0)
      (kernelRun0_A.sl.r_26 c arg1 harg1 x0) (kernelRun0_A.sl.r_27 c arg1 harg1 x0)
      (kernelRun0_A.sl.r_28 c arg1 harg1 x0) (kernelRun0_A.sl.r_29 c arg1 harg1 x0)
      (kernelRun0_A.sl.r_30 c arg1 harg1 x0) (kernelRun0_A.sl.r_31 c arg1 harg1 x0)
        (ix3 (0 : Fin 1) r n)
      = Tracks.featureOf (blockOne x0) (blockTwo x0) 14 r n := by
  have e : k0_pay47 (F := Ideal) kernelRun0_A.sl.v0 (kernelRun0_A.sl.r c arg1 harg1 x0)
          (kernelRun0_A.sl.r_1 c arg1 harg1 x0) (kernelRun0_A.sl.r_2 c arg1 harg1 x0)
          (kernelRun0_A.sl.r_3 c arg1 harg1 x0) (kernelRun0_A.sl.r_23 c arg1 harg1 x0)
          (kernelRun0_A.sl.r_26 c arg1 harg1 x0) (kernelRun0_A.sl.r_27 c arg1 harg1 x0)
          (kernelRun0_A.sl.r_28 c arg1 harg1 x0) (kernelRun0_A.sl.r_29 c arg1 harg1 x0)
          (kernelRun0_A.sl.r_30 c arg1 harg1 x0) (kernelRun0_A.sl.r_31 c arg1 harg1 x0)
      = shapeCast S1x7x32768 (ddOf (chunkOf 0 (kernelRun0_A.sl.r c arg1 harg1 x0) (kernelRun0_A.sl.r_1 c arg1 harg1 x0)
          (kernelRun0_A.sl.r_2 c arg1 harg1 x0) (kernelRun0_A.sl.r_3 c arg1 harg1 x0)))
          Gen.shapeCasts_S7x32768_S1x7x32768 := rfl
  rw [e, run_x1, run_y1, run_x2, run_y2]
  exact ddpiece_at x0 0 (by omega) _ r n

end Cert.KernelIdeal.Dist
end
-- ==== Proof.Dist1.lean ====
/-
  Rotation 1 of the pairwise distances (rows 56–62 of the block) and its forward difference in time
  (rows 105–111): what the body stores there is the stack of the seven rows of rotation 1, and the
  difference of that stack, over the four loaded coordinates. Unfolding the body's named values shows each
  stored value to be that stack (the two sides are the same term once the names are opened).
-/
import proofs.«129414_j76424648065748_2_alg».proof.Proof.DistCore

set_option maxRecDepth 16384

noncomputable section

namespace Cert.KernelIdeal.Dist

open Cert.KernelIdeal Cert.KernelIdeal.Gen Idealize.ShloMosaic Idealize.ShloMosaic.ValueIdx
open Cert.KernelIdeal.Read

/-- Rows 56–62, read at a row and a frame: the distances of rotation 1 (feature group 8). -/
theorem piece56 (c : Dev nD) (arg1 : Memref sig .tc .vmem S1x2x14x32768 .f32) (harg1 : arg1.IsWhole)
    (x0 : Vec Ideal S1x2x14x32768 .f32) (r : Fin 7) (n : Fin 32768) :
    k0_pay59 (F := Ideal) (kernelRun0_A.sl.r c arg1 harg1 x0) (kernelRun0_A.sl.r_1 c arg1 harg1 x0)
      (kernelRun0_A.sl.r_2 c arg1 harg1 x0) (kernelRun0_A.sl.r_3 c arg1 harg1 x0)
      (kernelRun0_A.sl.r_34 c arg1 harg1 x0) (kernelRun0_A.sl.r_35 c arg1 harg1 x0)
      (kernelRun0_A.sl.r_36 c arg1 harg1 x0) (kernelRun0_A.sl.r_37 c arg1 harg1 x0)
      (kernelRun0_A.sl.r_38 c arg1 harg1 x0) (kernelRun0_A.sl.r_39 c arg1 harg1 x0)
      (kernelRun0_A.sl.r_40 c arg1 harg1 x0)
        (ix3 (0 : Fin 1) r n)
      = Tracks.featureOf (blockOne x0) (blockTwo x0) 8 r n := by
  have e : k0_pay59 (F := Ideal) (kernelRun0_A.sl.r c arg1 harg1 x0) (kernelRun0_A.sl.r_1 c arg1 harg1 x0)
          (kernelRun0_A.sl.r_2 c arg1 harg1 x0) (kernelRun0_A.sl.r_3 c arg1 harg1 x0)
          (kernelRun0_A.sl.r_34 c arg1 harg1 x0) (kernelRun0_A.sl.r_35 c arg1 harg1 x0)
          (kernelRun0_A.sl.r_36 c arg1 harg1 x0) (kernelRun0_A.sl.r_37 c arg1 harg1 x0)
          (kernelRun0_A.sl.r_38 c arg1 harg1 x0) (kernelRun0_A.sl.r_39 c arg1 harg1 x0)
          (kernelRun0_A.sl.r_40 c arg1 harg1 x0)
      = shapeCast S1x7x32768 (chunkOf 1 (kernelRun0_A.sl.r c arg1 harg1 x0) (kernelRun0_A.sl.r_1 c arg1 harg1 x0)
          (kernelRun0_A.sl.r_2 c arg1 harg1 x0) (kernelRun0_A.sl.r_3 c arg1 harg1 x0))
          Gen.shapeCasts_S7x32768_S1x7x32768 := rfl
  rw [e, run_x1, run_y1, run_x2, run_y2]
  exact dpiece_at x0 1 (by omega) _ r n

/-- Rows 105–111, read at a row and a frame: the forward differences of the distances of rotation 1
    (feature group 15). -/
theorem piece105 (c : Dev nD) (arg1 : Memref sig .tc .vmem S1x2x14x32768 .f32) (harg1 : arg1.IsWhole)
    (x0 : Vec Ideal S1x2x14x32768 .f32) (r : Fin 7) (n : Fin 32768) :
    k0_pay60 (F := Ideal) (kernelRun0_A.sl.r_41 c arg1 harg1 x0)
        (ix3 (0 : Fin 1) r n)
      = Tracks.featureOf (blockOne x0) (blockTwo x0) 15 r n := by
  have e : k0_pay60 (F := Ideal) (kernelRun0_A.sl.r_41 c arg1 harg1 x0)
      = shapeCast S1x7x32768 (ddOf (chunkOf 1 (kernelRun0_A.sl.r c arg1 harg1 x0) (kernelRun0_A.sl.r_1 c arg1 harg1 x0)
          (kernelRun0_A.sl.r_2 c arg1 harg1 x0) (kernelRun0_A.sl.r_3 c arg1 harg1 x0)))
          Gen.shapeCasts_S7x32768_S1x7x32768 := rfl
  rw [e, run_x1, run_y1, run_x2, run_y2]
  exact ddpiece_at x0 1 (by omega) _ r n

end Cert.KernelIdeal.Dist
end
-- ==== Proof.Dist2.lean ====
/-
  Rotation 2 of the pairwise distances (rows 63–69 of the block) and its forward difference in time
  (rows 112–118): what the body stores there is the stack of the seven rows of rotation 2, and the
  difference of that stack, over the four loaded coordinates. Unfolding the body's named values shows each
  stored value to be that stack (the two sides are the same term once the names are opened).
-/
import proofs.«129414_j76424648065748_2_alg».proof.Proof.DistCore

set_option maxRecDepth 16384

noncomputable section

namespace Cert.KernelIdeal.Dist

open Cert.KernelIdeal Cert.KernelIdeal.Gen Idealize.ShloMosaic Idealize.ShloMosaic.ValueIdx
open Cert.KernelIdeal.Read

/-- Rows 63–69, read at a row and a frame: the distances of rotation 2 (feature group 9). -/
theorem piece63 (c : Dev nD) (arg1 : Memref sig .tc .vmem S1x2x14x32768 .f32) (harg1 : arg1.IsWhole)
    (x0 : Vec Ideal S1x2x14x32768 .f32) (r : Fin 7) (n : Fin 32768) :
    k0_pay68 (F := Ideal) (kernelRun0_A.sl.r_47 c arg1 harg1 x0)
        (ix3 (0 : Fin 1) r n)
      = Tracks.featureOf (blockOne x0) (blockTwo x0) 9 r n := by
  have e : k0_pay68 (F := Ideal) (kernelRun0_A.sl.r_47 c arg1 harg1 x0)
      = shapeCast S1x7x32768 (chunkOf 2 (kernelRun0_A.sl.r c arg1 harg1 x0) (kernelRun0_A.sl.r_1 c arg1 harg1 x0)
          (kernelRun0_A.sl.r_2 c arg1 harg1 x0) (kernelRun0_A.sl.r_3 c arg1 harg1 x0))
          Gen.shapeCasts_S7x32768_S1x7x32768 := rfl
  rw [e, run_x1, run_y1, run_x2, run_y2]
  exact dpiece_at x0 2 (by omega) _ r n

/-- Rows 112–118, read at a row and a frame: the forward differences of the distances of rotation 2
    (feature group 16). -/
theorem piece112 (c : Dev nD) (arg1 : Memref sig .tc .vmem S1x2x14x32768 .f32) (harg1 : arg1.IsWhole)
    (x0 : Vec Ideal S1x2x14x32768 .f32) (r : Fin 7) (n : Fin 32768) :
    k0_pay69 (F := Ideal) kernelRun0_A.sl.v0 (kernelRun0_A.sl.r_47 c arg1 harg1 x0)
      (kernelRun0_A.sl.r_48 c arg1 harg1 x0)
        (ix3 (0 : Fin 1) r n)
      = Tracks.featureOf (blockOne x0) (blockTwo x0) 16 r n := by
  have e : k0_pay69 (F := Ideal) kernelRun0_A.sl.v0 (kernelRun0_A.sl.r_47 c arg1 harg1 x0)
          (kernelRun0_A.sl.r_48 c arg1 harg1 x0)
      = shapeCast S1x7x32768 (ddOf (chunkOf 2 (kernelRun0_A.sl.r c arg1 harg1 x0) (kernelRun0_A.sl.r_1 c arg1 harg1 x0)
          (kernelRun0_A.sl.r_2 c arg1 harg1 x0) (kernelRun0_A.sl.r_3 c arg1 harg1 x0)))
          Gen.shapeCasts_S7x32768_S1x7x32768 := rfl
  rw [e, run_x1, run_y1, run_x2, run_y2]
  exact ddpiece_at x0 2 (by omega) _ r n

end Cert.KernelIdeal.Dist
end
-- ==== Proof.Dist3.lean ====
/-
  Rotation 3 of the pairwise distances (rows 70–76 of the block) and its forward difference in time
  (rows 119–125): what the body stores there is the stack of the seven rows of rotation 3, and the
  difference of that stack, over the four loaded coordinates. Unfolding the body's named values shows each
  stored value to be that stack (the two sides are the same term once the names are opened).
-/
import proofs.«129414_j76424648065748_2_alg».proof.Proof.DistCore

set_option maxRecDepth 16384

noncomputable section

namespace Cert.KernelIdeal.Dist

open Cert.KernelIdeal Cert.KernelIdeal.Gen Idealize.ShloMosaic Idealize.ShloMosaic.ValueIdx
open Cert.KernelIdeal.Read

/-- Rows 70–76, read at a row and a frame: the distances of rotation 3 (feature group 10). -/
theorem piece70 (c : Dev nD) (arg1 : Memref sig .tc .vmem S1x2x14x32768 .f32) (harg1 : arg1.IsWhole)
    (x0 : Vec Ideal S1x2x14x32768 .f32) (r : Fin 7) (n : Fin 32768) :
    k0_pay80 (F := Ideal) (kernelRun0_A.sl.r_1 c arg1 harg1 x0) (kernelRun0_A.sl.r_3 c arg1 harg1 x0)
      (kernelRun0_A.sl.r_49 c arg1 harg1 x0) (kernelRun0_A.sl.r_50 c arg1 harg1 x0)
      (kernelRun0_A.sl.r_52 c arg1 harg1 x0) (kernelRun0_A.sl.r_53 c arg1 harg1 x0)
      (kernelRun0_A.sl.r_54 c arg1 harg1 x0) (kernelRun0_A.sl.r_55 c arg1 harg1 x0)
      (kernelRun0_A.sl.r_56 c arg1 harg1 x0) (kernelRun0_A.sl.r_57 c arg1 harg1 x0)
        (ix3 (0 : Fin 1) r n)
      = Tracks.featureOf (blockOne x0) (blockTwo x0) 10 r n := by
  have e : k0_pay80 (F := Ideal) (kernelRun0_A.sl.r_1 c arg1 harg1 x0) (kernelRun0_A.sl.r_3 c arg1 harg1 x0)
          (kernelRun0_A.sl.r_49 c arg1 harg1 x0) (kernelRun0_A.sl.r_50 c arg1 harg1 x0)
          (kernelRun0_A.sl.r_52 c arg1 harg1 x0) (kernelRun0_A.sl.r_53 c arg1 harg1 x0)
          (kernelRun0_A.sl.r_54 c arg1 harg1 x0) (kernelRun0_A.sl.r_55 c arg1 harg1 x0)
          (kernelRun0_A.sl.r_56 c arg1 harg1 x0) (kernelRun0_A.sl.r_57 c arg1 harg1 x0)
      = shapeCast S1x7x32768 (chunkOf 3 (kernelRun0_A.sl.r c arg1 harg1 x0) (kernelRun0_A.sl.r_1 c arg1 harg1 x0)
          (kernelRun0_A.sl.r_2 c arg1 harg1 x0) (kernelRun0_A.sl.r_3 c arg1 harg1 x0))
          Gen.shapeCasts_S7x32768_S1x7x32768 := rfl
  rw [e, run_x1, run_y1, run_x2, run_y2]
  exact dpiece_at x0 3 (by omega) _ r n

/-- Rows 119–125, read at a row and a frame: the forward differences of the distances of rotation 3
    (feature group 17). -/
theorem piece119 (c : Dev nD) (arg1 : Memref sig .tc .vmem S1x2x14x32768 .f32) (harg1 : arg1.IsWhole)
    (x0 : Vec Ideal S1x2x14x32768 .f32) (r : Fin 7) (n : Fin 32768) :
    k0_pay81 (F := Ideal) kernelRun0_A.sl.v0 (kernelRun0_A.sl.r_1 c arg1 harg1 x0)
      (kernelRun0_A.sl.r_3 c arg1 harg1 x0) (kernelRun0_A.sl.r_49 c arg1 harg1 x0)
      (kernelRun0_A.sl.r_50 c arg1 harg1 x0) (kernelRun0_A.sl.r_52 c arg1 harg1 x0)
      (kernelRun0_A.sl.r_53 c arg1 harg1 x0) (kernelRun0_A.sl.r_54 c arg1 harg1 x0)
      (kernelRun0_A.sl.r_55 c arg1 harg1 x0) (kernelRun0_A.sl.r_56 c arg1 harg1 x0)
      (kernelRun0_A.sl.r_57 c arg1 harg1 x0)
        (ix3 (0 : Fin 1) r n)
      = Tracks.featureOf (blockOne x0) (blockTwo x0) 17 r n := by
  have e : k0_pay81 (F := Ideal) kernelRun0_A.sl.v0 (kernelRun0_A.sl.r_1 c arg1 harg1 x0)
          (kernelRun0_A.sl.r_3 c arg1 harg1 x0) (kernelRun0_A.sl.r_49 c arg1 harg1 x0)
          (kernelRun0_A.sl.r_50 c arg1 harg1 x0) (kernelRun0_A.sl.r_52 c arg1 harg1 x0)
          (kernelRun0_A.sl.r_53 c arg1 harg1 x0) (kernelRun0_A.sl.r_54 c arg1 harg1 x0)
          (kernelRun0_A.sl.r_55 c arg1 harg1 x0) (kernelRun0_A.sl.r_56 c arg1 harg1 x0)
          (kernelRun0_A.sl.r_57 c arg1 harg1 x0)
      = shapeCast S1x7x32768 (ddOf (chunkOf 3 (kernelRun0_A.sl.r c arg1 harg1 x0) (kernelRun0_A.sl.r_1 c arg1 harg1 x0)
          (kernelRun0_A.sl.r_2 c arg1 harg1 x0) (kernelRun0_A.sl.r_3 c arg1 harg1 x0)))
          Gen.shapeCasts_S7x32768_S1x7x32768 := rfl
  rw [e, run_x1, run_y1, run_x2, run_y2]
  exact ddpiece_at x0 3 (by omega) _ r n

end Cert.KernelIdeal.Dist
end
-- ==== Proof.Dist4.lean ====
/-
  Rotation 4 of the pairwise distances (rows 77–83 of the block) and its forward difference in time
  (rows 126–132): what the body stores there is the stack of the seven rows of rotation 4, and the
  difference of that stack, over the four loaded coordinates. Unfolding the body's named values shows each
  stored value to be that stack (the two sides are the same term once the names are opened).
-/
import proofs.«129414_j76424648065748_2_alg».proof.Proof.DistCore

set_option maxRecDepth 16384

noncomputable section

namespace Cert.KernelIdeal.Dist

open Cert.KernelIdeal Cert.KernelIdeal.Gen Idealize.ShloMosaic Idealize.ShloMosaic.ValueIdx
open Cert.KernelIdeal.Read

/-- Rows 77–83, read at a row and a frame: the distances of rotation 4 (feature group 11). -/
theorem piece77 (c : Dev nD) (arg1 : Memref sig .tc .vmem S1x2x14x32768 .f32) (harg1 : arg1.IsWhole)
    (x0 : Vec Ideal S1x2x14x32768 .f32) (r : Fin 7) (n : Fin 32768) :
    k0_pay91 (F := Ideal) (kernelRun0_A.sl.r c arg1 harg1 x0) (kernelRun0_A.sl.r_1 c arg1 harg1 x0)
      (kernelRun0_A.sl.r_2 c arg1 harg1 x0) (kernelRun0_A.sl.r_3 c arg1 harg1 x0)
      (kernelRun0_A.sl.r_58 c arg1 harg1 x0) (kernelRun0_A.sl.r_60 c arg1 harg1 x0)
      (kernelRun0_A.sl.r_61 c arg1 harg1 x0) (kernelRun0_A.sl.r_62 c arg1 harg1 x0)
      (kernelRun0_A.sl.r_63 c arg1 harg1 x0) (kernelRun0_A.sl.r_64 c arg1 harg1 x0)
        (ix3 (0 : Fin 1) r n)
      = Tracks.featureOf (blockOne x0) (blockTwo x0) 11 r n := by
  have e : k0_pay91 (F := Ideal) (kernelRun0_A.sl.r c arg1 harg1 x0) (kernelRun0_A.sl.r_1 c arg1 harg1 x0)
          (kernelRun0_A.sl.r_2 c arg1 harg1 x0) (kernelRun0_A.sl.r_3 c arg1 harg1 x0)
          (kernelRun0_A.sl.r_58 c arg1 harg1 x0) (kernelRun0_A.sl.r_60 c arg1 harg1 x0)
          (kernelRun0_A.sl.r_61 c arg1 harg1 x0) (kernelRun0_A.sl.r_62 c arg1 harg1 x0)
          (kernelRun0_A.sl.r_63 c arg1 harg1 x0) (kernelRun0_A.sl.r_64 c arg1 harg1 x0)
      = shapeCast S1x7x32768 (chunkOf 4 (kernelRun0_A.sl.r c arg1 harg1 x0) (kernelRun0_A.sl.r_1 c arg1 harg1 x0)
          (kernelRun0_A.sl.r_2 c arg1 harg1 x0) (kernelRun0_A.sl.r_3 c arg1 harg1 x0))
          Gen.shapeCasts_S7x32768_S1x7x32768 := rfl
  rw [e, run_x1, run_y1, run_x2, run_y2]
  exact dpiece_at x0 4 (by omega) _ r n

/-- Rows 126–132, read at a row and a frame: the forward differences of the distances of rotation 4
    (feature group 18). -/
theorem piece126 (c : Dev nD) (arg1 : Memref sig .tc .vmem S1x2x14x32768 .f32) (harg1 : arg1.IsWhole)
    (x0 : Vec Ideal S1x2x14x32768 .f32) (r : Fin 7) (n : Fin 32768) :
    k0_pay92 (F := Ideal) kernelRun0_A.sl.v0 (kernelRun0_A.sl.r c arg1 harg1 x0)
      (kernelRun0_A.sl.r_1 c arg1 harg1 x0) (kernelRun0_A.sl.r_2 c arg1 harg1 x0)
      (kernelRun0_A.sl.r_3 c arg1 harg1 x0) (kernelRun0_A.sl.r_58 c arg1 harg1 x0)
      (kernelRun0_A.sl.r_60 c arg1 harg1 x0) (kernelRun0_A.sl.r_61 c arg1 harg1 x0)
      (kernelRun0_A.sl.r_62 c arg1 harg1 x0) (kernelRun0_A.sl.r_63 c arg1 harg1 x0)
      (kernelRun0_A.sl.r_64 c arg1 harg1 x0)
        (ix3 (0 : Fin 1) r n)
      = Tracks.featureOf (blockOne x0) (blockTwo x0) 18 r n := by
  have e : k0_pay92 (F := Ideal) kernelRun0_A.sl.v0 (kernelRun0_A.sl.r c arg1 harg1 x0)
          (kernelRun0_A.sl.r_1 c arg1 harg1 x0) (kernelRun0_A.sl.r_2 c arg1 harg1 x0)
          (kernelRun0_A.sl.r_3 c arg1 harg1 x0) (kernelRun0_A.sl.r_58 c arg1 harg1 x0)
          (kernelRun0_A.sl.r_60 c arg1 harg1 x0) (kernelRun0_A.sl.r_61 c arg1 harg1 x0)
          (kernelRun0_A.sl.r_62 c arg1 harg1 x0) (kernelRun0_A.sl.r_63 c arg1 harg1 x0)
          (kernelRun0_A.sl.r_64 c arg1 harg1 x0)
      = shapeCast S1x7x32768 (ddOf (chunkOf 4 (kernelRun0_A.sl.r c arg1 harg1 x0) (kernelRun0_A.sl.r_1 c arg1 harg1 x0)
          (kernelRun0_A.sl.r_2 c arg1 harg1 x0) (kernelRun0_A.sl.r_3 c arg1 harg1 x0)))
          Gen.shapeCasts_S7x32768_S1x7x32768 := rfl
  rw [e, run_x1, run_y1, run_x2, run_y2]
  exact ddpiece_at x0 4 (by omega) _ r n

end Cert.KernelIdeal.Dist
end
-- ==== Proof.Dist5.lean ====
/-
  Rotation 5 of the pairwise distances (rows 84–90 of the block) and its forward difference in time
  (rows 133–139): what the body stores there is the stack of the seven rows of rotation 5, and the
  difference of that stack, over the four loaded coordinates. Unfolding the body's named values shows each
  stored value to be that stack (the two sides are the same term once the names are opened).
-/
import proofs.«129414_j76424648065748_2_alg».proof.Proof.DistCore

set_option maxRecDepth 16384

noncomputable section

namespace Cert.KernelIdeal.Dist

open Cert.KernelIdeal Cert.KernelIdeal.Gen Idealize.ShloMosaic Idealize.ShloMosaic.ValueIdx
open Cert.KernelIdeal.Read

/-- Rows 84–90, read at a row and a frame: the distances of rotation 5 (feature group 12). -/
theorem piece84 (c : Dev nD) (arg1 : Memref sig .tc .vmem S1x2x14x32768 .f32) (harg1 : arg1.IsWhole)
    (x0 : Vec Ideal S1x2x14x32768 .f32) (r : Fin 7) (n : Fin 32768) :
    k0_pay100 (F := Ideal) (kernelRun0_A.sl.r_70 c arg1 harg1 x0)
        (ix3 (0 : Fin 1) r n)
      = Tracks.featureOf (blockOne x0) (blockTwo x0) 12 r n := by
  have e : k0_pay100 (F := Ideal) (kernelRun0_A.sl.r_70 c arg1 harg1 x0)
      = shapeCast S1x7x32768 (chunkOf 5 (kernelRun0_A.sl.r c arg1 harg1 x0) (kernelRun0_A.sl.r_1 c arg1 harg1 x0)
          (kernelRun0_A.sl.r_2 c arg1 harg1 x0) (kernelRun0_A.sl.r_3 c arg1 harg1 x0))
          Gen.shapeCasts_S7x32768_S1x7x32768 := rfl
  rw [e, run_x1, run_y1, run_x2, run_y2]
  exact dpiece_at x0 5 (by omega) _ r n

/-- Rows 133–139, read at a row and a frame: the forward differences of the distances of rotation 5
    (feature group 19). -/
theorem piece133 (c : Dev nD) (arg1 : Memref sig .tc .vmem S1x2x14x32768 .f32) (harg1 : arg1.IsWhole)
    (x0 : Vec Ideal S1x2x14x32768 .f32) (r : Fin 7) (n : Fin 32768) :
    k0_pay101 (F := Ideal) (kernelRun0_A.sl.r_71 c arg1 harg1 x0)
        (ix3 (0 : Fin 1) r n)
      = Tracks.featureOf (blockOne x0) (blockTwo x0) 19 r n := by
  have e : k0_pay101 (F := Ideal) (kernelRun0_A.sl.r_71 c arg1 harg1 x0)
      = shapeCast S1x7x32768 (ddOf (chunkOf 5 (kernelRun0_A.sl.r c arg1 harg1 x0) (kernelRun0_A.sl.r_1 c arg1 harg1 x0)
          (kernelRun0_A.sl.r_2 c arg1 harg1 x0) (kernelRun0_A.sl.r_3 c arg1 harg1 x0)))
          Gen.shapeCasts_S7x32768_S1x7x32768 := rfl
  rw [e, run_x1, run_y1, run_x2, run_y2]
  exact ddpiece_at x0 5 (by omega) _ r n

end Cert.KernelIdeal.Dist
end
-- ==== Proof.Dist6.lean ====
/-
  Rotation 6 of the pairwise distances (rows 91–97 of the block) and its forward difference in time
  (rows 140–146): what the body stores there is the stack of the seven rows of rotation 6, and the
  difference of that stack, over the four loaded coordinates. Unfolding the body's named values shows each
  stored value to be that stack (the two sides are the same term once the names are opened).
-/
import proofs.«129414_j76424648065748_2_alg».proof.Proof.DistCore

set_option maxRecDepth 16384

noncomputable section

namespace Cert.KernelIdeal.Dist

open Cert.KernelIdeal Cert.KernelIdeal.Gen Idealize.ShloMosaic Idealize.ShloMosaic.ValueIdx
open Cert.KernelIdeal.Read

/-- Rows 91–97, read at a row and a frame: the distances of rotation 6 (feature group 13). -/
theorem piece91 (c : Dev nD) (arg1 : Memref sig .tc .vmem S1x2x14x32768 .f32) (harg1 : arg1.IsWhole)
    (x0 : Vec Ideal S1x2x14x32768 .f32) (r : Fin 7) (n : Fin 32768) :
    k0_pay2 (F := Ideal) (kernelRun0_A.sl.r_72 c arg1 harg1 x0) (kernelRun0_A.sl.r_73 c arg1 harg1 x0)
      (kernelRun0_A.sl.r_75 c arg1 harg1 x0) (kernelRun0_A.sl.r_76 c arg1 harg1 x0)
      (kernelRun0_A.sl.r_77 c arg1 harg1 x0) (kernelRun0_A.sl.r_78 c arg1 harg1 x0)
      (kernelRun0_A.sl.r_79 c arg1 harg1 x0) (kernelRun0_A.sl.r_80 c arg1 harg1 x0) k0_pay111
        (ix3 (0 : Fin 1) r n)
      = Tracks.featureOf (blockOne x0) (blockTwo x0) 13 r n := by
  have e : k0_pay2 (F := Ideal) (kernelRun0_A.sl.r_72 c arg1 harg1 x0) (kernelRun0_A.sl.r_73 c arg1 harg1 x0)
          (kernelRun0_A.sl.r_75 c arg1 harg1 x0) (kernelRun0_A.sl.r_76 c arg1 harg1 x0)
          (kernelRun0_A.sl.r_77 c arg1 harg1 x0) (kernelRun0_A.sl.r_78 c arg1 harg1 x0)
          (kernelRun0_A.sl.r_79 c arg1 harg1 x0) (kernelRun0_A.sl.r_80 c arg1 harg1 x0) k0_pay111
      = shapeCast S1x7x32768 (chunkOf 6 (kernelRun0_A.sl.r c arg1 harg1 x0) (kernelRun0_A.sl.r_1 c arg1 harg1 x0)
          (kernelRun0_A.sl.r_2 c arg1 harg1 x0) (kernelRun0_A.sl.r_3 c arg1 harg1 x0))
          Gen.shapeCasts_S7x32768_S1x7x32768 := rfl
  rw [e, run_x1, run_y1, run_x2, run_y2]
  exact dpiece_at x0 6 (by omega) _ r n

/-- Rows 140–146, read at a row and a frame: the forward differences of the distances of rotation 6
    (feature group 20). -/
theorem piece140 (c : Dev nD) (arg1 : Memref sig .tc .vmem S1x2x14x32768 .f32) (harg1 : arg1.IsWhole)
    (x0 : Vec Ideal S1x2x14x32768 .f32) (r : Fin 7) (n : Fin 32768) :
    k0_pay3 (F := Ideal) kernelRun0_A.sl.v0 (kernelRun0_A.sl.r_72 c arg1 harg1 x0)
      (kernelRun0_A.sl.r_73 c arg1 harg1 x0) (kernelRun0_A.sl.r_75 c arg1 harg1 x0)
      (kernelRun0_A.sl.r_76 c arg1 harg1 x0) (kernelRun0_A.sl.r_77 c arg1 harg1 x0)
      (kernelRun0_A.sl.r_78 c arg1 harg1 x0) (kernelRun0_A.sl.r_79 c arg1 harg1 x0)
      (kernelRun0_A.sl.r_80 c arg1 harg1 x0) k0_pay111
        (ix3 (0 : Fin 1) r n)
      = Tracks.featureOf (blockOne x0) (blockTwo x0) 20 r n := by
  have e : k0_pay3 (F := Ideal) kernelRun0_A.sl.v0 (kernelRun0_A.sl.r_72 c arg1 harg1 x0)
          (kernelRun0_A.sl.r_73 c arg1 harg1 x0) (kernelRun0_A.sl.r_75 c arg1 harg1 x0)
          (kernelRun0_A.sl.r_76 c arg1 harg1 x0) (kernelRun0_A.sl.r_77 c arg1 harg1 x0)
          (kernelRun0_A.sl.r_78 c arg1 harg1 x0) (kernelRun0_A.sl.r_79 c arg1 harg1 x0)
          (kernelRun0_A.sl.r_80 c arg1 harg1 x0) k0_pay111
      = shapeCast S1x7x32768 (ddOf (chunkOf 6 (kernelRun0_A.sl.r c arg1 harg1 x0) (kernelRun0_A.sl.r_1 c arg1 harg1 x0)
          (kernelRun0_A.sl.r_2 c arg1 harg1 x0) (kernelRun0_A.sl.r_3 c arg1 harg1 x0)))
          Gen.shapeCasts_S7x32768_S1x7x32768 := rfl
  rw [e, run_x1, run_y1, run_x2, run_y2]
  exact ddpiece_at x0 6 (by omega) _ r n

end Cert.KernelIdeal.Dist
end
-- ==== Proof.KernelOut.lean ====
/-
  What the body leaves in the output block: the block's features.
  The body's 23 stores tile the [1, 161, 32768] block in pieces of seven rows; piece `s` holds group `s` of the features
  of the loaded block (the motion pieces, the seven rotations of the pairwise distances, their forward differences), so
  the block read back after the stores is the features of the loaded block at every index.
-/
import proofs.«129414_j76424648065748_2_alg».proof.Proof.MotionC
import proofs.«129414_j76424648065748_2_alg».proof.Proof.Dist0
import proofs.«129414_j76424648065748_2_alg».proof.Proof.Dist1
import proofs.«129414_j76424648065748_2_alg».proof.Proof.Dist2
import proofs.«129414_j76424648065748_2_alg».proof.Proof.Dist3
import proofs.«129414_j76424648065748_2_alg».proof.Proof.Dist4
import proofs.«129414_j76424648065748_2_alg».proof.Proof.Dist5
import proofs.«129414_j76424648065748_2_alg».proof.Proof.Dist6

set_option maxRecDepth 16384

noncomputable section

namespace Cert.KernelIdeal.Out

open Cert.KernelIdeal Cert.KernelIdeal.Gen Cert.KernelIdeal.Read Cert.KernelIdeal.Motion Idealize.ShloMosaic
open Idealize.ShloMosaic.ValueIdx Cert.Tracks

/-- After the body, the output block holds the features of the input block. -/
theorem out_eq (c : Dev nD) (i : grid0.Coords) (arg1 : Memref sig .tc .vmem S1x2x14x32768 .f32) (harg1 : arg1.IsWhole)
    (arg2 : Memref sig .tc .vmem S1x161x32768 .f32) (harg2 : arg2.IsWhole) (x0 : Vec Ideal S1x2x14x32768 .f32) :
    out0_A_1 (F := Ideal) c i arg1 harg1 arg2 harg2 x0 = blockFeatures x0 := by
  funext y
  unfold out0_A_1
  rw [View.read_writes_eq_canon _ _ _ (cover0_A_1 c i arg1 harg1 arg2 harg2 x0)]
  refine View.canon_apply_of_pieces (blockFeatures x0) _ ?_ y (cover0_A_1 c i arg1 harg1 arg2 harg2 x0 y)
  unfold kernelRun0_A
  dsimp only
  intro p hp
  simp only [List.mem_cons] at hp
  rcases hp with rfl | rfl | rfl | rfl | rfl | rfl | rfl | rfl | rfl | rfl | rfl | rfl | rfl | rfl | rfl | rfl | hp
  · exact holds_of x0 20 _ _ (Dist.piece140 c arg1 harg1 x0)
  · exact holds_of x0 13 _ _ (Dist.piece91 c arg1 harg1 x0)
  · exact holds_of x0 19 _ _ (Dist.piece133 c arg1 harg1 x0)
  · exact holds_of x0 12 _ _ (Dist.piece84 c arg1 harg1 x0)
  · exact holds_of x0 18 _ _ (Dist.piece126 c arg1 harg1 x0)
  · exact holds_of x0 11 _ _ (Dist.piece77 c arg1 harg1 x0)
  · exact holds_of x0 17 _ _ (Dist.piece119 c arg1 harg1 x0)
  · exact holds_of x0 10 _ _ (Dist.piece70 c arg1 harg1 x0)
  · exact holds_of x0 16 _ _ (Dist.piece112 c arg1 harg1 x0)
  · exact holds_of x0 9 _ _ (Dist.piece63 c arg1 harg1 x0)
  · exact holds_of x0 15 _ _ (Dist.piece105 c arg1 harg1 x0)
  · exact holds_of x0 8 _ _ (Dist.piece56 c arg1 harg1 x0)
  · exact holds_of x0 14 _ _ (Dist.piece98 c arg1 harg1 x0)
  · exact holds_of x0 7 _ _ (Dist.piece49 c arg1 harg1 x0)
  · exact holds_of x0 22 _ _ (piece154 c arg1 harg1 arg2 x0)
  · exact holds_of x0 21 _ _ (piece147 c arg1 harg1 arg2 x0)
  · exact holds7 c arg1 harg1 arg2 x0 p hp

end Cert.KernelIdeal.Out

end
-- ==== Proof.ArrayRun.lean ====
/-
  From the blocks to the whole array.

  The program transposes the positions [16, 14, 32768, 2] to [16, 2, 14, 32768] (coordinate before channel before
  frame) and runs the body once per recording: point `t` of the sixteen loads block `t` of the transposed positions
  and writes block `t` of the result [16, 161, 32768]. The block loaded at point `t` therefore holds recording `t`'s two
  animals, the block written there is recording `t`'s 161 feature rows, and the sixteen written blocks tile the result:
  the result array ends holding the features of the positions.
-/
import proofs.«129414_j76424648065748_2_alg».proof.Proof.KernelRead
import proofs.«129414_j76424648065748_2_alg».proof.Proof.KernelOut
import proofs.«129414_j76424648065748_2_alg».proof.Proof.Gen.KernelIdeal.Value
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.Value Idealize.ShloMosaic.ValueIdx
open Cert.KernelIdeal.Read Idealize.ShloMosaic.Tactic

variable (m : (ℓ : Loc nD τ sig) → Buf (Elt Ideal) ℓ) (ρ : Dev nD → PrngReg)

/-- The region finds the transposed positions: coordinate before channel before frame. -/
theorem V_positions (c : Dev nD) :
    (V m c main_v0 : S16x2x14x32768.Idx → EReal)
      = transpose S16x2x14x32768 [0, 3, 1, 2] (m ((c : Thread nD τ).loc main_arg0)) Gen.transposes_S16x14x32768x2_S16x2x14x32768_0_3_1_2 := by
  dsimp only [Gen.V, Gen.hostOps0]
  after_results

theorem N16 : cfg0.N = 16 := by decide

/-- The index maps, decided over the sixteen grid points: point `t` takes block `t` along the recordings, block 0 on every other axis. -/
theorem idx_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0 :=
  (by decide +kernel : ∀ t : Fin grid0.N, _)

theorem iblk_apply (c : Dev nD) (t : Fin cfg0.N) (k : Fin 2) (ch : Fin 14) (n : Fin 32768) :
    (iblk m c 0 t : Vec Ideal S1x2x14x32768 .f32) (ix4 0 k ch n)
      = (m ((c : Thread nD τ).loc main_arg0) : S16x14x32768x2.Idx → EReal) (ix4 (⟨t.val, N16 ▸ t.isLt⟩ : Fin 16) ch n k) := by
  obtain ⟨e0, e1, e2, e3, -, -, -⟩ := idx_facts t
  unfold iblk
  rw [View.read_apply]
  show (V m c main_v0 : S16x2x14x32768.Idx → EReal) (((cfg0.win 0).blk t).view.emb (ix4 0 k ch n)) = _
  rw [V_positions]
  refine transpose_apply [0, 3, 1, 2] _ _ _ (ix4 (⟨t.val, N16 ▸ t.isLt⟩ : Fin 16) ch n k) ?_
  intro b
  match b with
  | ⟨0, _⟩ => show t.val = win0_0.index t (0 : Fin 4) * 1 + 1 * 0; omega
  | ⟨1, _⟩ => show k.val = win0_0.index t (1 : Fin 4) * 2 + 1 * k.val; omega
  | ⟨2, _⟩ => show ch.val = win0_0.index t (2 : Fin 4) * 14 + 1 * ch.val; omega
  | ⟨3, _⟩ => show n.val = win0_0.index t (3 : Fin 4) * 32768 + 1 * n.val; omega

/-- The block loaded at point `t` holds recording `t`'s two animals. -/
theorem blockOne_iblk (c : Dev nD) (t : Fin cfg0.N) :
    blockOne (iblk m c 0 t) = Tracks.one (m ((c : Thread nD τ).loc main_arg0)) (⟨t.val, N16 ▸ t.isLt⟩ : Fin 16) := by
  funext ch n k
  exact iblk_apply m c t k _ n

theorem blockTwo_iblk (c : Dev nD) (t : Fin cfg0.N) :
    blockTwo (iblk m c 0 t) = Tracks.two (m ((c : Thread nD τ).loc main_arg0)) (⟨t.val, N16 ▸ t.isLt⟩ : Fin 16) := by
  funext ch n k
  exact iblk_apply m c t k _ n

/-- The features of a block that holds recording `b`'s two animals are row for row the features of recording `b`. -/
theorem features_block (X : Tracks.Pos) (x0 : Vec Ideal S1x2x14x32768 .f32) (b : Fin 16)
    (h1 : blockOne x0 = Tracks.one X b) (h2 : blockTwo x0 = Tracks.two X b)
    (y : S1x161x32768.Idx) (i : S16x161x32768.Idx)
    (hi0 : (i 0).val = b.val) (hi1 : (i 1).val = (y 1).val) (hi2 : (i 2).val = (y 2).val) :
    blockFeatures x0 y = Tracks.features X i := by
  have key : ∀ (a a' : Nat) (ha : a = a') (n n' : Fin 32768) (hn : n = n') (b' : Fin 16) (hb : b' = b),
      Tracks.featureOf (Tracks.one X b) (Tracks.two X b) (a / 7) ⟨a % 7, Nat.mod_lt _ (by decide)⟩ n
        = Tracks.featureOf (Tracks.one X b') (Tracks.two X b') (a' / 7) ⟨a' % 7, Nat.mod_lt _ (by decide)⟩ n' := by
    intro a a' ha n n' hn b' hb
    subst ha hn hb
    rfl
  unfold blockFeatures
  rw [h1, h2]
  exact key _ _ hi1.symm _ _ (Fin.ext hi2.symm) _ (Fin.ext hi0)

/-- What point `t` writes back is block `t` of the features of the positions. -/
theorem flushed_eq (c : Dev nD) (t : Fin cfg0.N) :
    (dats m 0 c).flushed 1 t
      = ((cfg0.win 1).blk t).view.read (Elt Ideal) (Tracks.features (m ((c : Thread nD τ).loc main_arg0))) := by
  obtain ⟨-, -, -, -, e0, e1, e2⟩ := idx_facts t
  rw [flushed1_A, Out.out_eq]
  funext j
  show blockFeatures (iblk m c 0 t) j
    = Tracks.features (m ((c : Thread nD τ).loc main_arg0)) (((cfg0.win 1).blk t).view.emb j)
  refine features_block _ _ (⟨t.val, N16 ▸ t.isLt⟩ : Fin 16) (blockOne_iblk m c t) (blockTwo_iblk m c t) j _ ?_ ?_ ?_
  · show win0_1.index t (0 : Fin 3) * 1 + 1 * (j 0).val = t.val
    have : (j 0).val < 1 := (j 0).isLt
    omega
  · show win0_1.index t (1 : Fin 3) * 161 + 1 * (j 1).val = (j 1).val
    omega
  · show win0_1.index t (2 : Fin 3) * 32768 + 1 * (j 2).val = (j 2).val
    omega

/-- An index of the array is in point `t`'s block iff each coordinate is in the block's range on its axis. -/
theorem mem_blk (t : Fin cfg0.N) (i : S16x161x32768.Idx) :
    i ∈ ((cfg0.win 1).blk t).view.set ↔ ∀ a : Fin 3, win0_1.index t a * S1x161x32768.size a ≤ (i a).val
      ∧ (i a).val < win0_1.index t a * S1x161x32768.size a + S1x161x32768.size a := by
  show i ∈ ((View.whole main_v1).slice (win0_1.rect t)).set ↔ _
  rw [View.set_slice_whole, Rect.mem_set_unit]
  exact Iff.rfl

/-- Recording `b`'s rows are written by point `b`. -/
theorem cover (i : S16x161x32768.Idx) :
    ∃ t : Fin cfg0.N, (cfg0.win 1).flush t = true ∧ i ∈ ((cfg0.win 1).blk t).view.set := by
  have h0 : (i 0).val < 16 := (i 0).isLt
  have h1 : (i 1).val < 161 := (i 1).isLt
  have h2 : (i 2).val < 32768 := (i 2).isLt
  have hN : (i 0).val < cfg0.N := by rw [N16]; exact h0
  refine ⟨⟨(i 0).val, hN⟩, flush0_1 _, ?_⟩
  obtain ⟨-, -, -, -, e0, e1, e2⟩ := idx_facts ⟨(i 0).val, hN⟩
  have e0' : win0_1.index ⟨(i 0).val, hN⟩ (0 : Fin 3) = (i 0).val := e0
  rw [mem_blk]
  intro a
  match a with
  | ⟨0, _⟩ =>
    show win0_1.index _ (0 : Fin 3) * 1 ≤ (i 0).val ∧ (i 0).val < win0_1.index _ (0 : Fin 3) * 1 + 1
    rw [e0']; omega
  | ⟨1, _⟩ =>
    show win0_1.index _ (1 : Fin 3) * 161 ≤ (i 1).val ∧ (i 1).val < win0_1.index _ (1 : Fin 3) * 161 + 161
    rw [e1]; omega
  | ⟨2, _⟩ =>
    show win0_1.index _ (2 : Fin 3) * 32768 ≤ (i 2).val ∧ (i 2).val < win0_1.index _ (2 : Fin 3) * 32768 + 32768
    rw [e2]; omega

/-- The array after the run: the features of the positions. -/
theorem final (c : Dev nD) :
    (dats m 0 c).arrAt 1 cfg0.N = Tracks.features (m ((c : Thread nD τ).loc main_arg0)) :=
  (dats m 0 c).arrAt_eq_of_cover 1 (Tracks.features (m ((c : Thread nD τ).loc main_arg0)))
    (fun t _ => flushed_eq m c t) cover

/-- The run, read: the result array holds the features of the positions, the arguments are unchanged. -/
theorem run : θ_run (defs (F := Ideal)) (onTc (τ := τ) (main (F := Ideal))) ⟨m, fun _ => 0, ρ⟩ (fun r => ∀ c : Dev nD,
      r.2.mem ((c : Thread nD τ).loc main_v1) = Cert.Tracks.features (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => ⟨(h c).1.trans (final m c), (h c).2⟩) (Value.run_blocks m ρ)

end Cert.KernelIdeal.ArrayValue
end
-- ==== Proof.RefTerms.lean ====
/-
  The quantities the reference program computes, as pure functions of the position array, each written with the
  program's own array operations in the program's order: the two animals, the step (the difference from the previous
  frame, frame 0 from itself), lengths and inner products over the two coordinates, the turning cosine, the planar cross
  product, the regularised cosines, the table of partners, the distances to the partners and their forward difference in
  time, and the 161 rows laid one after the other.
-/
import proofs.«129414_j76424648065748_2_alg».proof.Proof.Gen.ReferenceIdeal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Animal one: channels 0–6. -/
def vOne (X : FVec F S16x14x32768x2 .f32) : FVec F S16x7x32768x2 .f32 :=
  extractStridedSlice S16x7x32768x2 ![0, 0, 0, 0] X slices_S16x14x32768x2_S16x7x32768x2_0_0_0_0

/-- Animal two: channels 7–13. -/
def vTwo (X : FVec F S16x14x32768x2 .f32) : FVec F S16x7x32768x2 .f32 :=
  extractStridedSlice S16x7x32768x2 ![0, 7, 0, 0] X slices_S16x14x32768x2_S16x7x32768x2_0_7_0_0

/-- One frame placed before 32768 frames. -/
def catPre (f : FVec F S16x7x1x2 .f32) (a : FVec F S16x7x32768x2 .f32) : FVec F S16x7x32769x2 .f32 :=
  concatenate S16x7x32769x2 2 [⟨S16x7x1x2, f⟩, ⟨S16x7x32768x2, a⟩] concatenates_S16x7x1x2_S16x7x32768x2_S16x7x32769x2_d2

/-- One frame placed before 32767 frames. -/
def catTurn (z : FVec F S16x7x1 .f32) (q : FVec F S16x7x32767 .f32) : FVec F S16x7x32768 .f32 :=
  concatenate S16x7x32768 2 [⟨S16x7x1, z⟩, ⟨S16x7x32767, q⟩] concatenates_S16x7x1_S16x7x32767_S16x7x32768_d2

/-- One frame placed after 32768 frames. -/
def catApp (d : FVec F S16x49x32768 .f32) (z : FVec F S16x49x1 .f32) : FVec F S16x49x32769 .f32 :=
  concatenate S16x49x32769 2 [⟨S16x49x32768, d⟩, ⟨S16x49x1, z⟩] concatenates_S16x49x32768_S16x49x1_S16x49x32769_d2

/-- The first frame placed before all the frames: 32769 frames. -/
def vPre (a : FVec F S16x7x32768x2 .f32) : FVec F S16x7x32769x2 .f32 :=
  catPre (extractStridedSlice S16x7x1x2 ![0, 0, 0, 0] a slices_S16x7x32768x2_S16x7x1x2_0_0_0_0) a

/-- The difference from the previous frame (frame 0 from itself): the frames 1 … 32768 of the prepended array less
    its frames 0 … 32767. -/
def vDiff (a : FVec F S16x7x32768x2 .f32) : FVec F S16x7x32768x2 .f32 :=
  subf (extractStridedSlice S16x7x32768x2 ![0, 0, 1, 0] (vPre a) slices_S16x7x32769x2_S16x7x32768x2_0_0_1_0)
    (extractStridedSlice S16x7x32768x2 ![0, 0, 0, 0] (vPre a) slices_S16x7x32769x2_S16x7x32768x2_0_0_0_0)

/-- The sum over the two coordinates of the products, from zero. -/
def vDot (a b : FVec F S16x7x32768x2 .f32) : FVec F S16x7x32768 .f32 :=
  Host.reduceAdd (mulf a b) (constant S_ .f32 0x00000000#32) reducesTo_S16x7x32768x2_S16x7x32768_d3 h_S_

/-- The length: the square root of the sum of the squares. -/
def vNorm (a : FVec F S16x7x32768x2 .f32) : FVec F S16x7x32768 .f32 := Host.sqrt (vDot a a)

/-- The turning cosine: at frames 1 … 32767 the inner product of the step with the one before over the product of their
    lengths plus the regulariser; a zero before, at frame 0. -/
def vTurn (d : FVec F S16x7x32768x2 .f32) (n : FVec F S16x7x32768 .f32) : FVec F S16x7x32768 .f32 :=
  catTurn (broadcastInDim S16x7x1 ![] bcast_S_S16x7x1 (constant S_ .f32 0x00000000#32))
    (Host.divf
        (Host.reduceAdd
          (mulf (extractStridedSlice S16x7x32767x2 ![0, 0, 1, 0] d slices_S16x7x32768x2_S16x7x32767x2_0_0_1_0)
            (extractStridedSlice S16x7x32767x2 ![0, 0, 0, 0] d slices_S16x7x32768x2_S16x7x32767x2_0_0_0_0))
          (constant S_ .f32 0x00000000#32) reducesTo_S16x7x32767x2_S16x7x32767_d3 h_S_)
        (addf
          (mulf (extractStridedSlice S16x7x32767 ![0, 0, 1] n slices_S16x7x32768_S16x7x32767_0_0_1)
            (extractStridedSlice S16x7x32767 ![0, 0, 0] n slices_S16x7x32768_S16x7x32767_0_0_0))
          (broadcastInDim S16x7x32767 ![] bcast_S_S16x7x32767 (constant S_ .f32 0x38D1B717#32))))

/-- The horizontal coordinate, as an array over recording, keypoint and frame. -/
def vCol0 (a : FVec F S16x7x32768x2 .f32) : FVec F S16x7x32768 .f32 :=
  shapeCast S16x7x32768 (extractStridedSlice S16x7x32768x1 ![0, 0, 0, 0] a slices_S16x7x32768x2_S16x7x32768x1_0_0_0_0)
    shapeCasts_S16x7x32768x1_S16x7x32768

/-- The vertical coordinate. -/
def vCol1 (a : FVec F S16x7x32768x2 .f32) : FVec F S16x7x32768 .f32 :=
  shapeCast S16x7x32768 (extractStridedSlice S16x7x32768x1 ![0, 0, 0, 1] a slices_S16x7x32768x2_S16x7x32768x1_0_0_0_1)
    shapeCasts_S16x7x32768x1_S16x7x32768

/-- The planar cross product of `d` with `e`. -/
def vCross (d e : FVec F S16x7x32768x2 .f32) : FVec F S16x7x32768 .f32 :=
  subf (mulf (vCol0 d) (vCol1 e)) (mulf (vCol1 d) (vCol0 e))

/-- A quotient by the product of two lengths plus the regulariser of the cosines. -/
def vCos (num n₁ n₂ : FVec F S16x7x32768 .f32) : FVec F S16x7x32768 .f32 :=
  Host.divf num (addf (mulf n₁ n₂) (broadcastInDim S16x7x32768 ![] bcast_S_S16x7x32768 (constant S_ .f32 0x358637BD#32)))

/-- Animal two's keypoints repeated seven times along the rows: row 7·i + j is keypoint j. -/
def vTile (x₂ : FVec F S16x7x32768x2 .f32) : FVec F S16x49x32768x2 .f32 :=
  shapeCast S16x49x32768x2
    (broadcastInDim S1x16x7x7x1x32768x1x2 ![0, 1, 2, 3, 4, 5, 6, 7] bcast_S1x16x1x7x1x32768x1x2_S1x16x7x7x1x32768x1x2_0_1_2_3_4_5_6_7
      (shapeCast S1x16x1x7x1x32768x1x2 x₂ shapeCasts_S16x7x32768x2_S1x16x1x7x1x32768x1x2))
    shapeCasts_S1x16x7x7x1x32768x1x2_S16x49x32768x2

/-- Animal one's keypoints picked by a column of 49 channel numbers. -/
def vPick (x₁ : FVec F S16x7x32768x2 .f32) (T : IVec S49x1 32) : FVec F S16x49x32768x2 .f32 :=
  Host.gather gather_S16x7x32768x2_S49x1_S16x49x32768x2_023_1_n_n_1_1_161327682 x₁ T

/-- The difference of the picked and the repeated keypoints, the regulariser added to each coordinate. -/
def vGap (x₁ x₂ : FVec F S16x7x32768x2 .f32) (T : IVec S49x1 32) : FVec F S16x49x32768x2 .f32 :=
  addf (subf (vPick x₁ T) (vTile x₂))
    (broadcastInDim S16x49x32768x2 ![] bcast_S_S16x49x32768x2 (constant S_ .f32 0x358637BD#32))

/-- Its length over the two coordinates. -/
def vDist (x₁ x₂ : FVec F S16x7x32768x2 .f32) (T : IVec S49x1 32) : FVec F S16x49x32768 .f32 :=
  Host.sqrt (Host.reduceAdd (mulf (vGap x₁ x₂ T) (vGap x₁ x₂ T)) (constant S_ .f32 0x00000000#32) reducesTo_S16x49x32768x2_S16x49x32768_d3 h_S_)

/-- A zero placed after the last frame: 32769 frames. -/
def vApp (d : FVec F S16x49x32768 .f32) : FVec F S16x49x32769 .f32 :=
  catApp d (broadcastInDim S16x49x1 ![] bcast_S_S16x49x1 (constant S_ .f32 0x00000000#32))

/-- The forward difference in time, the last frame against zero. -/
def vDdist (d : FVec F S16x49x32768 .f32) : FVec F S16x49x32768 .f32 :=
  subf (extractStridedSlice S16x49x32768 ![0, 0, 1] (vApp d) slices_S16x49x32769_S16x49x32768_0_0_1)
    (extractStridedSlice S16x49x32768 ![0, 0, 0] (vApp d) slices_S16x49x32769_S16x49x32768_0_0_0)

/-- The eleven groups laid one after the other along the rows: 7 · 7 + 49 + 49 + 7 + 7 = 161. -/
def vOut (g₀ g₁ g₂ g₃ g₄ g₅ g₆ : FVec F S16x7x32768 .f32) (g₇ g₈ : FVec F S16x49x32768 .f32) (g₉ g₁₀ : FVec F S16x7x32768 .f32) :
    FVec F S16x161x32768 .f32 :=
  concatenate S16x161x32768 1
    [⟨S16x7x32768, g₀⟩, ⟨S16x7x32768, g₁⟩, ⟨S16x7x32768, g₂⟩, ⟨S16x7x32768, g₃⟩, ⟨S16x7x32768, g₄⟩, ⟨S16x7x32768, g₅⟩,
     ⟨S16x7x32768, g₆⟩, ⟨S16x49x32768, g₇⟩, ⟨S16x49x32768, g₈⟩, ⟨S16x7x32768, g₉⟩, ⟨S16x7x32768, g₁₀⟩]
    concatenates_S16x7x32768_S16x7x32768_S16x7x32768_S16x7x32768_S16x7x32768_S16x7x32768_S16x7x32768_S16x49x32768_S16x49x32768_S16x7x32768_S16x7x32768_S16x161x32768_d1

/-! ## The table of partners (32-bit integers; no position enters) -/

/-- The divisor 7, replaced by 1 were it 0. -/
def tDiv : IVec S_ 32 := select (cmpi .eq (id (constantI S_ 32 7#32)) (constantI S_ 32 0#32)) (constantI S_ 32 1#32) (id (constantI S_ 32 7#32))

/-- Row `i`, column `j`: `j − (i + 1)`, as 32-bit words. -/
def tDiff : IVec S7x7 32 :=
  subi (broadcastInDim S7x7 ![0, 1] bcast_S1x7_S7x7_0_1 (broadcastInDim S1x7 ![1] bcast_S7_S1x7_1 (iotaInDim S7 32 0)))
    (broadcastInDim S7x7 ![0, 1] bcast_S7x1_S7x7_0_1
      (broadcastInDim S7x1 ![0] bcast_S7_S7x1_0 (addi (broadcastInDim S7 ![] bcast_S_S7 (constantI S_ 32 1#32)) (iotaInDim S7 32 0))))

/-- Its signed remainder by the divisor (the sign of the dividend). -/
def tRem : IVec S7x7 32 := Host.remsi tDiff (broadcastInDim S7x7 ![] bcast_S_S7x7 tDiv)

/-- The remainder with the divisor's sign: the divisor added where the remainder is not zero and its sign is not the
    divisor's. -/
def tMod : IVec S7x7 32 :=
  select
    (andi (cmpi .ne (cmpi .slt tRem (broadcastInDim S7x7 ![] bcast_S_S7x7 (constantI S_ 32 0#32))) (broadcastInDim S7x7 ![] bcast_S_S7x7 (cmpi .slt tDiv (constantI S_ 32 0#32)))) (cmpi .ne tRem (broadcastInDim S7x7 ![] bcast_S_S7x7 (constantI S_ 32 0#32))))
    (addi tRem (broadcastInDim S7x7 ![] bcast_S_S7x7 tDiv)) tRem

/-- Flattened: entry `7·i + j`. -/
def tFlat : IVec S49 32 := shapeCast S49 tMod shapeCasts_S7x7_S49

/-- A negative entry wrapped by 7 (there is none). -/
def tWrap : IVec S49 32 :=
  select (cmpi .slt tFlat (broadcastInDim S49 ![] bcast_S_S49 (constantI S_ 32 0#32))) (addi tFlat (broadcastInDim S49 ![] bcast_S_S49 (constantI S_ 32 7#32))) tFlat

/-- As a column. -/
def vTable : IVec S49x1 32 := broadcastInDim S49x1 ![0] bcast_S49_S49x1_0 tWrap

/-! ## The whole -/

/-- The feature array of the positions `X`: speeds, cross products, turning cosines, the cosine between the two animals'
    steps, the 49 distances and their differences in time, the two leading cosines. -/
def refTerm (X : FVec F S16x14x32768x2 .f32) : FVec F S16x161x32768 .f32 :=
  vOut (vNorm (vDiff (vOne X))) (vNorm (vDiff (vTwo X)))
    (vCross (vDiff (vOne X)) (vDiff (vDiff (vOne X)))) (vCross (vDiff (vTwo X)) (vDiff (vDiff (vTwo X))))
    (vTurn (vDiff (vOne X)) (vNorm (vDiff (vOne X)))) (vTurn (vDiff (vTwo X)) (vNorm (vDiff (vTwo X))))
    (vCos (vDot (vDiff (vOne X)) (vDiff (vTwo X))) (vNorm (vDiff (vOne X))) (vNorm (vDiff (vTwo X))))
    (vDist (vOne X) (vTwo X) vTable) (vDdist (vDist (vOne X) (vTwo X) vTable))
    (vCos (vDot (vDiff (vOne X)) (subf (vOne X) (vTwo X))) (vNorm (vDiff (vOne X))) (vNorm (subf (vOne X) (vTwo X))))
    (vCos (vDot (vDiff (vTwo X)) (Host.negf (subf (vOne X) (vTwo X)))) (vNorm (vDiff (vTwo X))) (vNorm (subf (vOne X) (vTwo X))))

end Cert.ReferenceIdeal.RefValue

end
-- ==== Proof.RefOps.lean ====
/-
  The reference program as one straight line of 175 array operations, cut into fifteen consecutive pieces, one per
  quantity it computes (a called function's operations stand where it is called, over that call's buffers), and its run:
  every weakly fair execution terminates with each buffer at the fold of the operations over the contents at launch.
-/
import proofs.«129414_j76424648065748_2_alg».proof.Proof.RefTerms
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The two animals' positions (channels 0–6 and 7–13), each one's step from the previous frame (the first frame prepended to itself, then the difference of the two shifted copies), and each step's length (the square root of the sum over the two coordinates of the squares). -/
abbrev opsSteps : List (HloOp τ sig (Elt F)) :=
  [ unary main_arg0 main_v0 ((extractStridedSlice S16x7x32768x2 ![0, 0, 0, 0] · slices_S16x14x32768x2_S16x7x32768x2_0_0_0_0) : (⟨S16x14x32768x2, .f32⟩ : BufTy).Contents (Elt F) → (⟨S16x7x32768x2, .f32⟩ : BufTy).Contents (Elt F)),
    unary main_arg0 main_v1 ((extractStridedSlice S16x7x32768x2 ![0, 7, 0, 0] · slices_S16x14x32768x2_S16x7x32768x2_0_7_0_0) : (⟨S16x14x32768x2, .f32⟩ : BufTy).Contents (Elt F) → (⟨S16x7x32768x2, .f32⟩ : BufTy).Contents (Elt F)),
    unary main_v0 main_v2 ((extractStridedSlice S16x7x1x2 ![0, 0, 0, 0] · slices_S16x7x32768x2_S16x7x1x2_0_0_0_0) : (⟨S16x7x32768x2, .f32⟩ : BufTy).Contents (Elt F) → (⟨S16x7x1x2, .f32⟩ : BufTy).Contents (Elt F)),
    TRef.binary (.of main_v2 : StableHlo.TRef sig ⟨S16x7x1x2, .f32⟩) (.of main_v0 : StableHlo.TRef sig ⟨S16x7x32768x2, .f32⟩) main_call0.v0 catPre,
    TRef.unary main_call0.v0 main_call0.v1 (extractStridedSlice S16x7x32768x2 ![0, 0, 1, 0] · slices_S16x7x32769x2_S16x7x32768x2_0_0_1_0),
    TRef.unary main_call0.v0 main_call0.v2 (extractStridedSlice S16x7x32768x2 ![0, 0, 0, 0] · slices_S16x7x32769x2_S16x7x32768x2_0_0_0_0),
    TRef.binary main_call0.v1 main_call0.v2 main_call0.v3 subf,
    unary main_v1 main_v4 ((extractStridedSlice S16x7x1x2 ![0, 0, 0, 0] · slices_S16x7x32768x2_S16x7x1x2_0_0_0_0) : (⟨S16x7x32768x2, .f32⟩ : BufTy).Contents (Elt F) → (⟨S16x7x1x2, .f32⟩ : BufTy).Contents (Elt F)),
    TRef.binary (.of main_v4 : StableHlo.TRef sig ⟨S16x7x1x2, .f32⟩) (.of main_v1 : StableHlo.TRef sig ⟨S16x7x32768x2, .f32⟩) main_call1.v0 catPre,
    TRef.unary main_call1.v0 main_call1.v1 (extractStridedSlice S16x7x32768x2 ![0, 0, 1, 0] · slices_S16x7x32769x2_S16x7x32768x2_0_0_1_0),
    TRef.unary main_call1.v0 main_call1.v2 (extractStridedSlice S16x7x32768x2 ![0, 0, 0, 0] · slices_S16x7x32769x2_S16x7x32768x2_0_0_0_0),
    TRef.binary main_call1.v1 main_call1.v2 main_call1.v3 subf,
    TRef.binary (.of main_v3 : StableHlo.TRef sig ⟨S16x7x32768x2, .f32⟩) (.of main_v3 : StableHlo.TRef sig ⟨S16x7x32768x2, .f32⟩) main_call2.v0 mulf,
    TRef.nullary main_call2.cst (constant S_ .f32 0x00000000#32),
    TRef.binary main_call2.v0 main_call2.cst main_call2.v1 (fun x v => Host.reduceAdd x v reducesTo_S16x7x32768x2_S16x7x32768_d3 h_S_),
    TRef.unary main_call2.v1 main_call2.v2 Host.sqrt,
    TRef.binary (.of main_v5 : StableHlo.TRef sig ⟨S16x7x32768x2, .f32⟩) (.of main_v5 : StableHlo.TRef sig ⟨S16x7x32768x2, .f32⟩) main_call3.v0 mulf,
    TRef.nullary main_call3.cst (constant S_ .f32 0x00000000#32),
    TRef.binary main_call3.v0 main_call3.cst main_call3.v1 (fun x v => Host.reduceAdd x v reducesTo_S16x7x32768x2_S16x7x32768_d3 h_S_),
    TRef.unary main_call3.v1 main_call3.v2 Host.sqrt ]

/-- Animal one: the inner product of consecutive steps over the product of their lengths plus the regulariser, at frames 1 … 32767, with a zero placed before at frame 0. -/
abbrev opsTurn1 : List (HloOp τ sig (Elt F)) :=
  [ unary main_v3 main_v8 ((extractStridedSlice S16x7x32767x2 ![0, 0, 1, 0] · slices_S16x7x32768x2_S16x7x32767x2_0_0_1_0) : (⟨S16x7x32768x2, .f32⟩ : BufTy).Contents (Elt F) → (⟨S16x7x32767x2, .f32⟩ : BufTy).Contents (Elt F)),
    unary main_v3 main_v9 ((extractStridedSlice S16x7x32767x2 ![0, 0, 0, 0] · slices_S16x7x32768x2_S16x7x32767x2_0_0_0_0) : (⟨S16x7x32768x2, .f32⟩ : BufTy).Contents (Elt F) → (⟨S16x7x32767x2, .f32⟩ : BufTy).Contents (Elt F)),
    binary main_v8 main_v9 main_v10 (mulf : (⟨S16x7x32767x2, .f32⟩ : BufTy).Contents (Elt F) → (⟨S16x7x32767x2, .f32⟩ : BufTy).Contents (Elt F) → (⟨S16x7x32767x2, .f32⟩ : BufTy).Contents (Elt F)),
    nullary main_cst (constant S_ .f32 0x00000000#32),
    binary main_v10 main_cst main_v11 ((fun x v => Host.reduceAdd x v reducesTo_S16x7x32767x2_S16x7x32767_d3 h_S_) : (⟨S16x7x32767x2, .f32⟩ : BufTy).Contents (Elt F) → (⟨S_, .f32⟩ : BufTy).Contents (Elt F) → (⟨S16x7x32767, .f32⟩ : BufTy).Contents (Elt F)),
    unary main_v6 main_v12 ((extractStridedSlice S16x7x32767 ![0, 0, 1] · slices_S16x7x32768_S16x7x32767_0_0_1) : (⟨S16x7x32768, .f32⟩ : BufTy).Contents (Elt F) → (⟨S16x7x32767, .f32⟩ : BufTy).Contents (Elt F)),
    unary main_v6 main_v13 ((extractStridedSlice S16x7x32767 ![0, 0, 0] · slices_S16x7x32768_S16x7x32767_0_0_0) : (⟨S16x7x32768, .f32⟩ : BufTy).Contents (Elt F) → (⟨S16x7x32767, .f32⟩ : BufTy).Contents (Elt F)),
    binary main_v12 main_v13 main_v14 (mulf : (⟨S16x7x32767, .f32⟩ : BufTy).Contents (Elt F) → (⟨S16x7x32767, .f32⟩ : BufTy).Contents (Elt F) → (⟨S16x7x32767, .f32⟩ : BufTy).Contents (Elt F)),
    nullary main_cst_0 (constant S_ .f32 0x38D1B717#32),
    unary main_cst_0 main_v15 (broadcastInDim S16x7x32767 ![] bcast_S_S16x7x32767 : (⟨S_, .f32⟩ : BufTy).Contents (Elt F) → (⟨S16x7x32767, .f32⟩ : BufTy).Contents (Elt F)),
    binary main_v14 main_v15 main_v16 (addf : (⟨S16x7x32767, .f32⟩ : BufTy).Contents (Elt F) → (⟨S16x7x32767, .f32⟩ : BufTy).Contents (Elt F) → (⟨S16x7x32767, .f32⟩ : BufTy).Contents (Elt F)),
    binary main_v11 main_v16 main_v17 (Host.divf : (⟨S16x7x32767, .f32⟩ : BufTy).Contents (Elt F) → (⟨S16x7x32767, .f32⟩ : BufTy).Contents (Elt F) → (⟨S16x7x32767, .f32⟩ : BufTy).Contents (Elt F)),
    unary main_v17 main_v18 ((extractStridedSlice S16x7x1 ![0, 0, 0] · slices_S16x7x32767_S16x7x1_0_0_0) : (⟨S16x7x32767, .f32⟩ : BufTy).Contents (Elt F) → (⟨S16x7x1, .f32⟩ : BufTy).Contents (Elt F)),
    nullary main_cst_1 (constant S_ .f32 0x00000000#32),
    unary main_cst_1 main_v19 (broadcastInDim S16x7x1 ![] bcast_S_S16x7x1 : (⟨S_, .f32⟩ : BufTy).Contents (Elt F) → (⟨S16x7x1, .f32⟩ : BufTy).Contents (Elt F)),
    binary main_v19 main_v17 main_v20 (catTurn : (⟨S16x7x1, .f32⟩ : BufTy).Contents (Elt F) → (⟨S16x7x32767, .f32⟩ : BufTy).Contents (Elt F) → (⟨S16x7x32768, .f32⟩ : BufTy).Contents (Elt F)) ]

/-- The same for animal two. -/
abbrev opsTurn2 : List (HloOp τ sig (Elt F)) :=
  [ unary main_v5 main_v21 ((extractStridedSlice S16x7x32767x2 ![0, 0, 1, 0] · slices_S16x7x32768x2_S16x7x32767x2_0_0_1_0) : (⟨S16x7x32768x2, .f32⟩ : BufTy).Contents (Elt F) → (⟨S16x7x32767x2, .f32⟩ : BufTy).Contents (Elt F)),
    unary main_v5 main_v22 ((extractStridedSlice S16x7x32767x2 ![0, 0, 0, 0] · slices_S16x7x32768x2_S16x7x32767x2_0_0_0_0) : (⟨S16x7x32768x2, .f32⟩ : BufTy).Contents (Elt F) → (⟨S16x7x32767x2, .f32⟩ : BufTy).Contents (Elt F)),
    binary main_v21 main_v22 main_v23 (mulf : (⟨S16x7x32767x2, .f32⟩ : BufTy).Contents (Elt F) → (⟨S16x7x32767x2, .f32⟩ : BufTy).Contents (Elt F) → (⟨S16x7x32767x2, .f32⟩ : BufTy).Contents (Elt F)),
    nullary main_cst_2 (constant S_ .f32 0x00000000#32),
    binary main_v23 main_cst_2 main_v24 ((fun x v => Host.reduceAdd x v reducesTo_S16x7x32767x2_S16x7x32767_d3 h_S_) : (⟨S16x7x32767x2, .f32⟩ : BufTy).Contents (Elt F) → (⟨S_, .f32⟩ : BufTy).Contents (Elt F) → (⟨S16x7x32767, .f32⟩ : BufTy).Contents (Elt F)),
    unary main_v7 main_v25 ((extractStridedSlice S16x7x32767 ![0, 0, 1] · slices_S16x7x32768_S16x7x32767_0_0_1) : (⟨S16x7x32768, .f32⟩ : BufTy).Contents (Elt F) → (⟨S16x7x32767, .f32⟩ : BufTy).Contents (Elt F)),
    unary main_v7 main_v26 ((extractStridedSlice S16x7x32767 ![0, 0, 0] · slices_S16x7x32768_S16x7x32767_0_0_0) : (⟨S16x7x32768, .f32⟩ : BufTy).Contents (Elt F) → (⟨S16x7x32767, .f32⟩ : BufTy).Contents (Elt F)),
    binary main_v25 main_v26 main_v27 (mulf : (⟨S16x7x32767, .f32⟩ : BufTy).Contents (Elt F) → (⟨S16x7x32767, .f32⟩ : BufTy).Contents (Elt F) → (⟨S16x7x32767, .f32⟩ : BufTy).Contents (Elt F)),
    nullary main_cst_3 (constant S_ .f32 0x38D1B717#32),
    unary main_cst_3 main_v28 (broadcastInDim S16x7x32767 ![] bcast_S_S16x7x32767 : (⟨S_, .f32⟩ : BufTy).Contents (Elt F) → (⟨S16x7x32767, .f32⟩ : BufTy).Contents (Elt F)),
    binary main_v27 main_v28 main_v29 (addf : (⟨S16x7x32767, .f32⟩ : BufTy).Contents (Elt F) → (⟨S16x7x32767, .f32⟩ : BufTy).Contents (Elt F) → (⟨S16x7x32767, .f32⟩ : BufTy).Contents (Elt F)),
    binary main_v24 main_v29 main_v30 (Host.divf : (⟨S16x7x32767, .f32⟩ : BufTy).Contents (Elt F) → (⟨S16x7x32767, .f32⟩ : BufTy).Contents (Elt F) → (⟨S16x7x32767, .f32⟩ : BufTy).Contents (Elt F)),
    unary main_v30 main_v31 ((extractStridedSlice S16x7x1 ![0, 0, 0] · slices_S16x7x32767_S16x7x1_0_0_0) : (⟨S16x7x32767, .f32⟩ : BufTy).Contents (Elt F) → (⟨S16x7x1, .f32⟩ : BufTy).Contents (Elt F)),
    nullary main_cst_4 (constant S_ .f32 0x00000000#32),
    unary main_cst_4 main_v32 (broadcastInDim S16x7x1 ![] bcast_S_S16x7x1 : (⟨S_, .f32⟩ : BufTy).Contents (Elt F) → (⟨S16x7x1, .f32⟩ : BufTy).Contents (Elt F)),
    binary main_v32 main_v30 main_v33 (catTurn : (⟨S16x7x1, .f32⟩ : BufTy).Contents (Elt F) → (⟨S16x7x32767, .f32⟩ : BufTy).Contents (Elt F) → (⟨S16x7x32768, .f32⟩ : BufTy).Contents (Elt F)) ]

/-- Animal one: the change of the step from the previous frame (the step differenced as the position was). -/
abbrev opsBend1 : List (HloOp τ sig (Elt F)) :=
  [ unary main_v3 main_v34 ((extractStridedSlice S16x7x1x2 ![0, 0, 0, 0] · slices_S16x7x32768x2_S16x7x1x2_0_0_0_0) : (⟨S16x7x32768x2, .f32⟩ : BufTy).Contents (Elt F) → (⟨S16x7x1x2, .f32⟩ : BufTy).Contents (Elt F)),
    TRef.binary (.of main_v34 : StableHlo.TRef sig ⟨S16x7x1x2, .f32⟩) (.of main_v3 : StableHlo.TRef sig ⟨S16x7x32768x2, .f32⟩) main_call4.v0 catPre,
    TRef.unary main_call4.v0 main_call4.v1 (extractStridedSlice S16x7x32768x2 ![0, 0, 1, 0] · slices_S16x7x32769x2_S16x7x32768x2_0_0_1_0),
    TRef.unary main_call4.v0 main_call4.v2 (extractStridedSlice S16x7x32768x2 ![0, 0, 0, 0] · slices_S16x7x32769x2_S16x7x32768x2_0_0_0_0),
    TRef.binary main_call4.v1 main_call4.v2 main_call4.v3 subf ]

/-- The same for animal two. -/
abbrev opsBend2 : List (HloOp τ sig (Elt F)) :=
  [ unary main_v5 main_v36 ((extractStridedSlice S16x7x1x2 ![0, 0, 0, 0] · slices_S16x7x32768x2_S16x7x1x2_0_0_0_0) : (⟨S16x7x32768x2, .f32⟩ : BufTy).Contents (Elt F) → (⟨S16x7x1x2, .f32⟩ : BufTy).Contents (Elt F)),
    TRef.binary (.of main_v36 : StableHlo.TRef sig ⟨S16x7x1x2, .f32⟩) (.of main_v5 : StableHlo.TRef sig ⟨S16x7x32768x2, .f32⟩) main_call5.v0 catPre,
    TRef.unary main_call5.v0 main_call5.v1 (extractStridedSlice S16x7x32768x2 ![0, 0, 1, 0] · slices_S16x7x32769x2_S16x7x32768x2_0_0_1_0),
    TRef.unary main_call5.v0 main_call5.v2 (extractStridedSlice S16x7x32768x2 ![0, 0, 0, 0] · slices_S16x7x32769x2_S16x7x32768x2_0_0_0_0),
    TRef.binary main_call5.v1 main_call5.v2 main_call5.v3 subf ]

/-- Animal one: the planar cross product of the step with its change, coordinate by coordinate. -/
abbrev opsCross1 : List (HloOp τ sig (Elt F)) :=
  [ unary main_v3 main_v38 ((extractStridedSlice S16x7x32768x1 ![0, 0, 0, 0] · slices_S16x7x32768x2_S16x7x32768x1_0_0_0_0) : (⟨S16x7x32768x2, .f32⟩ : BufTy).Contents (Elt F) → (⟨S16x7x32768x1, .f32⟩ : BufTy).Contents (Elt F)),
    reshape main_v38 main_v39 rfl shapeCasts_S16x7x32768x1_S16x7x32768,
    unary main_v35 main_v40 ((extractStridedSlice S16x7x32768x1 ![0, 0, 0, 1] · slices_S16x7x32768x2_S16x7x32768x1_0_0_0_1) : (⟨S16x7x32768x2, .f32⟩ : BufTy).Contents (Elt F) → (⟨S16x7x32768x1, .f32⟩ : BufTy).Contents (Elt F)),
    reshape main_v40 main_v41 rfl shapeCasts_S16x7x32768x1_S16x7x32768,
    binary main_v39 main_v41 main_v42 (mulf : (⟨S16x7x32768, .f32⟩ : BufTy).Contents (Elt F) → (⟨S16x7x32768, .f32⟩ : BufTy).Contents (Elt F) → (⟨S16x7x32768, .f32⟩ : BufTy).Contents (Elt F)),
    unary main_v3 main_v43 ((extractStridedSlice S16x7x32768x1 ![0, 0, 0, 1] · slices_S16x7x32768x2_S16x7x32768x1_0_0_0_1) : (⟨S16x7x32768x2, .f32⟩ : BufTy).Contents (Elt F) → (⟨S16x7x32768x1, .f32⟩ : BufTy).Contents (Elt F)),
    reshape main_v43 main_v44 rfl shapeCasts_S16x7x32768x1_S16x7x32768,
    unary main_v35 main_v45 ((extractStridedSlice S16x7x32768x1 ![0, 0, 0, 0] · slices_S16x7x32768x2_S16x7x32768x1_0_0_0_0) : (⟨S16x7x32768x2, .f32⟩ : BufTy).Contents (Elt F) → (⟨S16x7x32768x1, .f32⟩ : BufTy).Contents (Elt F)),
    reshape main_v45 main_v46 rfl shapeCasts_S16x7x32768x1_S16x7x32768,
    binary main_v44 main_v46 main_v47 (mulf : (⟨S16x7x32768, .f32⟩ : BufTy).Contents (Elt F) → (⟨S16x7x32768, .f32⟩ : BufTy).Contents (Elt F) → (⟨S16x7x32768, .f32⟩ : BufTy).Contents (Elt F)),
    binary main_v42 main_v47 main_v48 (subf : (⟨S16x7x32768, .f32⟩ : BufTy).Contents (Elt F) → (⟨S16x7x32768, .f32⟩ : BufTy).Contents (Elt F) → (⟨S16x7x32768, .f32⟩ : BufTy).Contents (Elt F)) ]

/-- Animal two: the first product of its planar cross product. -/
abbrev opsCross2a : List (HloOp τ sig (Elt F)) :=
  [ unary main_v5 main_v49 ((extractStridedSlice S16x7x32768x1 ![0, 0, 0, 0] · slices_S16x7x32768x2_S16x7x32768x1_0_0_0_0) : (⟨S16x7x32768x2, .f32⟩ : BufTy).Contents (Elt F) → (⟨S16x7x32768x1, .f32⟩ : BufTy).Contents (Elt F)),
    reshape main_v49 main_v50 rfl shapeCasts_S16x7x32768x1_S16x7x32768,
    unary main_v37 main_v51 ((extractStridedSlice S16x7x32768x1 ![0, 0, 0, 1] · slices_S16x7x32768x2_S16x7x32768x1_0_0_0_1) : (⟨S16x7x32768x2, .f32⟩ : BufTy).Contents (Elt F) → (⟨S16x7x32768x1, .f32⟩ : BufTy).Contents (Elt F)),
    reshape main_v51 main_v52 rfl shapeCasts_S16x7x32768x1_S16x7x32768,
    binary main_v50 main_v52 main_v53 (mulf : (⟨S16x7x32768, .f32⟩ : BufTy).Contents (Elt F) → (⟨S16x7x32768, .f32⟩ : BufTy).Contents (Elt F) → (⟨S16x7x32768, .f32⟩ : BufTy).Contents (Elt F)) ]

/-- Animal two: the second product and the difference. -/
abbrev opsCross2b : List (HloOp τ sig (Elt F)) :=
  [ unary main_v5 main_v54 ((extractStridedSlice S16x7x32768x1 ![0, 0, 0, 1] · slices_S16x7x32768x2_S16x7x32768x1_0_0_0_1) : (⟨S16x7x32768x2, .f32⟩ : BufTy).Contents (Elt F) → (⟨S16x7x32768x1, .f32⟩ : BufTy).Contents (Elt F)),
    reshape main_v54 main_v55 rfl shapeCasts_S16x7x32768x1_S16x7x32768,
    unary main_v37 main_v56 ((extractStridedSlice S16x7x32768x1 ![0, 0, 0, 0] · slices_S16x7x32768x2_S16x7x32768x1_0_0_0_0) : (⟨S16x7x32768x2, .f32⟩ : BufTy).Contents (Elt F) → (⟨S16x7x32768x1, .f32⟩ : BufTy).Contents (Elt F)),
    reshape main_v56 main_v57 rfl shapeCasts_S16x7x32768x1_S16x7x32768,
    binary main_v55 main_v57 main_v58 (mulf : (⟨S16x7x32768, .f32⟩ : BufTy).Contents (Elt F) → (⟨S16x7x32768, .f32⟩ : BufTy).Contents (Elt F) → (⟨S16x7x32768, .f32⟩ : BufTy).Contents (Elt F)),
    binary main_v53 main_v58 main_v59 (subf : (⟨S16x7x32768, .f32⟩ : BufTy).Contents (Elt F) → (⟨S16x7x32768, .f32⟩ : BufTy).Contents (Elt F) → (⟨S16x7x32768, .f32⟩ : BufTy).Contents (Elt F)) ]

/-- The inner product of the two animals' steps over the product of their lengths plus the regulariser. -/
abbrev opsAlign : List (HloOp τ sig (Elt F)) :=
  [ binary main_v3 main_v5 main_v60 (mulf : (⟨S16x7x32768x2, .f32⟩ : BufTy).Contents (Elt F) → (⟨S16x7x32768x2, .f32⟩ : BufTy).Contents (Elt F) → (⟨S16x7x32768x2, .f32⟩ : BufTy).Contents (Elt F)),
    nullary main_cst_5 (constant S_ .f32 0x00000000#32),
    binary main_v60 main_cst_5 main_v61 ((fun x v => Host.reduceAdd x v reducesTo_S16x7x32768x2_S16x7x32768_d3 h_S_) : (⟨S16x7x32768x2, .f32⟩ : BufTy).Contents (Elt F) → (⟨S_, .f32⟩ : BufTy).Contents (Elt F) → (⟨S16x7x32768, .f32⟩ : BufTy).Contents (Elt F)),
    binary main_v6 main_v7 main_v62 (mulf : (⟨S16x7x32768, .f32⟩ : BufTy).Contents (Elt F) → (⟨S16x7x32768, .f32⟩ : BufTy).Contents (Elt F) → (⟨S16x7x32768, .f32⟩ : BufTy).Contents (Elt F)),
    nullary main_cst_6 (constant S_ .f32 0x358637BD#32),
    unary main_cst_6 main_v63 (broadcastInDim S16x7x32768 ![] bcast_S_S16x7x32768 : (⟨S_, .f32⟩ : BufTy).Contents (Elt F) → (⟨S16x7x32768, .f32⟩ : BufTy).Contents (Elt F)),
    binary main_v62 main_v63 main_v64 (addf : (⟨S16x7x32768, .f32⟩ : BufTy).Contents (Elt F) → (⟨S16x7x32768, .f32⟩ : BufTy).Contents (Elt F) → (⟨S16x7x32768, .f32⟩ : BufTy).Contents (Elt F)),
    binary main_v61 main_v64 main_v65 (Host.divf : (⟨S16x7x32768, .f32⟩ : BufTy).Contents (Elt F) → (⟨S16x7x32768, .f32⟩ : BufTy).Contents (Elt F) → (⟨S16x7x32768, .f32⟩ : BufTy).Contents (Elt F)) ]

/-- The vector between the two animals, its length, and the cosines between each animal's step and that vector (for animal two its negative). -/
abbrev opsLead : List (HloOp τ sig (Elt F)) :=
  [ binary main_v0 main_v1 main_v66 (subf : (⟨S16x7x32768x2, .f32⟩ : BufTy).Contents (Elt F) → (⟨S16x7x32768x2, .f32⟩ : BufTy).Contents (Elt F) → (⟨S16x7x32768x2, .f32⟩ : BufTy).Contents (Elt F)),
    TRef.binary (.of main_v66 : StableHlo.TRef sig ⟨S16x7x32768x2, .f32⟩) (.of main_v66 : StableHlo.TRef sig ⟨S16x7x32768x2, .f32⟩) main_call6.v0 mulf,
    TRef.nullary main_call6.cst (constant S_ .f32 0x00000000#32),
    TRef.binary main_call6.v0 main_call6.cst main_call6.v1 (fun x v => Host.reduceAdd x v reducesTo_S16x7x32768x2_S16x7x32768_d3 h_S_),
    TRef.unary main_call6.v1 main_call6.v2 Host.sqrt,
    binary main_v3 main_v66 main_v68 (mulf : (⟨S16x7x32768x2, .f32⟩ : BufTy).Contents (Elt F) → (⟨S16x7x32768x2, .f32⟩ : BufTy).Contents (Elt F) → (⟨S16x7x32768x2, .f32⟩ : BufTy).Contents (Elt F)),
    nullary main_cst_7 (constant S_ .f32 0x00000000#32),
    binary main_v68 main_cst_7 main_v69 ((fun x v => Host.reduceAdd x v reducesTo_S16x7x32768x2_S16x7x32768_d3 h_S_) : (⟨S16x7x32768x2, .f32⟩ : BufTy).Contents (Elt F) → (⟨S_, .f32⟩ : BufTy).Contents (Elt F) → (⟨S16x7x32768, .f32⟩ : BufTy).Contents (Elt F)),
    binary main_v6 main_v67 main_v70 (mulf : (⟨S16x7x32768, .f32⟩ : BufTy).Contents (Elt F) → (⟨S16x7x32768, .f32⟩ : BufTy).Contents (Elt F) → (⟨S16x7x32768, .f32⟩ : BufTy).Contents (Elt F)),
    nullary main_cst_8 (constant S_ .f32 0x358637BD#32),
    unary main_cst_8 main_v71 (broadcastInDim S16x7x32768 ![] bcast_S_S16x7x32768 : (⟨S_, .f32⟩ : BufTy).Contents (Elt F) → (⟨S16x7x32768, .f32⟩ : BufTy).Contents (Elt F)),
    binary main_v70 main_v71 main_v72 (addf : (⟨S16x7x32768, .f32⟩ : BufTy).Contents (Elt F) → (⟨S16x7x32768, .f32⟩ : BufTy).Contents (Elt F) → (⟨S16x7x32768, .f32⟩ : BufTy).Contents (Elt F)),
    binary main_v69 main_v72 main_v73 (Host.divf : (⟨S16x7x32768, .f32⟩ : BufTy).Contents (Elt F) → (⟨S16x7x32768, .f32⟩ : BufTy).Contents (Elt F) → (⟨S16x7x32768, .f32⟩ : BufTy).Contents (Elt F)),
    unary main_v66 main_v74 (Host.negf : (⟨S16x7x32768x2, .f32⟩ : BufTy).Contents (Elt F) → (⟨S16x7x32768x2, .f32⟩ : BufTy).Contents (Elt F)),
    binary main_v5 main_v74 main_v75 (mulf : (⟨S16x7x32768x2, .f32⟩ : BufTy).Contents (Elt F) → (⟨S16x7x32768x2, .f32⟩ : BufTy).Contents (Elt F) → (⟨S16x7x32768x2, .f32⟩ : BufTy).Contents (Elt F)),
    nullary main_cst_9 (constant S_ .f32 0x00000000#32),
    binary main_v75 main_cst_9 main_v76 ((fun x v => Host.reduceAdd x v reducesTo_S16x7x32768x2_S16x7x32768_d3 h_S_) : (⟨S16x7x32768x2, .f32⟩ : BufTy).Contents (Elt F) → (⟨S_, .f32⟩ : BufTy).Contents (Elt F) → (⟨S16x7x32768, .f32⟩ : BufTy).Contents (Elt F)),
    binary main_v7 main_v67 main_v77 (mulf : (⟨S16x7x32768, .f32⟩ : BufTy).Contents (Elt F) → (⟨S16x7x32768, .f32⟩ : BufTy).Contents (Elt F) → (⟨S16x7x32768, .f32⟩ : BufTy).Contents (Elt F)),
    nullary main_cst_10 (constant S_ .f32 0x358637BD#32),
    unary main_cst_10 main_v78 (broadcastInDim S16x7x32768 ![] bcast_S_S16x7x32768 : (⟨S_, .f32⟩ : BufTy).Contents (Elt F) → (⟨S16x7x32768, .f32⟩ : BufTy).Contents (Elt F)),
    binary main_v77 main_v78 main_v79 (addf : (⟨S16x7x32768, .f32⟩ : BufTy).Contents (Elt F) → (⟨S16x7x32768, .f32⟩ : BufTy).Contents (Elt F) → (⟨S16x7x32768, .f32⟩ : BufTy).Contents (Elt F)),
    binary main_v76 main_v79 main_v80 (Host.divf : (⟨S16x7x32768, .f32⟩ : BufTy).Contents (Elt F) → (⟨S16x7x32768, .f32⟩ : BufTy).Contents (Elt F) → (⟨S16x7x32768, .f32⟩ : BufTy).Contents (Elt F)) ]

/-- The 7 × 7 table of partners, (j − (i + 1)) mod 7 with the remainder's sign corrected, flattened to 49 entries, a negative entry wrapped by 7, as a column. -/
abbrev opsTable : List (HloOp τ sig (Elt F)) :=
  [ nullary main_v81 (iotaInDim S7 32 0),
    unary main_v81 main_v82 (broadcastInDim S1x7 ![1] bcast_S7_S1x7_1 : (⟨S7, .i32⟩ : BufTy).Contents (Elt F) → (⟨S1x7, .i32⟩ : BufTy).Contents (Elt F)),
    nullary main_v83 (iotaInDim S7 32 0),
    nullary main_c (constantI S_ 32 1#32),
    unary main_c main_v84 (broadcastInDim S7 ![] bcast_S_S7 : (⟨S_, .i32⟩ : BufTy).Contents (Elt F) → (⟨S7, .i32⟩ : BufTy).Contents (Elt F)),
    binary main_v84 main_v83 main_v85 (addi : (⟨S7, .i32⟩ : BufTy).Contents (Elt F) → (⟨S7, .i32⟩ : BufTy).Contents (Elt F) → (⟨S7, .i32⟩ : BufTy).Contents (Elt F)),
    unary main_v85 main_v86 (broadcastInDim S7x1 ![0] bcast_S7_S7x1_0 : (⟨S7, .i32⟩ : BufTy).Contents (Elt F) → (⟨S7x1, .i32⟩ : BufTy).Contents (Elt F)),
    unary main_v82 main_v87 (broadcastInDim S7x7 ![0, 1] bcast_S1x7_S7x7_0_1 : (⟨S1x7, .i32⟩ : BufTy).Contents (Elt F) → (⟨S7x7, .i32⟩ : BufTy).Contents (Elt F)),
    unary main_v86 main_v88 (broadcastInDim S7x7 ![0, 1] bcast_S7x1_S7x7_0_1 : (⟨S7x1, .i32⟩ : BufTy).Contents (Elt F) → (⟨S7x7, .i32⟩ : BufTy).Contents (Elt F)),
    binary main_v87 main_v88 main_v89 (subi : (⟨S7x7, .i32⟩ : BufTy).Contents (Elt F) → (⟨S7x7, .i32⟩ : BufTy).Contents (Elt F) → (⟨S7x7, .i32⟩ : BufTy).Contents (Elt F)),
    nullary main_c_11 (constantI S_ 32 7#32),
    TRef.unary (.of main_c_11 : StableHlo.TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S7x7 ![] bcast_S_S7x7),
    TRef.binary (.of main_v89 : StableHlo.TRef sig ⟨S7x7, .i32⟩) main_call7.v3 main_call7.v4 Host.remsi,
    TRef.nullary main_call7.c_1 (constantI S_ 32 0#32),
    TRef.unary main_call7.c_1 main_call7.v5 (broadcastInDim S7x7 ![] bcast_S_S7x7),
    TRef.binary main_call7.v4 main_call7.v5 main_call7.v6 (cmpi .ne),
    TRef.nullary main_call7.c_2 (constantI S_ 32 0#32),
    TRef.unary main_call7.c_2 main_call7.v7 (broadcastInDim S7x7 ![] bcast_S_S7x7),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S7x7 ![] bcast_S_S7x7),
    TRef.binary main_call7.v8 main_call7.v10 main_call7.v11 (cmpi .ne),
    TRef.binary main_call7.v11 main_call7.v6 main_call7.v12 andi,
    TRef.unary main_call7.call0.v0 main_call7.v13 (broadcastInDim S7x7 ![] bcast_S_S7x7),
    TRef.binary main_call7.v4 main_call7.v13 main_call7.v14 addi,
    TRef.ternary main_call7.v12 main_call7.v14 main_call7.v4 main_call7.v15 select,
    reshape main_v90 main_v91 rfl shapeCasts_S7x7_S49,
    nullary main_c_12 (constantI S_ 32 0#32),
    unary main_c_12 main_v92 (broadcastInDim S49 ![] bcast_S_S49 : (⟨S_, .i32⟩ : BufTy).Contents (Elt F) → (⟨S49, .i32⟩ : BufTy).Contents (Elt F)),
    binary main_v91 main_v92 main_v93 (cmpi .slt : (⟨S49, .i32⟩ : BufTy).Contents (Elt F) → (⟨S49, .i32⟩ : BufTy).Contents (Elt F) → (⟨S49, .i1⟩ : BufTy).Contents (Elt F)),
    nullary main_c_13 (constantI S_ 32 7#32),
    unary main_c_13 main_v94 (broadcastInDim S49 ![] bcast_S_S49 : (⟨S_, .i32⟩ : BufTy).Contents (Elt F) → (⟨S49, .i32⟩ : BufTy).Contents (Elt F)),
    binary main_v91 main_v94 main_v95 (addi : (⟨S49, .i32⟩ : BufTy).Contents (Elt F) → (⟨S49, .i32⟩ : BufTy).Contents (Elt F) → (⟨S49, .i32⟩ : BufTy).Contents (Elt F)),
    ternary main_v93 main_v95 main_v91 main_v96 (select : (⟨S49, .i1⟩ : BufTy).Contents (Elt F) → (⟨S49, .i32⟩ : BufTy).Contents (Elt F) → (⟨S49, .i32⟩ : BufTy).Contents (Elt F) → (⟨S49, .i32⟩ : BufTy).Contents (Elt F)),
    unary main_v96 main_v97 (broadcastInDim S49x1 ![0] bcast_S49_S49x1_0 : (⟨S49, .i32⟩ : BufTy).Contents (Elt F) → (⟨S49x1, .i32⟩ : BufTy).Contents (Elt F)) ]

/-- Animal one's keypoints picked by the table (49 rows), animal two's keypoints repeated seven times (49 rows), and their difference. -/
abbrev opsPair : List (HloOp τ sig (Elt F)) :=
  [ binary main_v0 main_v97 main_v98 ((fun x i => Host.gather gather_S16x7x32768x2_S49x1_S16x49x32768x2_023_1_n_n_1_1_161327682 x i) : (⟨S16x7x32768x2, .f32⟩ : BufTy).Contents (Elt F) → (⟨S49x1, .i32⟩ : BufTy).Contents (Elt F) → (⟨S16x49x32768x2, .f32⟩ : BufTy).Contents (Elt F)),
    reshape main_v1 main_v99 rfl shapeCasts_S16x7x32768x2_S1x16x1x7x1x32768x1x2,
    unary main_v99 main_v100 (broadcastInDim S1x16x7x7x1x32768x1x2 ![0, 1, 2, 3, 4, 5, 6, 7] bcast_S1x16x1x7x1x32768x1x2_S1x16x7x7x1x32768x1x2_0_1_2_3_4_5_6_7 : (⟨S1x16x1x7x1x32768x1x2, .f32⟩ : BufTy).Contents (Elt F) → (⟨S1x16x7x7x1x32768x1x2, .f32⟩ : BufTy).Contents (Elt F)),
    reshape main_v100 main_v101 rfl shapeCasts_S1x16x7x7x1x32768x1x2_S16x49x32768x2,
    binary main_v98 main_v101 main_v102 (subf : (⟨S16x49x32768x2, .f32⟩ : BufTy).Contents (Elt F) → (⟨S16x49x32768x2, .f32⟩ : BufTy).Contents (Elt F) → (⟨S16x49x32768x2, .f32⟩ : BufTy).Contents (Elt F)),
    nullary main_cst_14 (constant S_ .f32 0x358637BD#32) ]

/-- The regulariser added to each coordinate of the difference, and its length. -/
abbrev opsDist : List (HloOp τ sig (Elt F)) :=
  [ unary main_cst_14 main_v103 (broadcastInDim S16x49x32768x2 ![] bcast_S_S16x49x32768x2 : (⟨S_, .f32⟩ : BufTy).Contents (Elt F) → (⟨S16x49x32768x2, .f32⟩ : BufTy).Contents (Elt F)),
    binary main_v102 main_v103 main_v104 (addf : (⟨S16x49x32768x2, .f32⟩ : BufTy).Contents (Elt F) → (⟨S16x49x32768x2, .f32⟩ : BufTy).Contents (Elt F) → (⟨S16x49x32768x2, .f32⟩ : BufTy).Contents (Elt F)),
    TRef.binary (.of main_v104 : StableHlo.TRef sig ⟨S16x49x32768x2, .f32⟩) (.of main_v104 : StableHlo.TRef sig ⟨S16x49x32768x2, .f32⟩) main_call8.v0 mulf,
    TRef.nullary main_call8.cst (constant S_ .f32 0x00000000#32),
    TRef.binary main_call8.v0 main_call8.cst main_call8.v1 (fun x v => Host.reduceAdd x v reducesTo_S16x49x32768x2_S16x49x32768_d3 h_S_),
    TRef.unary main_call8.v1 main_call8.v2 Host.sqrt ]

/-- The forward difference in time of the distance, a zero appended after the last frame. -/
abbrev opsDdist : List (HloOp τ sig (Elt F)) :=
  [ unary main_v105 main_v106 ((extractStridedSlice S16x49x1 ![0, 0, 0] · slices_S16x49x32768_S16x49x1_0_0_0) : (⟨S16x49x32768, .f32⟩ : BufTy).Contents (Elt F) → (⟨S16x49x1, .f32⟩ : BufTy).Contents (Elt F)),
    nullary main_cst_15 (constant S_ .f32 0x00000000#32),
    unary main_cst_15 main_v107 (broadcastInDim S16x49x1 ![] bcast_S_S16x49x1 : (⟨S_, .f32⟩ : BufTy).Contents (Elt F) → (⟨S16x49x1, .f32⟩ : BufTy).Contents (Elt F)),
    binary main_v105 main_v107 main_v108 (catApp : (⟨S16x49x32768, .f32⟩ : BufTy).Contents (Elt F) → (⟨S16x49x1, .f32⟩ : BufTy).Contents (Elt F) → (⟨S16x49x32769, .f32⟩ : BufTy).Contents (Elt F)),
    TRef.unary (.of main_v108 : StableHlo.TRef sig ⟨S16x49x32769, .f32⟩) main_call9.v0 (extractStridedSlice S16x49x32768 ![0, 0, 1] · slices_S16x49x32769_S16x49x32768_0_0_1),
    TRef.unary (.of main_v108 : StableHlo.TRef sig ⟨S16x49x32769, .f32⟩) main_call9.v1 (extractStridedSlice S16x49x32768 ![0, 0, 0] · slices_S16x49x32769_S16x49x32768_0_0_0),
    TRef.binary main_call9.v0 main_call9.v1 main_call9.v2 subf ]

/-- The eleven groups laid one after the other along the row axis. -/
abbrev opsOut : List (HloOp τ sig (Elt F)) :=
  [ nary ![main_v6, main_v7, main_v48, main_v59, main_v20, main_v33, main_v65, main_v105, main_v109, main_v73, main_v80] main_v110 (fun u => vOut (u 0) (u 1) (u 2) (u 3) (u 4) (u 5) (u 6) (u 7) (u 8) (u 9) (u 10)) ]

/-- The pieces of the first window of the program, in order. -/
def opsPart0 : List (HloOp τ sig (Elt F)) :=
  opsSteps ++ (opsTurn1 ++ (opsTurn2 ++ (opsBend1 ++ (opsBend2 ++ (opsCross1 ++ (opsCross2a))))))

/-- The pieces of the second window of the program, in order. -/
def opsPart1 : List (HloOp τ sig (Elt F)) :=
  opsCross2b ++ (opsAlign ++ (opsLead ++ (opsTable ++ (opsPair))))

/-- The pieces of the third window of the program, in order. -/
def opsPart2 : List (HloOp τ sig (Elt F)) :=
  opsDist ++ (opsDdist ++ (opsOut))

/-- The whole line. -/
def ops : List (HloOp τ sig (Elt F)) := opsPart0 ++ (opsPart1 ++ opsPart2)

/-- The fold over two lines one after the other is the second's over the first's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

set_option maxRecDepth 8192 in
set_option maxHeartbeats 4000000 in
/-- The first window of the program is its pieces in order. -/
theorem main_part0_eq (c : Dev nD) : main_part0 (F := F) c = seq opsPart0 := rfl

set_option maxRecDepth 8192 in
set_option maxHeartbeats 4000000 in
/-- The second window of the program is its pieces in order. -/
theorem main_part1_eq (c : Dev nD) : main_part1 (F := F) c = seq opsPart1 := rfl

set_option maxRecDepth 8192 in
set_option maxHeartbeats 4000000 in
/-- The third window of the program is its pieces in order. -/
theorem main_part2_eq (c : Dev nD) : main_part2 (F := F) c = seq opsPart2 := rfl

/-- The program is the whole line. -/
theorem main_eq (c : Dev nD) : main (F := F) c = seq ops := by
  rw [ops, seq_append, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsSteps_sub : (opsSteps : List (HloOp τ sig (Elt F))).Forall fun op => op.bufs ⊆ tcRefs τ sig :=
  ⟨unary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., binary_bufs_sub .., nullary_bufs_sub .., binary_bufs_sub .., unary_bufs_sub .., binary_bufs_sub .., nullary_bufs_sub .., binary_bufs_sub .., unary_bufs_sub ..⟩
theorem opsSteps_fresh : ∀ op ∈ (opsSteps : List (HloOp τ sig (Elt F))), op.fresh = ∅ := by
  intro _ h; (repeat (cases h with | head => rfl | tail _ h => ?_)); exact nomatch h

theorem opsTurn1_sub : (opsTurn1 : List (HloOp τ sig (Elt F))).Forall fun op => op.bufs ⊆ tcRefs τ sig :=
  ⟨unary_bufs_sub .., unary_bufs_sub .., binary_bufs_sub .., nullary_bufs_sub .., binary_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub ..⟩
theorem opsTurn1_fresh : ∀ op ∈ (opsTurn1 : List (HloOp τ sig (Elt F))), op.fresh = ∅ := by
  intro _ h; (repeat (cases h with | head => rfl | tail _ h => ?_)); exact nomatch h

theorem opsTurn2_sub : (opsTurn2 : List (HloOp τ sig (Elt F))).Forall fun op => op.bufs ⊆ tcRefs τ sig :=
  ⟨unary_bufs_sub .., unary_bufs_sub .., binary_bufs_sub .., nullary_bufs_sub .., binary_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub ..⟩
theorem opsTurn2_fresh : ∀ op ∈ (opsTurn2 : List (HloOp τ sig (Elt F))), op.fresh = ∅ := by
  intro _ h; (repeat (cases h with | head => rfl | tail _ h => ?_)); exact nomatch h

theorem opsBend1_sub : (opsBend1 : List (HloOp τ sig (Elt F))).Forall fun op => op.bufs ⊆ tcRefs τ sig :=
  ⟨unary_bufs_sub .., binary_bufs_sub .., unary_bufs_sub .., unary_bufs_sub .., binary_bufs_sub ..⟩
theorem opsBend1_fresh : ∀ op ∈ (opsBend1 : List (HloOp τ sig (Elt F))), op.fresh = ∅ := by
  intro _ h; (repeat (cases h with | head => rfl | tail _ h => ?_)); exact nomatch h

theorem opsBend2_sub : (opsBend2 : List (HloOp τ sig (Elt F))).Forall fun op => op.bufs ⊆ tcRefs τ sig :=
  ⟨unary_bufs_sub .., binary_bufs_sub .., unary_bufs_sub .., unary_bufs_sub .., binary_bufs_sub ..⟩
theorem opsBend2_fresh : ∀ op ∈ (opsBend2 : List (HloOp τ sig (Elt F))), op.fresh = ∅ := by
  intro _ h; (repeat (cases h with | head => rfl | tail _ h => ?_)); exact nomatch h

theorem opsCross1_sub : (opsCross1 : List (HloOp τ sig (Elt F))).Forall fun op => op.bufs ⊆ tcRefs τ sig :=
  ⟨unary_bufs_sub .., reshape_bufs_sub .., unary_bufs_sub .., reshape_bufs_sub .., binary_bufs_sub .., unary_bufs_sub .., reshape_bufs_sub .., unary_bufs_sub .., reshape_bufs_sub .., binary_bufs_sub .., binary_bufs_sub ..⟩
theorem opsCross1_fresh : ∀ op ∈ (opsCross1 : List (HloOp τ sig (Elt F))), op.fresh = ∅ := by
  intro _ h; (repeat (cases h with | head => rfl | tail _ h => ?_)); exact nomatch h

theorem opsCross2a_sub : (opsCross2a : List (HloOp τ sig (Elt F))).Forall fun op => op.bufs ⊆ tcRefs τ sig :=
  ⟨unary_bufs_sub .., reshape_bufs_sub .., unary_bufs_sub .., reshape_bufs_sub .., binary_bufs_sub ..⟩
theorem opsCross2a_fresh : ∀ op ∈ (opsCross2a : List (HloOp τ sig (Elt F))), op.fresh = ∅ := by
  intro _ h; (repeat (cases h with | head => rfl | tail _ h => ?_)); exact nomatch h

theorem opsCross2b_sub : (opsCross2b : List (HloOp τ sig (Elt F))).Forall fun op => op.bufs ⊆ tcRefs τ sig :=
  ⟨unary_bufs_sub .., reshape_bufs_sub .., unary_bufs_sub .., reshape_bufs_sub .., binary_bufs_sub .., binary_bufs_sub ..⟩
theorem opsCross2b_fresh : ∀ op ∈ (opsCross2b : List (HloOp τ sig (Elt F))), op.fresh = ∅ := by
  intro _ h; (repeat (cases h with | head => rfl | tail _ h => ?_)); exact nomatch h

theorem opsAlign_sub : (opsAlign : List (HloOp τ sig (Elt F))).Forall fun op => op.bufs ⊆ tcRefs τ sig :=
  ⟨binary_bufs_sub .., nullary_bufs_sub .., binary_bufs_sub .., binary_bufs_sub .., nullary_bufs_sub .., unary_bufs_sub .., binary_bufs_sub .., binary_bufs_sub ..⟩
theorem opsAlign_fresh : ∀ op ∈ (opsAlign : List (HloOp τ sig (Elt F))), op.fresh = ∅ := by
  intro _ h; (repeat (cases h with | head => rfl | tail _ h => ?_)); exact nomatch h

theorem opsLead_sub : (opsLead : List (HloOp τ sig (Elt F))).Forall fun op => op.bufs ⊆ tcRefs τ sig :=
  ⟨binary_bufs_sub .., binary_bufs_sub .., nullary_bufs_sub .., binary_bufs_sub .., unary_bufs_sub .., binary_bufs_sub .., nullary_bufs_sub .., binary_bufs_sub .., binary_bufs_sub .., nullary_bufs_sub .., unary_bufs_sub .., binary_bufs_sub .., binary_bufs_sub .., unary_bufs_sub .., binary_bufs_sub .., nullary_bufs_sub .., binary_bufs_sub .., binary_bufs_sub .., nullary_bufs_sub .., unary_bufs_sub .., binary_bufs_sub .., binary_bufs_sub ..⟩
theorem opsLead_fresh : ∀ op ∈ (opsLead : List (HloOp τ sig (Elt F))), op.fresh = ∅ := by
  intro _ h; (repeat (cases h with | head => rfl | tail _ h => ?_)); exact nomatch h

theorem opsTable_sub : (opsTable : List (HloOp τ sig (Elt F))).Forall fun op => op.bufs ⊆ tcRefs τ sig :=
  ⟨nullary_bufs_sub .., unary_bufs_sub .., nullary_bufs_sub .., nullary_bufs_sub .., unary_bufs_sub .., binary_bufs_sub .., unary_bufs_sub .., unary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., reshape_bufs_sub .., nullary_bufs_sub .., unary_bufs_sub .., binary_bufs_sub .., nullary_bufs_sub .., unary_bufs_sub .., binary_bufs_sub .., ternary_bufs_sub .., unary_bufs_sub ..⟩
theorem opsTable_fresh : ∀ op ∈ (opsTable : List (HloOp τ sig (Elt F))), op.fresh = ∅ := by
  intro _ h; (repeat (cases h with | head => rfl | tail _ h => ?_)); exact nomatch h

theorem opsPair_sub : (opsPair : List (HloOp τ sig (Elt F))).Forall fun op => op.bufs ⊆ tcRefs τ sig :=
  ⟨binary_bufs_sub .., reshape_bufs_sub .., unary_bufs_sub .., reshape_bufs_sub .., binary_bufs_sub .., nullary_bufs_sub ..⟩
theorem opsPair_fresh : ∀ op ∈ (opsPair : List (HloOp τ sig (Elt F))), op.fresh = ∅ := by
  intro _ h; (repeat (cases h with | head => rfl | tail _ h => ?_)); exact nomatch h

theorem opsDist_sub : (opsDist : List (HloOp τ sig (Elt F))).Forall fun op => op.bufs ⊆ tcRefs τ sig :=
  ⟨unary_bufs_sub .., binary_bufs_sub .., binary_bufs_sub .., nullary_bufs_sub .., binary_bufs_sub .., unary_bufs_sub ..⟩
theorem opsDist_fresh : ∀ op ∈ (opsDist : List (HloOp τ sig (Elt F))), op.fresh = ∅ := by
  intro _ h; (repeat (cases h with | head => rfl | tail _ h => ?_)); exact nomatch h

theorem opsDdist_sub : (opsDdist : List (HloOp τ sig (Elt F))).Forall fun op => op.bufs ⊆ tcRefs τ sig :=
  ⟨unary_bufs_sub .., nullary_bufs_sub .., unary_bufs_sub .., binary_bufs_sub .., unary_bufs_sub .., unary_bufs_sub .., binary_bufs_sub ..⟩
theorem opsDdist_fresh : ∀ op ∈ (opsDdist : List (HloOp τ sig (Elt F))), op.fresh = ∅ := by
  intro _ h; (repeat (cases h with | head => rfl | tail _ h => ?_)); exact nomatch h

theorem opsOut_sub : (opsOut : List (HloOp τ sig (Elt F))).Forall fun op => op.bufs ⊆ tcRefs τ sig :=
  nary_bufs_sub ..
theorem opsOut_fresh : ∀ op ∈ (opsOut : List (HloOp τ sig (Elt F))), op.fresh = ∅ := by
  intro _ h; (repeat (cases h with | head => rfl | tail _ h => ?_)); exact nomatch h

/-- Every operation's buffers are the device's. -/
theorem ops_sub : (ops : List (HloOp τ sig (Elt F))).Forall fun op => op.bufs ⊆ tcRefs τ sig :=
  List.forall_iff_forall_mem.mpr fun op h => by
    simp only [ops, opsPart0, opsPart1, opsPart2, List.mem_append] at h
    rcases h with (h | h | h | h | h | h | h) | (h | h | h | h | h) | (h | h | h)
    exacts [List.forall_iff_forall_mem.mp opsSteps_sub op h, List.forall_iff_forall_mem.mp opsTurn1_sub op h, List.forall_iff_forall_mem.mp opsTurn2_sub op h, List.forall_iff_forall_mem.mp opsBend1_sub op h, List.forall_iff_forall_mem.mp opsBend2_sub op h, List.forall_iff_forall_mem.mp opsCross1_sub op h, List.forall_iff_forall_mem.mp opsCross2a_sub op h, List.forall_iff_forall_mem.mp opsCross2b_sub op h, List.forall_iff_forall_mem.mp opsAlign_sub op h, List.forall_iff_forall_mem.mp opsLead_sub op h, List.forall_iff_forall_mem.mp opsTable_sub op h, List.forall_iff_forall_mem.mp opsPair_sub op h, List.forall_iff_forall_mem.mp opsDist_sub op h, List.forall_iff_forall_mem.mp opsDdist_sub op h, List.forall_iff_forall_mem.mp opsOut_sub op h]

/-- No operation allocates: each determines its result. -/
theorem ops_fresh : ∀ op ∈ (ops : List (HloOp τ sig (Elt F))), op.fresh = ∅ := fun op h => by
  simp only [ops, opsPart0, opsPart1, opsPart2, List.mem_append] at h
  rcases h with (h | h | h | h | h | h | h) | (h | h | h | h | h) | (h | h | h)
  exacts [opsSteps_fresh op h, opsTurn1_fresh op h, opsTurn2_fresh op h, opsBend1_fresh op h, opsBend2_fresh op h, opsCross1_fresh op h, opsCross2a_fresh op h, opsCross2b_fresh op h, opsAlign_fresh op h, opsLead_fresh op h, opsTable_fresh op h, opsPair_fresh op h, opsDist_fresh op h, opsDdist_fresh op h, opsOut_fresh op h]

/-- From any memory with zero counters every weakly fair execution terminates, each buffer of each device at the fold of
    the operations over that device's contents at launch. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefValue

end
-- ==== Proof.RefStages.lean ====
/-
  The fold of the reference's line, piece by piece: after each piece, every buffer a later piece reads is the pure
  function of the position array that the piece's name says (a buffer a piece does not write keeps its contents through
  it); after the last, the result buffer holds the whole feature array of the positions, and the two argument buffers
  what they held.
-/
import proofs.«129414_j76424648065748_2_alg».proof.Proof.RefOps
import proofs.«129414_j76424648065748_2_alg».proof.Proof.RefTerms

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))

/-- The contents before the first piece. -/
def val0 : Valuation τ sig (Elt F) := V
/-- The contents after the first 1 piece. -/
def val1 : Valuation τ sig (Elt F) := after opsSteps (val0 V)
/-- The contents after the first 2 pieces. -/
def val2 : Valuation τ sig (Elt F) := after opsTurn1 (val1 V)
/-- The contents after the first 3 pieces. -/
def val3 : Valuation τ sig (Elt F) := after opsTurn2 (val2 V)
/-- The contents after the first 4 pieces. -/
def val4 : Valuation τ sig (Elt F) := after opsBend1 (val3 V)
/-- The contents after the first 5 pieces. -/
def val5 : Valuation τ sig (Elt F) := after opsBend2 (val4 V)
/-- The contents after the first 6 pieces. -/
def val6 : Valuation τ sig (Elt F) := after opsCross1 (val5 V)
/-- The contents after the first 7 pieces. -/
def val7 : Valuation τ sig (Elt F) := after opsCross2a (val6 V)
/-- The contents after the first 8 pieces. -/
def val8 : Valuation τ sig (Elt F) := after opsCross2b (val7 V)
/-- The contents after the first 9 pieces. -/
def val9 : Valuation τ sig (Elt F) := after opsAlign (val8 V)
/-- The contents after the first 10 pieces. -/
def val10 : Valuation τ sig (Elt F) := after opsLead (val9 V)
/-- The contents after the first 11 pieces. -/
def val11 : Valuation τ sig (Elt F) := after opsTable (val10 V)
/-- The contents after the first 12 pieces. -/
def val12 : Valuation τ sig (Elt F) := after opsPair (val11 V)
/-- The contents after the first 13 pieces. -/
def val13 : Valuation τ sig (Elt F) := after opsDist (val12 V)
/-- The contents after the first 14 pieces. -/
def val14 : Valuation τ sig (Elt F) := after opsDdist (val13 V)
/-- The contents after the first 15 pieces. -/
def val15 : Valuation τ sig (Elt F) := after opsOut (val14 V)

/-- The whole line's fold is the last of them. -/
theorem after_ops : after ops V = val15 V := by
  simp only [ops, opsPart0, opsPart1, opsPart2, after_app]
  rfl

theorem val0_main_arg0 : val0 V (no_index (Proc.devRef .tc main_arg0)) = V (Proc.devRef .tc main_arg0) := rfl
theorem val0_main_arg1 : val0 V (no_index (Proc.devRef .tc main_arg1)) = V (Proc.devRef .tc main_arg1) := rfl

/-! ### Piece 1 -/

/-- The buffers the piece writes. -/
abbrev opsSteps_W : List (Ref sig .tc) := [main_v0, main_v1, main_v2, main_call0.v0.ref, main_call0.v1.ref, main_call0.v2.ref, main_call0.v3.ref, main_v4, main_call1.v0.ref, main_call1.v1.ref, main_call1.v2.ref, main_call1.v3.ref, main_call2.v0.ref, main_call2.cst.ref, main_call2.v1.ref, main_call2.v2.ref, main_call3.v0.ref, main_call3.cst.ref, main_call3.v1.ref, main_call3.v2.ref]
theorem opsSteps_writes : (opsSteps : List (HloOp τ sig (Elt F))).Forall fun op => op.writes ⊆ (opsSteps_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the piece does not write keeps its contents through it. -/
theorem val1_keep (r : Ref sig .tc) (h : r ∉ opsSteps_W) : val1 V (Proc.devRef .tc r) = val0 V (Proc.devRef .tc r) :=
  after_of_writes_sub opsSteps _ opsSteps_writes h
theorem val1_main_arg0 : val1 V (no_index (Proc.devRef .tc main_arg0)) = (V (Proc.devRef .tc main_arg0)) :=
  (val1_keep V main_arg0 (by decide)).trans (val0_main_arg0 V)
theorem val1_main_arg1 : val1 V (no_index (Proc.devRef .tc main_arg1)) = (V (Proc.devRef .tc main_arg1)) :=
  (val1_keep V main_arg1 (by decide)).trans (val0_main_arg1 V)
set_option maxRecDepth 8192 in
set_option maxHeartbeats 2000000 in
theorem val1_main_v0 : val1 V (no_index (Proc.devRef .tc main_v0)) = (vOne (V (Proc.devRef .tc main_arg0))) := by
  unfold val1
  simp only [opsSteps]
  after_results_simp
  all_goals (simp only [val0_main_arg0] <;> rfl)
set_option maxRecDepth 8192 in
set_option maxHeartbeats 2000000 in
theorem val1_main_v1 : val1 V (no_index (Proc.devRef .tc main_v1)) = (vTwo (V (Proc.devRef .tc main_arg0))) := by
  unfold val1
  simp only [opsSteps]
  after_results_simp
  all_goals (simp only [val0_main_arg0] <;> rfl)
set_option maxRecDepth 8192 in
set_option maxHeartbeats 2000000 in
theorem val1_main_v3 : val1 V (no_index (Proc.devRef .tc main_v3)) = (vDiff (vOne (V (Proc.devRef .tc main_arg0)))) := by
  unfold val1
  simp only [opsSteps]
  after_results_simp
  all_goals (simp only [val0_main_arg0] <;> rfl)
set_option maxRecDepth 8192 in
set_option maxHeartbeats 2000000 in
theorem val1_main_v5 : val1 V (no_index (Proc.devRef .tc main_v5)) = (vDiff (vTwo (V (Proc.devRef .tc main_arg0)))) := by
  unfold val1
  simp only [opsSteps]
  after_results_simp
  all_goals (simp only [val0_main_arg0] <;> rfl)
set_option maxRecDepth 8192 in
set_option maxHeartbeats 2000000 in
theorem val1_main_v6 : val1 V (no_index (Proc.devRef .tc main_v6)) = (vNorm (vDiff (vOne (V (Proc.devRef .tc main_arg0))))) := by
  unfold val1
  simp only [opsSteps]
  after_results_simp
  all_goals (simp only [val0_main_arg0] <;> rfl)
set_option maxRecDepth 8192 in
set_option maxHeartbeats 2000000 in
theorem val1_main_v7 : val1 V (no_index (Proc.devRef .tc main_v7)) = (vNorm (vDiff (vTwo (V (Proc.devRef .tc main_arg0))))) := by
  unfold val1
  simp only [opsSteps]
  after_results_simp
  all_goals (simp only [val0_main_arg0] <;> rfl)

/-! ### Piece 2 -/

/-- The buffers the piece writes. -/
abbrev opsTurn1_W : List (Ref sig .tc) := [main_v8, main_v9, main_v10, main_cst, main_v11, main_v12, main_v13, main_v14, main_cst_0, main_v15, main_v16, main_v17, main_v18, main_cst_1, main_v19, main_v20]
theorem opsTurn1_writes : (opsTurn1 : List (HloOp τ sig (Elt F))).Forall fun op => op.writes ⊆ (opsTurn1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the piece does not write keeps its contents through it. -/
theorem val2_keep (r : Ref sig .tc) (h : r ∉ opsTurn1_W) : val2 V (Proc.devRef .tc r) = val1 V (Proc.devRef .tc r) :=
  after_of_writes_sub opsTurn1 _ opsTurn1_writes h
theorem val2_main_arg0 : val2 V (no_index (Proc.devRef .tc main_arg0)) = (V (Proc.devRef .tc main_arg0)) :=
  (val2_keep V main_arg0 (by decide)).trans (val1_main_arg0 V)
theorem val2_main_arg1 : val2 V (no_index (Proc.devRef .tc main_arg1)) = (V (Proc.devRef .tc main_arg1)) :=
  (val2_keep V main_arg1 (by decide)).trans (val1_main_arg1 V)
theorem val2_main_v0 : val2 V (no_index (Proc.devRef .tc main_v0)) = (vOne (V (Proc.devRef .tc main_arg0))) :=
  (val2_keep V main_v0 (by decide)).trans (val1_main_v0 V)
theorem val2_main_v1 : val2 V (no_index (Proc.devRef .tc main_v1)) = (vTwo (V (Proc.devRef .tc main_arg0))) :=
  (val2_keep V main_v1 (by decide)).trans (val1_main_v1 V)
theorem val2_main_v3 : val2 V (no_index (Proc.devRef .tc main_v3)) = (vDiff (vOne (V (Proc.devRef .tc main_arg0)))) :=
  (val2_keep V main_v3 (by decide)).trans (val1_main_v3 V)
theorem val2_main_v5 : val2 V (no_index (Proc.devRef .tc main_v5)) = (vDiff (vTwo (V (Proc.devRef .tc main_arg0)))) :=
  (val2_keep V main_v5 (by decide)).trans (val1_main_v5 V)
theorem val2_main_v6 : val2 V (no_index (Proc.devRef .tc main_v6)) = (vNorm (vDiff (vOne (V (Proc.devRef .tc main_arg0))))) :=
  (val2_keep V main_v6 (by decide)).trans (val1_main_v6 V)
theorem val2_main_v7 : val2 V (no_index (Proc.devRef .tc main_v7)) = (vNorm (vDiff (vTwo (V (Proc.devRef .tc main_arg0))))) :=
  (val2_keep V main_v7 (by decide)).trans (val1_main_v7 V)
set_option maxRecDepth 8192 in
set_option maxHeartbeats 1600000 in
theorem val2_main_v20 : val2 V (no_index (Proc.devRef .tc main_v20)) = (vTurn (vDiff (vOne (V (Proc.devRef .tc main_arg0)))) (vNorm (vDiff (vOne (V (Proc.devRef .tc main_arg0)))))) := by
  unfold val2
  simp only [opsTurn1]
  after_results_simp
  all_goals (simp only [val1_main_v3, val1_main_v6] <;> rfl)

/-! ### Piece 3 -/

/-- The buffers the piece writes. -/
abbrev opsTurn2_W : List (Ref sig .tc) := [main_v21, main_v22, main_v23, main_cst_2, main_v24, main_v25, main_v26, main_v27, main_cst_3, main_v28, main_v29, main_v30, main_v31, main_cst_4, main_v32, main_v33]
theorem opsTurn2_writes : (opsTurn2 : List (HloOp τ sig (Elt F))).Forall fun op => op.writes ⊆ (opsTurn2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the piece does not write keeps its contents through it. -/
theorem val3_keep (r : Ref sig .tc) (h : r ∉ opsTurn2_W) : val3 V (Proc.devRef .tc r) = val2 V (Proc.devRef .tc r) :=
  after_of_writes_sub opsTurn2 _ opsTurn2_writes h
theorem val3_main_arg0 : val3 V (no_index (Proc.devRef .tc main_arg0)) = (V (Proc.devRef .tc main_arg0)) :=
  (val3_keep V main_arg0 (by decide)).trans (val2_main_arg0 V)
theorem val3_main_arg1 : val3 V (no_index (Proc.devRef .tc main_arg1)) = (V (Proc.devRef .tc main_arg1)) :=
  (val3_keep V main_arg1 (by decide)).trans (val2_main_arg1 V)
theorem val3_main_v0 : val3 V (no_index (Proc.devRef .tc main_v0)) = (vOne (V (Proc.devRef .tc main_arg0))) :=
  (val3_keep V main_v0 (by decide)).trans (val2_main_v0 V)
theorem val3_main_v1 : val3 V (no_index (Proc.devRef .tc main_v1)) = (vTwo (V (Proc.devRef .tc main_arg0))) :=
  (val3_keep V main_v1 (by decide)).trans (val2_main_v1 V)
theorem val3_main_v3 : val3 V (no_index (Proc.devRef .tc main_v3)) = (vDiff (vOne (V (Proc.devRef .tc main_arg0)))) :=
  (val3_keep V main_v3 (by decide)).trans (val2_main_v3 V)
theorem val3_main_v5 : val3 V (no_index (Proc.devRef .tc main_v5)) = (vDiff (vTwo (V (Proc.devRef .tc main_arg0)))) :=
  (val3_keep V main_v5 (by decide)).trans (val2_main_v5 V)
theorem val3_main_v6 : val3 V (no_index (Proc.devRef .tc main_v6)) = (vNorm (vDiff (vOne (V (Proc.devRef .tc main_arg0))))) :=
  (val3_keep V main_v6 (by decide)).trans (val2_main_v6 V)
theorem val3_main_v7 : val3 V (no_index (Proc.devRef .tc main_v7)) = (vNorm (vDiff (vTwo (V (Proc.devRef .tc main_arg0))))) :=
  (val3_keep V main_v7 (by decide)).trans (val2_main_v7 V)
theorem val3_main_v20 : val3 V (no_index (Proc.devRef .tc main_v20)) = (vTurn (vDiff (vOne (V (Proc.devRef .tc main_arg0)))) (vNorm (vDiff (vOne (V (Proc.devRef .tc main_arg0)))))) :=
  (val3_keep V main_v20 (by decide)).trans (val2_main_v20 V)
set_option maxRecDepth 8192 in
set_option maxHeartbeats 1600000 in
theorem val3_main_v33 : val3 V (no_index (Proc.devRef .tc main_v33)) = (vTurn (vDiff (vTwo (V (Proc.devRef .tc main_arg0)))) (vNorm (vDiff (vTwo (V (Proc.devRef .tc main_arg0)))))) := by
  unfold val3
  simp only [opsTurn2]
  after_results_simp
  all_goals (simp only [val2_main_v5, val2_main_v7] <;> rfl)

/-! ### Piece 4 -/

/-- The buffers the piece writes. -/
abbrev opsBend1_W : List (Ref sig .tc) := [main_v34, main_call4.v0.ref, main_call4.v1.ref, main_call4.v2.ref, main_call4.v3.ref]
theorem opsBend1_writes : (opsBend1 : List (HloOp τ sig (Elt F))).Forall fun op => op.writes ⊆ (opsBend1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the piece does not write keeps its contents through it. -/
theorem val4_keep (r : Ref sig .tc) (h : r ∉ opsBend1_W) : val4 V (Proc.devRef .tc r) = val3 V (Proc.devRef .tc r) :=
  after_of_writes_sub opsBend1 _ opsBend1_writes h
theorem val4_main_arg0 : val4 V (no_index (Proc.devRef .tc main_arg0)) = (V (Proc.devRef .tc main_arg0)) :=
  (val4_keep V main_arg0 (by decide)).trans (val3_main_arg0 V)
theorem val4_main_arg1 : val4 V (no_index (Proc.devRef .tc main_arg1)) = (V (Proc.devRef .tc main_arg1)) :=
  (val4_keep V main_arg1 (by decide)).trans (val3_main_arg1 V)
theorem val4_main_v0 : val4 V (no_index (Proc.devRef .tc main_v0)) = (vOne (V (Proc.devRef .tc main_arg0))) :=
  (val4_keep V main_v0 (by decide)).trans (val3_main_v0 V)
theorem val4_main_v1 : val4 V (no_index (Proc.devRef .tc main_v1)) = (vTwo (V (Proc.devRef .tc main_arg0))) :=
  (val4_keep V main_v1 (by decide)).trans (val3_main_v1 V)
theorem val4_main_v3 : val4 V (no_index (Proc.devRef .tc main_v3)) = (vDiff (vOne (V (Proc.devRef .tc main_arg0)))) :=
  (val4_keep V main_v3 (by decide)).trans (val3_main_v3 V)
theorem val4_main_v5 : val4 V (no_index (Proc.devRef .tc main_v5)) = (vDiff (vTwo (V (Proc.devRef .tc main_arg0)))) :=
  (val4_keep V main_v5 (by decide)).trans (val3_main_v5 V)
theorem val4_main_v6 : val4 V (no_index (Proc.devRef .tc main_v6)) = (vNorm (vDiff (vOne (V (Proc.devRef .tc main_arg0))))) :=
  (val4_keep V main_v6 (by decide)).trans (val3_main_v6 V)
theorem val4_main_v7 : val4 V (no_index (Proc.devRef .tc main_v7)) = (vNorm (vDiff (vTwo (V (Proc.devRef .tc main_arg0))))) :=
  (val4_keep V main_v7 (by decide)).trans (val3_main_v7 V)
theorem val4_main_v20 : val4 V (no_index (Proc.devRef .tc main_v20)) = (vTurn (vDiff (vOne (V (Proc.devRef .tc main_arg0)))) (vNorm (vDiff (vOne (V (Proc.devRef .tc main_arg0)))))) :=
  (val4_keep V main_v20 (by decide)).trans (val3_main_v20 V)
theorem val4_main_v33 : val4 V (no_index (Proc.devRef .tc main_v33)) = (vTurn (vDiff (vTwo (V (Proc.devRef .tc main_arg0)))) (vNorm (vDiff (vTwo (V (Proc.devRef .tc main_arg0)))))) :=
  (val4_keep V main_v33 (by decide)).trans (val3_main_v33 V)
set_option maxRecDepth 8192 in
theorem val4_main_v35 : val4 V (no_index (Proc.devRef .tc main_v35)) = (vDiff (vDiff (vOne (V (Proc.devRef .tc main_arg0))))) := by
  unfold val4
  simp only [opsBend1]
  after_results_simp
  all_goals (simp only [val3_main_v3] <;> rfl)

/-! ### Piece 5 -/

/-- The buffers the piece writes. -/
abbrev opsBend2_W : List (Ref sig .tc) := [main_v36, main_call5.v0.ref, main_call5.v1.ref, main_call5.v2.ref, main_call5.v3.ref]
theorem opsBend2_writes : (opsBend2 : List (HloOp τ sig (Elt F))).Forall fun op => op.writes ⊆ (opsBend2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the piece does not write keeps its contents through it. -/
theorem val5_keep (r : Ref sig .tc) (h : r ∉ opsBend2_W) : val5 V (Proc.devRef .tc r) = val4 V (Proc.devRef .tc r) :=
  after_of_writes_sub opsBend2 _ opsBend2_writes h
theorem val5_main_arg0 : val5 V (no_index (Proc.devRef .tc main_arg0)) = (V (Proc.devRef .tc main_arg0)) :=
  (val5_keep V main_arg0 (by decide)).trans (val4_main_arg0 V)
theorem val5_main_arg1 : val5 V (no_index (Proc.devRef .tc main_arg1)) = (V (Proc.devRef .tc main_arg1)) :=
  (val5_keep V main_arg1 (by decide)).trans (val4_main_arg1 V)
theorem val5_main_v0 : val5 V (no_index (Proc.devRef .tc main_v0)) = (vOne (V (Proc.devRef .tc main_arg0))) :=
  (val5_keep V main_v0 (by decide)).trans (val4_main_v0 V)
theorem val5_main_v1 : val5 V (no_index (Proc.devRef .tc main_v1)) = (vTwo (V (Proc.devRef .tc main_arg0))) :=
  (val5_keep V main_v1 (by decide)).trans (val4_main_v1 V)
theorem val5_main_v3 : val5 V (no_index (Proc.devRef .tc main_v3)) = (vDiff (vOne (V (Proc.devRef .tc main_arg0)))) :=
  (val5_keep V main_v3 (by decide)).trans (val4_main_v3 V)
theorem val5_main_v5 : val5 V (no_index (Proc.devRef .tc main_v5)) = (vDiff (vTwo (V (Proc.devRef .tc main_arg0)))) :=
  (val5_keep V main_v5 (by decide)).trans (val4_main_v5 V)
theorem val5_main_v6 : val5 V (no_index (Proc.devRef .tc main_v6)) = (vNorm (vDiff (vOne (V (Proc.devRef .tc main_arg0))))) :=
  (val5_keep V main_v6 (by decide)).trans (val4_main_v6 V)
theorem val5_main_v7 : val5 V (no_index (Proc.devRef .tc main_v7)) = (vNorm (vDiff (vTwo (V (Proc.devRef .tc main_arg0))))) :=
  (val5_keep V main_v7 (by decide)).trans (val4_main_v7 V)
theorem val5_main_v20 : val5 V (no_index (Proc.devRef .tc main_v20)) = (vTurn (vDiff (vOne (V (Proc.devRef .tc main_arg0)))) (vNorm (vDiff (vOne (V (Proc.devRef .tc main_arg0)))))) :=
  (val5_keep V main_v20 (by decide)).trans (val4_main_v20 V)
theorem val5_main_v33 : val5 V (no_index (Proc.devRef .tc main_v33)) = (vTurn (vDiff (vTwo (V (Proc.devRef .tc main_arg0)))) (vNorm (vDiff (vTwo (V (Proc.devRef .tc main_arg0)))))) :=
  (val5_keep V main_v33 (by decide)).trans (val4_main_v33 V)
theorem val5_main_v35 : val5 V (no_index (Proc.devRef .tc main_v35)) = (vDiff (vDiff (vOne (V (Proc.devRef .tc main_arg0))))) :=
  (val5_keep V main_v35 (by decide)).trans (val4_main_v35 V)
set_option maxRecDepth 8192 in
theorem val5_main_v37 : val5 V (no_index (Proc.devRef .tc main_v37)) = (vDiff (vDiff (vTwo (V (Proc.devRef .tc main_arg0))))) := by
  unfold val5
  simp only [opsBend2]
  after_results_simp
  all_goals (simp only [val4_main_v5] <;> rfl)

/-! ### Piece 6 -/

/-- The buffers the piece writes. -/
abbrev opsCross1_W : List (Ref sig .tc) := [main_v38, main_v39, main_v40, main_v41, main_v42, main_v43, main_v44, main_v45, main_v46, main_v47, main_v48]
theorem opsCross1_writes : (opsCross1 : List (HloOp τ sig (Elt F))).Forall fun op => op.writes ⊆ (opsCross1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the piece does not write keeps its contents through it. -/
theorem val6_keep (r : Ref sig .tc) (h : r ∉ opsCross1_W) : val6 V (Proc.devRef .tc r) = val5 V (Proc.devRef .tc r) :=
  after_of_writes_sub opsCross1 _ opsCross1_writes h
theorem val6_main_arg0 : val6 V (no_index (Proc.devRef .tc main_arg0)) = (V (Proc.devRef .tc main_arg0)) :=
  (val6_keep V main_arg0 (by decide)).trans (val5_main_arg0 V)
theorem val6_main_arg1 : val6 V (no_index (Proc.devRef .tc main_arg1)) = (V (Proc.devRef .tc main_arg1)) :=
  (val6_keep V main_arg1 (by decide)).trans (val5_main_arg1 V)
theorem val6_main_v0 : val6 V (no_index (Proc.devRef .tc main_v0)) = (vOne (V (Proc.devRef .tc main_arg0))) :=
  (val6_keep V main_v0 (by decide)).trans (val5_main_v0 V)
theorem val6_main_v1 : val6 V (no_index (Proc.devRef .tc main_v1)) = (vTwo (V (Proc.devRef .tc main_arg0))) :=
  (val6_keep V main_v1 (by decide)).trans (val5_main_v1 V)
theorem val6_main_v3 : val6 V (no_index (Proc.devRef .tc main_v3)) = (vDiff (vOne (V (Proc.devRef .tc main_arg0)))) :=
  (val6_keep V main_v3 (by decide)).trans (val5_main_v3 V)
theorem val6_main_v5 : val6 V (no_index (Proc.devRef .tc main_v5)) = (vDiff (vTwo (V (Proc.devRef .tc main_arg0)))) :=
  (val6_keep V main_v5 (by decide)).trans (val5_main_v5 V)
theorem val6_main_v6 : val6 V (no_index (Proc.devRef .tc main_v6)) = (vNorm (vDiff (vOne (V (Proc.devRef .tc main_arg0))))) :=
  (val6_keep V main_v6 (by decide)).trans (val5_main_v6 V)
theorem val6_main_v7 : val6 V (no_index (Proc.devRef .tc main_v7)) = (vNorm (vDiff (vTwo (V (Proc.devRef .tc main_arg0))))) :=
  (val6_keep V main_v7 (by decide)).trans (val5_main_v7 V)
theorem val6_main_v20 : val6 V (no_index (Proc.devRef .tc main_v20)) = (vTurn (vDiff (vOne (V (Proc.devRef .tc main_arg0)))) (vNorm (vDiff (vOne (V (Proc.devRef .tc main_arg0)))))) :=
  (val6_keep V main_v20 (by decide)).trans (val5_main_v20 V)
theorem val6_main_v33 : val6 V (no_index (Proc.devRef .tc main_v33)) = (vTurn (vDiff (vTwo (V (Proc.devRef .tc main_arg0)))) (vNorm (vDiff (vTwo (V (Proc.devRef .tc main_arg0)))))) :=
  (val6_keep V main_v33 (by decide)).trans (val5_main_v33 V)
theorem val6_main_v37 : val6 V (no_index (Proc.devRef .tc main_v37)) = (vDiff (vDiff (vTwo (V (Proc.devRef .tc main_arg0))))) :=
  (val6_keep V main_v37 (by decide)).trans (val5_main_v37 V)
set_option maxRecDepth 8192 in
set_option maxHeartbeats 1100000 in
theorem val6_main_v48 : val6 V (no_index (Proc.devRef .tc main_v48)) = (vCross (vDiff (vOne (V (Proc.devRef .tc main_arg0)))) (vDiff (vDiff (vOne (V (Proc.devRef .tc main_arg0)))))) := by
  unfold val6
  simp only [opsCross1]
  after_results_simp
  all_goals (simp only [val5_main_v3, val5_main_v35] <;> rfl)

/-! ### Piece 7 -/

/-- The buffers the piece writes. -/
abbrev opsCross2a_W : List (Ref sig .tc) := [main_v49, main_v50, main_v51, main_v52, main_v53]
theorem opsCross2a_writes : (opsCross2a : List (HloOp τ sig (Elt F))).Forall fun op => op.writes ⊆ (opsCross2a_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the piece does not write keeps its contents through it. -/
theorem val7_keep (r : Ref sig .tc) (h : r ∉ opsCross2a_W) : val7 V (Proc.devRef .tc r) = val6 V (Proc.devRef .tc r) :=
  after_of_writes_sub opsCross2a _ opsCross2a_writes h
theorem val7_main_arg0 : val7 V (no_index (Proc.devRef .tc main_arg0)) = (V (Proc.devRef .tc main_arg0)) :=
  (val7_keep V main_arg0 (by decide)).trans (val6_main_arg0 V)
theorem val7_main_arg1 : val7 V (no_index (Proc.devRef .tc main_arg1)) = (V (Proc.devRef .tc main_arg1)) :=
  (val7_keep V main_arg1 (by decide)).trans (val6_main_arg1 V)
theorem val7_main_v0 : val7 V (no_index (Proc.devRef .tc main_v0)) = (vOne (V (Proc.devRef .tc main_arg0))) :=
  (val7_keep V main_v0 (by decide)).trans (val6_main_v0 V)
theorem val7_main_v1 : val7 V (no_index (Proc.devRef .tc main_v1)) = (vTwo (V (Proc.devRef .tc main_arg0))) :=
  (val7_keep V main_v1 (by decide)).trans (val6_main_v1 V)
theorem val7_main_v3 : val7 V (no_index (Proc.devRef .tc main_v3)) = (vDiff (vOne (V (Proc.devRef .tc main_arg0)))) :=
  (val7_keep V main_v3 (by decide)).trans (val6_main_v3 V)
theorem val7_main_v5 : val7 V (no_index (Proc.devRef .tc main_v5)) = (vDiff (vTwo (V (Proc.devRef .tc main_arg0)))) :=
  (val7_keep V main_v5 (by decide)).trans (val6_main_v5 V)
theorem val7_main_v6 : val7 V (no_index (Proc.devRef .tc main_v6)) = (vNorm (vDiff (vOne (V (Proc.devRef .tc main_arg0))))) :=
  (val7_keep V main_v6 (by decide)).trans (val6_main_v6 V)
theorem val7_main_v7 : val7 V (no_index (Proc.devRef .tc main_v7)) = (vNorm (vDiff (vTwo (V (Proc.devRef .tc main_arg0))))) :=
  (val7_keep V main_v7 (by decide)).trans (val6_main_v7 V)
theorem val7_main_v20 : val7 V (no_index (Proc.devRef .tc main_v20)) = (vTurn (vDiff (vOne (V (Proc.devRef .tc main_arg0)))) (vNorm (vDiff (vOne (V (Proc.devRef .tc main_arg0)))))) :=
  (val7_keep V main_v20 (by decide)).trans (val6_main_v20 V)
theorem val7_main_v33 : val7 V (no_index (Proc.devRef .tc main_v33)) = (vTurn (vDiff (vTwo (V (Proc.devRef .tc main_arg0)))) (vNorm (vDiff (vTwo (V (Proc.devRef .tc main_arg0)))))) :=
  (val7_keep V main_v33 (by decide)).trans (val6_main_v33 V)
theorem val7_main_v37 : val7 V (no_index (Proc.devRef .tc main_v37)) = (vDiff (vDiff (vTwo (V (Proc.devRef .tc main_arg0))))) :=
  (val7_keep V main_v37 (by decide)).trans (val6_main_v37 V)
theorem val7_main_v48 : val7 V (no_index (Proc.devRef .tc main_v48)) = (vCross (vDiff (vOne (V (Proc.devRef .tc main_arg0)))) (vDiff (vDiff (vOne (V (Proc.devRef .tc main_arg0)))))) :=
  (val7_keep V main_v48 (by decide)).trans (val6_main_v48 V)
set_option maxRecDepth 8192 in
theorem val7_main_v53 : val7 V (no_index (Proc.devRef .tc main_v53)) = (mulf (vCol0 (vDiff (vTwo (V (Proc.devRef .tc main_arg0))))) (vCol1 (vDiff (vDiff (vTwo (V (Proc.devRef .tc main_arg0))))))) := by
  unfold val7
  simp only [opsCross2a]
  after_results_simp
  all_goals (simp only [val6_main_v5, val6_main_v37] <;> rfl)

/-! ### Piece 8 -/

/-- The buffers the piece writes. -/
abbrev opsCross2b_W : List (Ref sig .tc) := [main_v54, main_v55, main_v56, main_v57, main_v58, main_v59]
theorem opsCross2b_writes : (opsCross2b : List (HloOp τ sig (Elt F))).Forall fun op => op.writes ⊆ (opsCross2b_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the piece does not write keeps its contents through it. -/
theorem val8_keep (r : Ref sig .tc) (h : r ∉ opsCross2b_W) : val8 V (Proc.devRef .tc r) = val7 V (Proc.devRef .tc r) :=
  after_of_writes_sub opsCross2b _ opsCross2b_writes h
theorem val8_main_arg0 : val8 V (no_index (Proc.devRef .tc main_arg0)) = (V (Proc.devRef .tc main_arg0)) :=
  (val8_keep V main_arg0 (by decide)).trans (val7_main_arg0 V)
theorem val8_main_arg1 : val8 V (no_index (Proc.devRef .tc main_arg1)) = (V (Proc.devRef .tc main_arg1)) :=
  (val8_keep V main_arg1 (by decide)).trans (val7_main_arg1 V)
theorem val8_main_v0 : val8 V (no_index (Proc.devRef .tc main_v0)) = (vOne (V (Proc.devRef .tc main_arg0))) :=
  (val8_keep V main_v0 (by decide)).trans (val7_main_v0 V)
theorem val8_main_v1 : val8 V (no_index (Proc.devRef .tc main_v1)) = (vTwo (V (Proc.devRef .tc main_arg0))) :=
  (val8_keep V main_v1 (by decide)).trans (val7_main_v1 V)
theorem val8_main_v3 : val8 V (no_index (Proc.devRef .tc main_v3)) = (vDiff (vOne (V (Proc.devRef .tc main_arg0)))) :=
  (val8_keep V main_v3 (by decide)).trans (val7_main_v3 V)
theorem val8_main_v5 : val8 V (no_index (Proc.devRef .tc main_v5)) = (vDiff (vTwo (V (Proc.devRef .tc main_arg0)))) :=
  (val8_keep V main_v5 (by decide)).trans (val7_main_v5 V)
theorem val8_main_v6 : val8 V (no_index (Proc.devRef .tc main_v6)) = (vNorm (vDiff (vOne (V (Proc.devRef .tc main_arg0))))) :=
  (val8_keep V main_v6 (by decide)).trans (val7_main_v6 V)
theorem val8_main_v7 : val8 V (no_index (Proc.devRef .tc main_v7)) = (vNorm (vDiff (vTwo (V (Proc.devRef .tc main_arg0))))) :=
  (val8_keep V main_v7 (by decide)).trans (val7_main_v7 V)
theorem val8_main_v20 : val8 V (no_index (Proc.devRef .tc main_v20)) = (vTurn (vDiff (vOne (V (Proc.devRef .tc main_arg0)))) (vNorm (vDiff (vOne (V (Proc.devRef .tc main_arg0)))))) :=
  (val8_keep V main_v20 (by decide)).trans (val7_main_v20 V)
theorem val8_main_v33 : val8 V (no_index (Proc.devRef .tc main_v33)) = (vTurn (vDiff (vTwo (V (Proc.devRef .tc main_arg0)))) (vNorm (vDiff (vTwo (V (Proc.devRef .tc main_arg0)))))) :=
  (val8_keep V main_v33 (by decide)).trans (val7_main_v33 V)
theorem val8_main_v48 : val8 V (no_index (Proc.devRef .tc main_v48)) = (vCross (vDiff (vOne (V (Proc.devRef .tc main_arg0)))) (vDiff (vDiff (vOne (V (Proc.devRef .tc main_arg0)))))) :=
  (val8_keep V main_v48 (by decide)).trans (val7_main_v48 V)
set_option maxRecDepth 8192 in
theorem val8_main_v59 : val8 V (no_index (Proc.devRef .tc main_v59)) = (vCross (vDiff (vTwo (V (Proc.devRef .tc main_arg0)))) (vDiff (vDiff (vTwo (V (Proc.devRef .tc main_arg0)))))) := by
  unfold val8
  simp only [opsCross2b]
  after_results_simp
  all_goals (simp only [val7_main_v5, val7_main_v37, val7_main_v53] <;> rfl)

/-! ### Piece 9 -/

/-- The buffers the piece writes. -/
abbrev opsAlign_W : List (Ref sig .tc) := [main_v60, main_cst_5, main_v61, main_v62, main_cst_6, main_v63, main_v64, main_v65]
theorem opsAlign_writes : (opsAlign : List (HloOp τ sig (Elt F))).Forall fun op => op.writes ⊆ (opsAlign_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the piece does not write keeps its contents through it. -/
theorem val9_keep (r : Ref sig .tc) (h : r ∉ opsAlign_W) : val9 V (Proc.devRef .tc r) = val8 V (Proc.devRef .tc r) :=
  after_of_writes_sub opsAlign _ opsAlign_writes h
theorem val9_main_arg0 : val9 V (no_index (Proc.devRef .tc main_arg0)) = (V (Proc.devRef .tc main_arg0)) :=
  (val9_keep V main_arg0 (by decide)).trans (val8_main_arg0 V)
theorem val9_main_arg1 : val9 V (no_index (Proc.devRef .tc main_arg1)) = (V (Proc.devRef .tc main_arg1)) :=
  (val9_keep V main_arg1 (by decide)).trans (val8_main_arg1 V)
theorem val9_main_v0 : val9 V (no_index (Proc.devRef .tc main_v0)) = (vOne (V (Proc.devRef .tc main_arg0))) :=
  (val9_keep V main_v0 (by decide)).trans (val8_main_v0 V)
theorem val9_main_v1 : val9 V (no_index (Proc.devRef .tc main_v1)) = (vTwo (V (Proc.devRef .tc main_arg0))) :=
  (val9_keep V main_v1 (by decide)).trans (val8_main_v1 V)
theorem val9_main_v3 : val9 V (no_index (Proc.devRef .tc main_v3)) = (vDiff (vOne (V (Proc.devRef .tc main_arg0)))) :=
  (val9_keep V main_v3 (by decide)).trans (val8_main_v3 V)
theorem val9_main_v5 : val9 V (no_index (Proc.devRef .tc main_v5)) = (vDiff (vTwo (V (Proc.devRef .tc main_arg0)))) :=
  (val9_keep V main_v5 (by decide)).trans (val8_main_v5 V)
theorem val9_main_v6 : val9 V (no_index (Proc.devRef .tc main_v6)) = (vNorm (vDiff (vOne (V (Proc.devRef .tc main_arg0))))) :=
  (val9_keep V main_v6 (by decide)).trans (val8_main_v6 V)
theorem val9_main_v7 : val9 V (no_index (Proc.devRef .tc main_v7)) = (vNorm (vDiff (vTwo (V (Proc.devRef .tc main_arg0))))) :=
  (val9_keep V main_v7 (by decide)).trans (val8_main_v7 V)
theorem val9_main_v20 : val9 V (no_index (Proc.devRef .tc main_v20)) = (vTurn (vDiff (vOne (V (Proc.devRef .tc main_arg0)))) (vNorm (vDiff (vOne (V (Proc.devRef .tc main_arg0)))))) :=
  (val9_keep V main_v20 (by decide)).trans (val8_main_v20 V)
theorem val9_main_v33 : val9 V (no_index (Proc.devRef .tc main_v33)) = (vTurn (vDiff (vTwo (V (Proc.devRef .tc main_arg0)))) (vNorm (vDiff (vTwo (V (Proc.devRef .tc main_arg0)))))) :=
  (val9_keep V main_v33 (by decide)).trans (val8_main_v33 V)
theorem val9_main_v48 : val9 V (no_index (Proc.devRef .tc main_v48)) = (vCross (vDiff (vOne (V (Proc.devRef .tc main_arg0)))) (vDiff (vDiff (vOne (V (Proc.devRef .tc main_arg0)))))) :=
  (val9_keep V main_v48 (by decide)).trans (val8_main_v48 V)
theorem val9_main_v59 : val9 V (no_index (Proc.devRef .tc main_v59)) = (vCross (vDiff (vTwo (V (Proc.devRef .tc main_arg0)))) (vDiff (vDiff (vTwo (V (Proc.devRef .tc main_arg0)))))) :=
  (val9_keep V main_v59 (by decide)).trans (val8_main_v59 V)
set_option maxRecDepth 8192 in
theorem val9_main_v65 : val9 V (no_index (Proc.devRef .tc main_v65)) = (vCos (vDot (vDiff (vOne (V (Proc.devRef .tc main_arg0)))) (vDiff (vTwo (V (Proc.devRef .tc main_arg0))))) (vNorm (vDiff (vOne (V (Proc.devRef .tc main_arg0))))) (vNorm (vDiff (vTwo (V (Proc.devRef .tc main_arg0)))))) := by
  unfold val9
  simp only [opsAlign]
  after_results_simp
  all_goals (simp only [val8_main_v3, val8_main_v5, val8_main_v6, val8_main_v7] <;> rfl)

/-! ### Piece 10 -/

/-- The buffers the piece writes. -/
abbrev opsLead_W : List (Ref sig .tc) := [main_v66, main_call6.v0.ref, main_call6.cst.ref, main_call6.v1.ref, main_call6.v2.ref, main_v68, main_cst_7, main_v69, main_v70, main_cst_8, main_v71, main_v72, main_v73, main_v74, main_v75, main_cst_9, main_v76, main_v77, main_cst_10, main_v78, main_v79, main_v80]
theorem opsLead_writes : (opsLead : List (HloOp τ sig (Elt F))).Forall fun op => op.writes ⊆ (opsLead_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the piece does not write keeps its contents through it. -/
theorem val10_keep (r : Ref sig .tc) (h : r ∉ opsLead_W) : val10 V (Proc.devRef .tc r) = val9 V (Proc.devRef .tc r) :=
  after_of_writes_sub opsLead _ opsLead_writes h
theorem val10_main_arg0 : val10 V (no_index (Proc.devRef .tc main_arg0)) = (V (Proc.devRef .tc main_arg0)) :=
  (val10_keep V main_arg0 (by decide)).trans (val9_main_arg0 V)
theorem val10_main_arg1 : val10 V (no_index (Proc.devRef .tc main_arg1)) = (V (Proc.devRef .tc main_arg1)) :=
  (val10_keep V main_arg1 (by decide)).trans (val9_main_arg1 V)
theorem val10_main_v0 : val10 V (no_index (Proc.devRef .tc main_v0)) = (vOne (V (Proc.devRef .tc main_arg0))) :=
  (val10_keep V main_v0 (by decide)).trans (val9_main_v0 V)
theorem val10_main_v1 : val10 V (no_index (Proc.devRef .tc main_v1)) = (vTwo (V (Proc.devRef .tc main_arg0))) :=
  (val10_keep V main_v1 (by decide)).trans (val9_main_v1 V)
theorem val10_main_v6 : val10 V (no_index (Proc.devRef .tc main_v6)) = (vNorm (vDiff (vOne (V (Proc.devRef .tc main_arg0))))) :=
  (val10_keep V main_v6 (by decide)).trans (val9_main_v6 V)
theorem val10_main_v7 : val10 V (no_index (Proc.devRef .tc main_v7)) = (vNorm (vDiff (vTwo (V (Proc.devRef .tc main_arg0))))) :=
  (val10_keep V main_v7 (by decide)).trans (val9_main_v7 V)
theorem val10_main_v20 : val10 V (no_index (Proc.devRef .tc main_v20)) = (vTurn (vDiff (vOne (V (Proc.devRef .tc main_arg0)))) (vNorm (vDiff (vOne (V (Proc.devRef .tc main_arg0)))))) :=
  (val10_keep V main_v20 (by decide)).trans (val9_main_v20 V)
theorem val10_main_v33 : val10 V (no_index (Proc.devRef .tc main_v33)) = (vTurn (vDiff (vTwo (V (Proc.devRef .tc main_arg0)))) (vNorm (vDiff (vTwo (V (Proc.devRef .tc main_arg0)))))) :=
  (val10_keep V main_v33 (by decide)).trans (val9_main_v33 V)
theorem val10_main_v48 : val10 V (no_index (Proc.devRef .tc main_v48)) = (vCross (vDiff (vOne (V (Proc.devRef .tc main_arg0)))) (vDiff (vDiff (vOne (V (Proc.devRef .tc main_arg0)))))) :=
  (val10_keep V main_v48 (by decide)).trans (val9_main_v48 V)
theorem val10_main_v59 : val10 V (no_index (Proc.devRef .tc main_v59)) = (vCross (vDiff (vTwo (V (Proc.devRef .tc main_arg0)))) (vDiff (vDiff (vTwo (V (Proc.devRef .tc main_arg0)))))) :=
  (val10_keep V main_v59 (by decide)).trans (val9_main_v59 V)
theorem val10_main_v65 : val10 V (no_index (Proc.devRef .tc main_v65)) = (vCos (vDot (vDiff (vOne (V (Proc.devRef .tc main_arg0)))) (vDiff (vTwo (V (Proc.devRef .tc main_arg0))))) (vNorm (vDiff (vOne (V (Proc.devRef .tc main_arg0))))) (vNorm (vDiff (vTwo (V (Proc.devRef .tc main_arg0)))))) :=
  (val10_keep V main_v65 (by decide)).trans (val9_main_v65 V)
set_option maxRecDepth 8192 in
set_option maxHeartbeats 2000000 in
theorem val10_main_v73 : val10 V (no_index (Proc.devRef .tc main_v73)) = (vCos (vDot (vDiff (vOne (V (Proc.devRef .tc main_arg0)))) (subf (vOne (V (Proc.devRef .tc main_arg0))) (vTwo (V (Proc.devRef .tc main_arg0))))) (vNorm (vDiff (vOne (V (Proc.devRef .tc main_arg0))))) (vNorm (subf (vOne (V (Proc.devRef .tc main_arg0))) (vTwo (V (Proc.devRef .tc main_arg0)))))) := by
  unfold val10
  simp only [opsLead]
  after_results_simp
  all_goals (simp only [val9_main_v0, val9_main_v1, val9_main_v3, val9_main_v5, val9_main_v6, val9_main_v7] <;> rfl)
set_option maxRecDepth 8192 in
set_option maxHeartbeats 2000000 in
theorem val10_main_v80 : val10 V (no_index (Proc.devRef .tc main_v80)) = (vCos (vDot (vDiff (vTwo (V (Proc.devRef .tc main_arg0)))) (Host.negf (subf (vOne (V (Proc.devRef .tc main_arg0))) (vTwo (V (Proc.devRef .tc main_arg0)))))) (vNorm (vDiff (vTwo (V (Proc.devRef .tc main_arg0))))) (vNorm (subf (vOne (V (Proc.devRef .tc main_arg0))) (vTwo (V (Proc.devRef .tc main_arg0)))))) := by
  unfold val10
  simp only [opsLead]
  after_results_simp
  all_goals (simp only [val9_main_v0, val9_main_v1, val9_main_v3, val9_main_v5, val9_main_v6, val9_main_v7] <;> rfl)

/-! ### Piece 11 -/

/-- The buffers the piece writes. -/
abbrev opsTable_W : List (Ref sig .tc) := [main_v81, main_v82, main_v83, main_c, main_v84, main_v85, main_v86, main_v87, main_v88, main_v89, main_c_11, main_call7.v0.ref, main_call7.c.ref, main_call7.v1.ref, main_call7.c_0.ref, main_call7.call0.v0.ref, main_call7.v3.ref, main_call7.v4.ref, main_call7.c_1.ref, main_call7.v5.ref, main_call7.v6.ref, main_call7.c_2.ref, main_call7.v7.ref, main_call7.v8.ref, main_call7.c_3.ref, main_call7.v9.ref, main_call7.v10.ref, main_call7.v11.ref, main_call7.v12.ref, main_call7.v13.ref, main_call7.v14.ref, main_call7.v15.ref, main_v91, main_c_12, main_v92, main_v93, main_c_13, main_v94, main_v95, main_v96, main_v97]
theorem opsTable_writes : (opsTable : List (HloOp τ sig (Elt F))).Forall fun op => op.writes ⊆ (opsTable_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the piece does not write keeps its contents through it. -/
theorem val11_keep (r : Ref sig .tc) (h : r ∉ opsTable_W) : val11 V (Proc.devRef .tc r) = val10 V (Proc.devRef .tc r) :=
  after_of_writes_sub opsTable _ opsTable_writes h
theorem val11_main_arg0 : val11 V (no_index (Proc.devRef .tc main_arg0)) = (V (Proc.devRef .tc main_arg0)) :=
  (val11_keep V main_arg0 (by decide)).trans (val10_main_arg0 V)
theorem val11_main_arg1 : val11 V (no_index (Proc.devRef .tc main_arg1)) = (V (Proc.devRef .tc main_arg1)) :=
  (val11_keep V main_arg1 (by decide)).trans (val10_main_arg1 V)
theorem val11_main_v0 : val11 V (no_index (Proc.devRef .tc main_v0)) = (vOne (V (Proc.devRef .tc main_arg0))) :=
  (val11_keep V main_v0 (by decide)).trans (val10_main_v0 V)
theorem val11_main_v1 : val11 V (no_index (Proc.devRef .tc main_v1)) = (vTwo (V (Proc.devRef .tc main_arg0))) :=
  (val11_keep V main_v1 (by decide)).trans (val10_main_v1 V)
theorem val11_main_v6 : val11 V (no_index (Proc.devRef .tc main_v6)) = (vNorm (vDiff (vOne (V (Proc.devRef .tc main_arg0))))) :=
  (val11_keep V main_v6 (by decide)).trans (val10_main_v6 V)
theorem val11_main_v7 : val11 V (no_index (Proc.devRef .tc main_v7)) = (vNorm (vDiff (vTwo (V (Proc.devRef .tc main_arg0))))) :=
  (val11_keep V main_v7 (by decide)).trans (val10_main_v7 V)
theorem val11_main_v20 : val11 V (no_index (Proc.devRef .tc main_v20)) = (vTurn (vDiff (vOne (V (Proc.devRef .tc main_arg0)))) (vNorm (vDiff (vOne (V (Proc.devRef .tc main_arg0)))))) :=
  (val11_keep V main_v20 (by decide)).trans (val10_main_v20 V)
theorem val11_main_v33 : val11 V (no_index (Proc.devRef .tc main_v33)) = (vTurn (vDiff (vTwo (V (Proc.devRef .tc main_arg0)))) (vNorm (vDiff (vTwo (V (Proc.devRef .tc main_arg0)))))) :=
  (val11_keep V main_v33 (by decide)).trans (val10_main_v33 V)
theorem val11_main_v48 : val11 V (no_index (Proc.devRef .tc main_v48)) = (vCross (vDiff (vOne (V (Proc.devRef .tc main_arg0)))) (vDiff (vDiff (vOne (V (Proc.devRef .tc main_arg0)))))) :=
  (val11_keep V main_v48 (by decide)).trans (val10_main_v48 V)
theorem val11_main_v59 : val11 V (no_index (Proc.devRef .tc main_v59)) = (vCross (vDiff (vTwo (V (Proc.devRef .tc main_arg0)))) (vDiff (vDiff (vTwo (V (Proc.devRef .tc main_arg0)))))) :=
  (val11_keep V main_v59 (by decide)).trans (val10_main_v59 V)
theorem val11_main_v65 : val11 V (no_index (Proc.devRef .tc main_v65)) = (vCos (vDot (vDiff (vOne (V (Proc.devRef .tc main_arg0)))) (vDiff (vTwo (V (Proc.devRef .tc main_arg0))))) (vNorm (vDiff (vOne (V (Proc.devRef .tc main_arg0))))) (vNorm (vDiff (vTwo (V (Proc.devRef .tc main_arg0)))))) :=
  (val11_keep V main_v65 (by decide)).trans (val10_main_v65 V)
theorem val11_main_v73 : val11 V (no_index (Proc.devRef .tc main_v73)) = (vCos (vDot (vDiff (vOne (V (Proc.devRef .tc main_arg0)))) (subf (vOne (V (Proc.devRef .tc main_arg0))) (vTwo (V (Proc.devRef .tc main_arg0))))) (vNorm (vDiff (vOne (V (Proc.devRef .tc main_arg0))))) (vNorm (subf (vOne (V (Proc.devRef .tc main_arg0))) (vTwo (V (Proc.devRef .tc main_arg0)))))) :=
  (val11_keep V main_v73 (by decide)).trans (val10_main_v73 V)
theorem val11_main_v80 : val11 V (no_index (Proc.devRef .tc main_v80)) = (vCos (vDot (vDiff (vTwo (V (Proc.devRef .tc main_arg0)))) (Host.negf (subf (vOne (V (Proc.devRef .tc main_arg0))) (vTwo (V (Proc.devRef .tc main_arg0)))))) (vNorm (vDiff (vTwo (V (Proc.devRef .tc main_arg0))))) (vNorm (subf (vOne (V (Proc.devRef .tc main_arg0))) (vTwo (V (Proc.devRef .tc main_arg0)))))) :=
  (val11_keep V main_v80 (by decide)).trans (val10_main_v80 V)
set_option maxRecDepth 8192 in
set_option maxHeartbeats 2000000 in
theorem val11_main_v97 : val11 V (no_index (Proc.devRef .tc main_v97)) = vTable := by
  unfold val11
  simp only [opsTable]
  after_results_simp
  all_goals rfl

/-! ### Piece 12 -/

/-- The buffers the piece writes. -/
abbrev opsPair_W : List (Ref sig .tc) := [main_v98, main_v99, main_v100, main_v101, main_v102, main_cst_14]
theorem opsPair_writes : (opsPair : List (HloOp τ sig (Elt F))).Forall fun op => op.writes ⊆ (opsPair_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the piece does not write keeps its contents through it. -/
theorem val12_keep (r : Ref sig .tc) (h : r ∉ opsPair_W) : val12 V (Proc.devRef .tc r) = val11 V (Proc.devRef .tc r) :=
  after_of_writes_sub opsPair _ opsPair_writes h
theorem val12_main_arg0 : val12 V (no_index (Proc.devRef .tc main_arg0)) = (V (Proc.devRef .tc main_arg0)) :=
  (val12_keep V main_arg0 (by decide)).trans (val11_main_arg0 V)
theorem val12_main_arg1 : val12 V (no_index (Proc.devRef .tc main_arg1)) = (V (Proc.devRef .tc main_arg1)) :=
  (val12_keep V main_arg1 (by decide)).trans (val11_main_arg1 V)
theorem val12_main_v6 : val12 V (no_index (Proc.devRef .tc main_v6)) = (vNorm (vDiff (vOne (V (Proc.devRef .tc main_arg0))))) :=
  (val12_keep V main_v6 (by decide)).trans (val11_main_v6 V)
theorem val12_main_v7 : val12 V (no_index (Proc.devRef .tc main_v7)) = (vNorm (vDiff (vTwo (V (Proc.devRef .tc main_arg0))))) :=
  (val12_keep V main_v7 (by decide)).trans (val11_main_v7 V)
theorem val12_main_v20 : val12 V (no_index (Proc.devRef .tc main_v20)) = (vTurn (vDiff (vOne (V (Proc.devRef .tc main_arg0)))) (vNorm (vDiff (vOne (V (Proc.devRef .tc main_arg0)))))) :=
  (val12_keep V main_v20 (by decide)).trans (val11_main_v20 V)
theorem val12_main_v33 : val12 V (no_index (Proc.devRef .tc main_v33)) = (vTurn (vDiff (vTwo (V (Proc.devRef .tc main_arg0)))) (vNorm (vDiff (vTwo (V (Proc.devRef .tc main_arg0)))))) :=
  (val12_keep V main_v33 (by decide)).trans (val11_main_v33 V)
theorem val12_main_v48 : val12 V (no_index (Proc.devRef .tc main_v48)) = (vCross (vDiff (vOne (V (Proc.devRef .tc main_arg0)))) (vDiff (vDiff (vOne (V (Proc.devRef .tc main_arg0)))))) :=
  (val12_keep V main_v48 (by decide)).trans (val11_main_v48 V)
theorem val12_main_v59 : val12 V (no_index (Proc.devRef .tc main_v59)) = (vCross (vDiff (vTwo (V (Proc.devRef .tc main_arg0)))) (vDiff (vDiff (vTwo (V (Proc.devRef .tc main_arg0)))))) :=
  (val12_keep V main_v59 (by decide)).trans (val11_main_v59 V)
theorem val12_main_v65 : val12 V (no_index (Proc.devRef .tc main_v65)) = (vCos (vDot (vDiff (vOne (V (Proc.devRef .tc main_arg0)))) (vDiff (vTwo (V (Proc.devRef .tc main_arg0))))) (vNorm (vDiff (vOne (V (Proc.devRef .tc main_arg0))))) (vNorm (vDiff (vTwo (V (Proc.devRef .tc main_arg0)))))) :=
  (val12_keep V main_v65 (by decide)).trans (val11_main_v65 V)
theorem val12_main_v73 : val12 V (no_index (Proc.devRef .tc main_v73)) = (vCos (vDot (vDiff (vOne (V (Proc.devRef .tc main_arg0)))) (subf (vOne (V (Proc.devRef .tc main_arg0))) (vTwo (V (Proc.devRef .tc main_arg0))))) (vNorm (vDiff (vOne (V (Proc.devRef .tc main_arg0))))) (vNorm (subf (vOne (V (Proc.devRef .tc main_arg0))) (vTwo (V (Proc.devRef .tc main_arg0)))))) :=
  (val12_keep V main_v73 (by decide)).trans (val11_main_v73 V)
theorem val12_main_v80 : val12 V (no_index (Proc.devRef .tc main_v80)) = (vCos (vDot (vDiff (vTwo (V (Proc.devRef .tc main_arg0)))) (Host.negf (subf (vOne (V (Proc.devRef .tc main_arg0))) (vTwo (V (Proc.devRef .tc main_arg0)))))) (vNorm (vDiff (vTwo (V (Proc.devRef .tc main_arg0))))) (vNorm (subf (vOne (V (Proc.devRef .tc main_arg0))) (vTwo (V (Proc.devRef .tc main_arg0)))))) :=
  (val12_keep V main_v80 (by decide)).trans (val11_main_v80 V)
set_option maxRecDepth 8192 in
theorem val12_main_v102 : val12 V (no_index (Proc.devRef .tc main_v102)) = (subf (vPick (vOne (V (Proc.devRef .tc main_arg0))) vTable) (vTile (vTwo (V (Proc.devRef .tc main_arg0))))) := by
  unfold val12
  simp only [opsPair]
  after_results_simp
  all_goals (simp only [val11_main_v0, val11_main_v1, val11_main_v97] <;> rfl)
set_option maxRecDepth 8192 in
theorem val12_main_cst_14 : val12 V (no_index (Proc.devRef .tc main_cst_14)) = (constant S_ .f32 0x358637BD#32) := by
  unfold val12
  simp only [opsPair]
  after_results_simp
  all_goals (simp only [val11_main_v0, val11_main_v1, val11_main_v97] <;> rfl)

/-! ### Piece 13 -/

/-- The buffers the piece writes. -/
abbrev opsDist_W : List (Ref sig .tc) := [main_v103, main_v104, main_call8.v0.ref, main_call8.cst.ref, main_call8.v1.ref, main_call8.v2.ref]
theorem opsDist_writes : (opsDist : List (HloOp τ sig (Elt F))).Forall fun op => op.writes ⊆ (opsDist_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the piece does not write keeps its contents through it. -/
theorem val13_keep (r : Ref sig .tc) (h : r ∉ opsDist_W) : val13 V (Proc.devRef .tc r) = val12 V (Proc.devRef .tc r) :=
  after_of_writes_sub opsDist _ opsDist_writes h
theorem val13_main_arg0 : val13 V (no_index (Proc.devRef .tc main_arg0)) = (V (Proc.devRef .tc main_arg0)) :=
  (val13_keep V main_arg0 (by decide)).trans (val12_main_arg0 V)
theorem val13_main_arg1 : val13 V (no_index (Proc.devRef .tc main_arg1)) = (V (Proc.devRef .tc main_arg1)) :=
  (val13_keep V main_arg1 (by decide)).trans (val12_main_arg1 V)
theorem val13_main_v6 : val13 V (no_index (Proc.devRef .tc main_v6)) = (vNorm (vDiff (vOne (V (Proc.devRef .tc main_arg0))))) :=
  (val13_keep V main_v6 (by decide)).trans (val12_main_v6 V)
theorem val13_main_v7 : val13 V (no_index (Proc.devRef .tc main_v7)) = (vNorm (vDiff (vTwo (V (Proc.devRef .tc main_arg0))))) :=
  (val13_keep V main_v7 (by decide)).trans (val12_main_v7 V)
theorem val13_main_v20 : val13 V (no_index (Proc.devRef .tc main_v20)) = (vTurn (vDiff (vOne (V (Proc.devRef .tc main_arg0)))) (vNorm (vDiff (vOne (V (Proc.devRef .tc main_arg0)))))) :=
  (val13_keep V main_v20 (by decide)).trans (val12_main_v20 V)
theorem val13_main_v33 : val13 V (no_index (Proc.devRef .tc main_v33)) = (vTurn (vDiff (vTwo (V (Proc.devRef .tc main_arg0)))) (vNorm (vDiff (vTwo (V (Proc.devRef .tc main_arg0)))))) :=
  (val13_keep V main_v33 (by decide)).trans (val12_main_v33 V)
theorem val13_main_v48 : val13 V (no_index (Proc.devRef .tc main_v48)) = (vCross (vDiff (vOne (V (Proc.devRef .tc main_arg0)))) (vDiff (vDiff (vOne (V (Proc.devRef .tc main_arg0)))))) :=
  (val13_keep V main_v48 (by decide)).trans (val12_main_v48 V)
theorem val13_main_v59 : val13 V (no_index (Proc.devRef .tc main_v59)) = (vCross (vDiff (vTwo (V (Proc.devRef .tc main_arg0)))) (vDiff (vDiff (vTwo (V (Proc.devRef .tc main_arg0)))))) :=
  (val13_keep V main_v59 (by decide)).trans (val12_main_v59 V)
theorem val13_main_v65 : val13 V (no_index (Proc.devRef .tc main_v65)) = (vCos (vDot (vDiff (vOne (V (Proc.devRef .tc main_arg0)))) (vDiff (vTwo (V (Proc.devRef .tc main_arg0))))) (vNorm (vDiff (vOne (V (Proc.devRef .tc main_arg0))))) (vNorm (vDiff (vTwo (V (Proc.devRef .tc main_arg0)))))) :=
  (val13_keep V main_v65 (by decide)).trans (val12_main_v65 V)
theorem val13_main_v73 : val13 V (no_index (Proc.devRef .tc main_v73)) = (vCos (vDot (vDiff (vOne (V (Proc.devRef .tc main_arg0)))) (subf (vOne (V (Proc.devRef .tc main_arg0))) (vTwo (V (Proc.devRef .tc main_arg0))))) (vNorm (vDiff (vOne (V (Proc.devRef .tc main_arg0))))) (vNorm (subf (vOne (V (Proc.devRef .tc main_arg0))) (vTwo (V (Proc.devRef .tc main_arg0)))))) :=
  (val13_keep V main_v73 (by decide)).trans (val12_main_v73 V)
theorem val13_main_v80 : val13 V (no_index (Proc.devRef .tc main_v80)) = (vCos (vDot (vDiff (vTwo (V (Proc.devRef .tc main_arg0)))) (Host.negf (subf (vOne (V (Proc.devRef .tc main_arg0))) (vTwo (V (Proc.devRef .tc main_arg0)))))) (vNorm (vDiff (vTwo (V (Proc.devRef .tc main_arg0))))) (vNorm (subf (vOne (V (Proc.devRef .tc main_arg0))) (vTwo (V (Proc.devRef .tc main_arg0)))))) :=
  (val13_keep V main_v80 (by decide)).trans (val12_main_v80 V)
set_option maxRecDepth 8192 in
theorem val13_main_v105 : val13 V (no_index (Proc.devRef .tc main_v105)) = (vDist (vOne (V (Proc.devRef .tc main_arg0))) (vTwo (V (Proc.devRef .tc main_arg0))) vTable) := by
  unfold val13
  simp only [opsDist]
  after_results_simp
  all_goals (simp only [val12_main_v102, val12_main_cst_14] <;> rfl)

/-! ### Piece 14 -/

/-- The buffers the piece writes. -/
abbrev opsDdist_W : List (Ref sig .tc) := [main_v106, main_cst_15, main_v107, main_v108, main_call9.v0.ref, main_call9.v1.ref, main_call9.v2.ref]
theorem opsDdist_writes : (opsDdist : List (HloOp τ sig (Elt F))).Forall fun op => op.writes ⊆ (opsDdist_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the piece does not write keeps its contents through it. -/
theorem val14_keep (r : Ref sig .tc) (h : r ∉ opsDdist_W) : val14 V (Proc.devRef .tc r) = val13 V (Proc.devRef .tc r) :=
  after_of_writes_sub opsDdist _ opsDdist_writes h
theorem val14_main_arg0 : val14 V (no_index (Proc.devRef .tc main_arg0)) = (V (Proc.devRef .tc main_arg0)) :=
  (val14_keep V main_arg0 (by decide)).trans (val13_main_arg0 V)
theorem val14_main_arg1 : val14 V (no_index (Proc.devRef .tc main_arg1)) = (V (Proc.devRef .tc main_arg1)) :=
  (val14_keep V main_arg1 (by decide)).trans (val13_main_arg1 V)
theorem val14_main_v6 : val14 V (no_index (Proc.devRef .tc main_v6)) = (vNorm (vDiff (vOne (V (Proc.devRef .tc main_arg0))))) :=
  (val14_keep V main_v6 (by decide)).trans (val13_main_v6 V)
theorem val14_main_v7 : val14 V (no_index (Proc.devRef .tc main_v7)) = (vNorm (vDiff (vTwo (V (Proc.devRef .tc main_arg0))))) :=
  (val14_keep V main_v7 (by decide)).trans (val13_main_v7 V)
theorem val14_main_v20 : val14 V (no_index (Proc.devRef .tc main_v20)) = (vTurn (vDiff (vOne (V (Proc.devRef .tc main_arg0)))) (vNorm (vDiff (vOne (V (Proc.devRef .tc main_arg0)))))) :=
  (val14_keep V main_v20 (by decide)).trans (val13_main_v20 V)
theorem val14_main_v33 : val14 V (no_index (Proc.devRef .tc main_v33)) = (vTurn (vDiff (vTwo (V (Proc.devRef .tc main_arg0)))) (vNorm (vDiff (vTwo (V (Proc.devRef .tc main_arg0)))))) :=
  (val14_keep V main_v33 (by decide)).trans (val13_main_v33 V)
theorem val14_main_v48 : val14 V (no_index (Proc.devRef .tc main_v48)) = (vCross (vDiff (vOne (V (Proc.devRef .tc main_arg0)))) (vDiff (vDiff (vOne (V (Proc.devRef .tc main_arg0)))))) :=
  (val14_keep V main_v48 (by decide)).trans (val13_main_v48 V)
theorem val14_main_v59 : val14 V (no_index (Proc.devRef .tc main_v59)) = (vCross (vDiff (vTwo (V (Proc.devRef .tc main_arg0)))) (vDiff (vDiff (vTwo (V (Proc.devRef .tc main_arg0)))))) :=
  (val14_keep V main_v59 (by decide)).trans (val13_main_v59 V)
theorem val14_main_v65 : val14 V (no_index (Proc.devRef .tc main_v65)) = (vCos (vDot (vDiff (vOne (V (Proc.devRef .tc main_arg0)))) (vDiff (vTwo (V (Proc.devRef .tc main_arg0))))) (vNorm (vDiff (vOne (V (Proc.devRef .tc main_arg0))))) (vNorm (vDiff (vTwo (V (Proc.devRef .tc main_arg0)))))) :=
  (val14_keep V main_v65 (by decide)).trans (val13_main_v65 V)
theorem val14_main_v73 : val14 V (no_index (Proc.devRef .tc main_v73)) = (vCos (vDot (vDiff (vOne (V (Proc.devRef .tc main_arg0)))) (subf (vOne (V (Proc.devRef .tc main_arg0))) (vTwo (V (Proc.devRef .tc main_arg0))))) (vNorm (vDiff (vOne (V (Proc.devRef .tc main_arg0))))) (vNorm (subf (vOne (V (Proc.devRef .tc main_arg0))) (vTwo (V (Proc.devRef .tc main_arg0)))))) :=
  (val14_keep V main_v73 (by decide)).trans (val13_main_v73 V)
theorem val14_main_v80 : val14 V (no_index (Proc.devRef .tc main_v80)) = (vCos (vDot (vDiff (vTwo (V (Proc.devRef .tc main_arg0)))) (Host.negf (subf (vOne (V (Proc.devRef .tc main_arg0))) (vTwo (V (Proc.devRef .tc main_arg0)))))) (vNorm (vDiff (vTwo (V (Proc.devRef .tc main_arg0))))) (vNorm (subf (vOne (V (Proc.devRef .tc main_arg0))) (vTwo (V (Proc.devRef .tc main_arg0)))))) :=
  (val14_keep V main_v80 (by decide)).trans (val13_main_v80 V)
theorem val14_main_v105 : val14 V (no_index (Proc.devRef .tc main_v105)) = (vDist (vOne (V (Proc.devRef .tc main_arg0))) (vTwo (V (Proc.devRef .tc main_arg0))) vTable) :=
  (val14_keep V main_v105 (by decide)).trans (val13_main_v105 V)
set_option maxRecDepth 8192 in
theorem val14_main_v109 : val14 V (no_index (Proc.devRef .tc main_v109)) = (vDdist (vDist (vOne (V (Proc.devRef .tc main_arg0))) (vTwo (V (Proc.devRef .tc main_arg0))) vTable)) := by
  unfold val14
  simp only [opsDdist]
  after_results_simp
  all_goals (simp only [val13_main_v105] <;> rfl)

/-! ### Piece 15 -/

/-- The buffers the piece writes. -/
abbrev opsOut_W : List (Ref sig .tc) := [main_v110]
theorem opsOut_writes : (opsOut : List (HloOp τ sig (Elt F))).Forall fun op => op.writes ⊆ (opsOut_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer the piece does not write keeps its contents through it. -/
theorem val15_keep (r : Ref sig .tc) (h : r ∉ opsOut_W) : val15 V (Proc.devRef .tc r) = val14 V (Proc.devRef .tc r) :=
  after_of_writes_sub opsOut _ opsOut_writes h
theorem val15_main_arg0 : val15 V (no_index (Proc.devRef .tc main_arg0)) = (V (Proc.devRef .tc main_arg0)) :=
  (val15_keep V main_arg0 (by decide)).trans (val14_main_arg0 V)
theorem val15_main_arg1 : val15 V (no_index (Proc.devRef .tc main_arg1)) = (V (Proc.devRef .tc main_arg1)) :=
  (val15_keep V main_arg1 (by decide)).trans (val14_main_arg1 V)
set_option maxRecDepth 8192 in
theorem val15_main_v110 : val15 V (no_index (Proc.devRef .tc main_v110)) = (refTerm (V (Proc.devRef .tc main_arg0))) := by
  unfold val15
  simp only [opsOut]
  after_results_simp
  show vOut (val14 V (Proc.devRef .tc main_v6)) (val14 V (Proc.devRef .tc main_v7)) (val14 V (Proc.devRef .tc main_v48)) (val14 V (Proc.devRef .tc main_v59)) (val14 V (Proc.devRef .tc main_v20)) (val14 V (Proc.devRef .tc main_v33)) (val14 V (Proc.devRef .tc main_v65)) (val14 V (Proc.devRef .tc main_v105)) (val14 V (Proc.devRef .tc main_v109)) (val14 V (Proc.devRef .tc main_v73)) (val14 V (Proc.devRef .tc main_v80)) = _
  simp only [val14_main_v6, val14_main_v7, val14_main_v48, val14_main_v59, val14_main_v20, val14_main_v33, val14_main_v65, val14_main_v105, val14_main_v109, val14_main_v73, val14_main_v80]
  rfl

/-! ### The whole line -/

/-- The result buffer holds the feature array of the positions. -/
theorem after_ops_out : after ops V (Proc.devRef .tc main_v110) = refTerm (V (Proc.devRef .tc main_arg0)) := by
  rw [after_ops]; exact val15_main_v110 V
/-- The argument buffers hold what they held. -/
theorem after_ops_arg0 : after ops V (Proc.devRef .tc main_arg0) = V (Proc.devRef .tc main_arg0) := by
  rw [after_ops]; exact val15_main_arg0 V
theorem after_ops_arg1 : after ops V (Proc.devRef .tc main_arg1) = V (Proc.devRef .tc main_arg1) := by
  rw [after_ops]; exact val15_main_arg1 V

end Cert.ReferenceIdeal.RefValue

end
-- ==== Proof.RefReadA.lean ====
/-
  Arrays read at an index given by its coordinates: a cut along the last axis, two arrays laid one after the other along
  the frame axis, and from these the two animals, the step, and the inner product and length over the two coordinates —
  each the quantity of the same name in the specification.
-/
import proofs.«129414_j76424648065748_2_alg».proof.Proof.RefTerms
import proofs.«129414_j76424648065748_2_alg».proof.Proof.Tracks
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

section Layout
variable {α : Type}

/-- A rank-3 array cut along axis 2 from `o` reads, at `(a, b, j)`, the source at `(a, b, k)` with `k = o + j`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- A rank-4 array cut along axis 3 from `o` reads, at `(a, b, c, j)`, the source at `(a, b, c, k)` with `k = o + j`. -/
theorem slice4_axis3_apply {n0 n1 n2 n3 m : Nat} (o : Nat) (X : (⟨4, ![n0, n1, n2, n3]⟩ : Shape).Idx → α)
    (h : (⟨4, ![n0, n1, n2, n3]⟩ : Shape).Slices ![0, 0, 0, o] ⟨4, ![n0, n1, n2, m]⟩)
    (a : Fin n0) (b : Fin n1) (c : Fin n2) (j : Fin m) (k : Fin n3) (hk : k.val = o + j.val) :
    extractStridedSlice ⟨4, ![n0, n1, n2, m]⟩ ![0, 0, 0, o] X h (ix4 a b c j) = X (ix4 a b c k) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => exact hk)

/-- Two rank-4 arrays laid one after the other along axis 2, read in the first. -/
theorem concat4_axis2_left {n0 n1 p q t n3 : Nat} (x₁ : (⟨4, ![n0, n1, p, n3]⟩ : Shape).Idx → α) (x₂ : (⟨4, ![n0, n1, q, n3]⟩ : Shape).Idx → α)
    (h : Shape.Concatenates [⟨4, ![n0, n1, p, n3]⟩, ⟨4, ![n0, n1, q, n3]⟩] ⟨4, ![n0, n1, t, n3]⟩ 2)
    (a : Fin n0) (b : Fin n1) (j : Fin t) (e : Fin n3) (i : Fin p) (hi : i.val = j.val) :
    concatenate ⟨4, ![n0, n1, t, n3]⟩ 2 [⟨⟨4, ![n0, n1, p, n3]⟩, x₁⟩, ⟨⟨4, ![n0, n1, q, n3]⟩, x₂⟩] h (ix4 a b j e) = x₁ (ix4 a b i e) :=
  concatenate_pair_apply_left 2 x₁ x₂ h _ rfl (ix4 a b i e) (fun ax => by
    match ax with
    | ⟨0, _⟩ => rfl
    | ⟨1, _⟩ => rfl
    | ⟨2, _⟩ => exact hi
    | ⟨3, _⟩ => rfl)

/-- … read in the second: its coordinate is the first's extent less. -/
theorem concat4_axis2_right {n0 n1 p q t n3 : Nat} (x₁ : (⟨4, ![n0, n1, p, n3]⟩ : Shape).Idx → α) (x₂ : (⟨4, ![n0, n1, q, n3]⟩ : Shape).Idx → α)
    (h : Shape.Concatenates [⟨4, ![n0, n1, p, n3]⟩, ⟨4, ![n0, n1, q, n3]⟩] ⟨4, ![n0, n1, t, n3]⟩ 2)
    (a : Fin n0) (b : Fin n1) (j : Fin t) (e : Fin n3) (i : Fin q) (hi : i.val + p = j.val) :
    concatenate ⟨4, ![n0, n1, t, n3]⟩ 2 [⟨⟨4, ![n0, n1, p, n3]⟩, x₁⟩, ⟨⟨4, ![n0, n1, q, n3]⟩, x₂⟩] h (ix4 a b j e) = x₂ (ix4 a b i e) :=
  concatenate_pair_apply_right 2 x₁ x₂ h _ rfl rfl (ix4 a b i e)
    (fun ax hax => by
      match ax, hax with
      | ⟨0, _⟩, _ => rfl
      | ⟨1, _⟩, _ => rfl
      | ⟨2, _⟩, hax => exact absurd rfl hax
      | ⟨3, _⟩, _ => rfl) hi

/-- Two rank-3 arrays laid one after the other along axis 2, read in the first. -/
theorem concat3_axis2_left {n0 n1 p q t : Nat} (x₁ : (⟨3, ![n0, n1, p]⟩ : Shape).Idx → α) (x₂ : (⟨3, ![n0, n1, q]⟩ : Shape).Idx → α)
    (h : Shape.Concatenates [⟨3, ![n0, n1, p]⟩, ⟨3, ![n0, n1, q]⟩] ⟨3, ![n0, n1, t]⟩ 2)
    (a : Fin n0) (b : Fin n1) (j : Fin t) (i : Fin p) (hi : i.val = j.val) :
    concatenate ⟨3, ![n0, n1, t]⟩ 2 [⟨⟨3, ![n0, n1, p]⟩, x₁⟩, ⟨⟨3, ![n0, n1, q]⟩, x₂⟩] h (ix3 a b j) = x₁ (ix3 a b i) :=
  concatenate_pair_apply_left 2 x₁ x₂ h _ rfl (ix3 a b i) (fun ax => by
    match ax with
    | ⟨0, _⟩ => rfl
    | ⟨1, _⟩ => rfl
    | ⟨2, _⟩ => exact hi)

/-- … read in the second. -/
theorem concat3_axis2_right {n0 n1 p q t : Nat} (x₁ : (⟨3, ![n0, n1, p]⟩ : Shape).Idx → α) (x₂ : (⟨3, ![n0, n1, q]⟩ : Shape).Idx → α)
    (h : Shape.Concatenates [⟨3, ![n0, n1, p]⟩, ⟨3, ![n0, n1, q]⟩] ⟨3, ![n0, n1, t]⟩ 2)
    (a : Fin n0) (b : Fin n1) (j : Fin t) (i : Fin q) (hi : i.val + p = j.val) :
    concatenate ⟨3, ![n0, n1, t]⟩ 2 [⟨⟨3, ![n0, n1, p]⟩, x₁⟩, ⟨⟨3, ![n0, n1, q]⟩, x₂⟩] h (ix3 a b j) = x₂ (ix3 a b i) :=
  concatenate_pair_apply_right 2 x₁ x₂ h _ rfl rfl (ix3 a b i)
    (fun ax hax => by
      match ax, hax with
      | ⟨0, _⟩, _ => rfl
      | ⟨1, _⟩, _ => rfl
      | ⟨2, _⟩, hax => exact absurd rfl hax) hi

end Layout

/-! ## The two animals and the step -/

theorem vOne_apply (X : FVec Ideal S16x14x32768x2 .f32) (b : Fin 16) (c : Fin 7) (n : Fin 32768) (k : Fin 2) :
    vOne X (ix4 b c n k) = Tracks.one X b c n k := by
  unfold vOne Tracks.one
  exact slice4_axis1_apply 0 X _ b c n k ⟨c.val, by omega⟩ (Nat.zero_add _).symm

theorem vTwo_apply (X : FVec Ideal S16x14x32768x2 .f32) (b : Fin 16) (c : Fin 7) (n : Fin 32768) (k : Fin 2) :
    vTwo X (ix4 b c n k) = Tracks.two X b c n k := by
  unfold vTwo Tracks.two
  exact slice4_axis1_apply 7 X _ b c n k ⟨c.val + 7, by omega⟩ (Nat.add_comm _ _)

/-- The prepended array at frame `n + 1` is the array at frame `n`. -/
theorem vPre_succ (a : FVec Ideal S16x7x32768x2 .f32) (b : Fin 16) (c : Fin 7) (n : Fin 32768) (k : Fin 2) :
    vPre a (ix4 b c ⟨n.val + 1, by omega⟩ k) = a (ix4 b c n k) := by
  unfold vPre catPre
  exact concat4_axis2_right _ a _ b c _ k n rfl

/-- The prepended array at frame 0 is the array at frame 0. -/
theorem vPre_zero (a : FVec Ideal S16x7x32768x2 .f32) (b : Fin 16) (c : Fin 7) (k : Fin 2) :
    vPre a (ix4 b c ⟨0, by decide⟩ k) = a (ix4 b c ⟨0, by decide⟩ k) := by
  unfold vPre catPre
  refine (concat4_axis2_left _ a _ b c (⟨0, by decide⟩ : Fin 32769) k (⟨0, by decide⟩ : Fin 1) rfl).trans ?_
  exact slice4_axis2_apply 0 a _ b c (⟨0, by decide⟩ : Fin 1) k ⟨0, by decide⟩ rfl

/-- The difference from the previous frame, frame 0 from itself. -/
theorem vDiff_apply (a : FVec Ideal S16x7x32768x2 .f32) (b : Fin 16) (c : Fin 7) (n : Fin 32768) (k : Fin 2) :
    vDiff a (ix4 b c n k) = a (ix4 b c n k) - a (ix4 b c (Tracks.prev n) k) := by
  unfold vDiff
  rw [subf_apply, slice4_axis2_apply 1 (vPre a) _ b c n k ⟨n.val + 1, by omega⟩ (Nat.add_comm _ _),
    slice4_axis2_apply 0 (vPre a) _ b c n k ⟨n.val, by omega⟩ (Nat.zero_add _).symm, vPre_succ]
  congr 1
  obtain ⟨nv, hlt⟩ := n
  cases nv with
  | zero => exact vPre_zero a b c k
  | succ p => exact vPre_succ a b c ⟨p, by omega⟩ k

/-! ## Sums over the two coordinates -/

/-- The index over `(a, b, c)` with `k` on the dropped last axis. -/
theorem lift4_last {n0 n1 n2 n3 : Nat} (h : (⟨4, ![n0, n1, n2, n3]⟩ : Shape).Reduces [3] ⟨3, ![n0, n1, n2]⟩)
    (a : Fin n0) (b : Fin n1) (c : Fin n2) (k : Fin n3) : h.lift (ix3 a b c) k = ix4 a b c k :=
  funext fun ax => Fin.ext (by
    match ax with
    | ⟨0, _⟩ => rfl
    | ⟨1, _⟩ => rfl
    | ⟨2, _⟩ => rfl
    | ⟨3, _⟩ => rfl)

set_option maxRecDepth 8192 in
/-- The host's sum over a last axis of extent 2, from the zero word: the two entries' sum. -/
theorem reduceAdd_pair {n0 n1 n2 : Nat} (x : FVec Ideal ⟨4, ![n0, n1, n2, 2]⟩ .f32)
    (h' : (⟨4, ![n0, n1, n2, 2]⟩ : Shape).ReducesTo [3] ⟨3, ![n0, n1, n2]⟩)
    (h : (⟨4, ![n0, n1, n2, 2]⟩ : Shape).Reduces [3] ⟨3, ![n0, n1, n2]⟩) (hu : 0 < S_.numel)
    (a : Fin n0) (b : Fin n1) (c : Fin n2) :
    Host.reduceAdd x (constant (F := Ideal) S_ .f32 0x00000000#32) h' hu (ix3 a b c) = x (ix4 a b c 0) + x (ix4 a b c 1) := by
  unfold Host.reduceAdd
  rw [Ideal.hostReduceAdd_def, Ideal.hostReduceAdd_single h' h, constant_apply, Ideal.ofBits_zero_f32, zero_add]
  exact (Fin.sum_univ_two _).trans
    (congrArg₂ (· + ·) (congrArg x (lift4_last h a b c 0)) (congrArg x (lift4_last h a b c 1)))

theorem vDot_apply (u v : FVec Ideal S16x7x32768x2 .f32) (b : Fin 16) (c : Fin 7) (n : Fin 32768) :
    vDot u v (ix3 b c n) = u (ix4 b c n 0) * v (ix4 b c n 0) + u (ix4 b c n 1) * v (ix4 b c n 1) := by
  unfold vDot
  exact reduceAdd_pair (mulf u v) _ (by decide) _ b c n

theorem vNorm_apply (u : FVec Ideal S16x7x32768x2 .f32) (b : Fin 16) (c : Fin 7) (n : Fin 32768) :
    vNorm u (ix3 b c n) = Tracks.len (u (ix4 b c n 0)) (u (ix4 b c n 1)) := by
  unfold vNorm Host.sqrt
  rw [Ideal.hostUnary_sqrt_def, vDot_apply]; rfl

/-! ## Recording `b` of an array, as the specification's track -/

/-- Recording `b`: keypoint, frame, coordinate. -/
def trk (a : FVec Ideal S16x7x32768x2 .f32) (b : Fin 16) : Tracks.Track := fun c n k => a (ix4 b c n k)

theorem trk_vOne (X : FVec Ideal S16x14x32768x2 .f32) (b : Fin 16) : trk (vOne X) b = Tracks.one X b :=
  funext fun c => funext fun n => funext fun k => vOne_apply X b c n k

theorem trk_vTwo (X : FVec Ideal S16x14x32768x2 .f32) (b : Fin 16) : trk (vTwo X) b = Tracks.two X b :=
  funext fun c => funext fun n => funext fun k => vTwo_apply X b c n k

/-- The difference from the previous frame is the specification's step. -/
theorem vDiff_step (a : FVec Ideal S16x7x32768x2 .f32) (b : Fin 16) (c : Fin 7) (n : Fin 32768) (k : Fin 2) :
    vDiff a (ix4 b c n k) = Tracks.step (trk a b) c n k := vDiff_apply a b c n k

/-- Its length is the speed. -/
theorem vNorm_speed (a : FVec Ideal S16x7x32768x2 .f32) (b : Fin 16) (c : Fin 7) (n : Fin 32768) :
    vNorm (vDiff a) (ix3 b c n) = Tracks.speed (trk a b) c n := by
  rw [vNorm_apply, vDiff_step, vDiff_step]; rfl

/-- The step's own difference is the change of the step. -/
theorem vDiff_bend (a : FVec Ideal S16x7x32768x2 .f32) (b : Fin 16) (c : Fin 7) (n : Fin 32768) (k : Fin 2) :
    vDiff (vDiff a) (ix4 b c n k) = Tracks.bend (trk a b) c n k := by
  rw [vDiff_apply, vDiff_step, vDiff_step]; rfl

end Cert.ReferenceIdeal.RefValue

end
-- ==== Proof.RefReadB.lean ====
/-
  The planar cross product, the turning cosine and the regularised cosines read at an index: each is the quantity of the
  same name in the specification, of the tracks of the recording.
-/
import proofs.«129414_j76424648065748_2_alg».proof.Proof.RefReadA

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

/-! ## The two coordinates as arrays over recording, keypoint and frame -/

theorem vCol0_apply (a : FVec Ideal S16x7x32768x2 .f32) (b : Fin 16) (c : Fin 7) (n : Fin 32768) :
    vCol0 a (ix3 b c n) = a (ix4 b c n 0) := by
  unfold vCol0
  refine (shapeCast_apply _ _ (ix3 b c n) (ix4 b c n (0 : Fin 1)) ?_).trans ?_
  · rw [Shape.rowMajor_val_four, Shape.rowMajor_val_three]
    show ((b.val * 7 + c.val) * 32768 + n.val) * 1 + 0 = (b.val * 7 + c.val) * 32768 + n.val
    omega
  · exact slice4_axis3_apply 0 a _ b c n (0 : Fin 1) (0 : Fin 2) rfl

theorem vCol1_apply (a : FVec Ideal S16x7x32768x2 .f32) (b : Fin 16) (c : Fin 7) (n : Fin 32768) :
    vCol1 a (ix3 b c n) = a (ix4 b c n 1) := by
  unfold vCol1
  refine (shapeCast_apply _ _ (ix3 b c n) (ix4 b c n (0 : Fin 1)) ?_).trans ?_
  · rw [Shape.rowMajor_val_four, Shape.rowMajor_val_three]
    show ((b.val * 7 + c.val) * 32768 + n.val) * 1 + 0 = (b.val * 7 + c.val) * 32768 + n.val
    omega
  · exact slice4_axis3_apply 1 a _ b c n (0 : Fin 1) (1 : Fin 2) rfl

/-! ## The cross product -/

theorem vCross_apply (d e : FVec Ideal S16x7x32768x2 .f32) (b : Fin 16) (c : Fin 7) (n : Fin 32768) :
    vCross d e (ix3 b c n) = d (ix4 b c n 0) * e (ix4 b c n 1) - d (ix4 b c n 1) * e (ix4 b c n 0) := by
  unfold vCross
  rw [subf_apply, mulf_apply, mulf_apply, vCol0_apply, vCol1_apply, vCol1_apply, vCol0_apply]

theorem vCross_cross (a : FVec Ideal S16x7x32768x2 .f32) (b : Fin 16) (c : Fin 7) (n : Fin 32768) :
    vCross (vDiff a) (vDiff (vDiff a)) (ix3 b c n) = Tracks.cross (trk a b) c n := by
  rw [vCross_apply, vDiff_bend, vDiff_bend, vDiff_step, vDiff_step]; rfl

/-! ## The turning cosine -/

/-- A float word spread over an array reads as the word everywhere. -/
theorem bcast_word_apply {t : Shape} (h : S_.BroadcastsInDim t (![] : Fin 0 → Fin t.rank)) (w : BitVec 32) (j : t.Idx) :
    broadcastInDim t ![] h (constant (F := Ideal) S_ .f32 w) j = Ideal.ofBits .f32 w := rfl

theorem vTurn_apply (d : FVec Ideal S16x7x32768x2 .f32) (s : FVec Ideal S16x7x32768 .f32) (b : Fin 16) (c : Fin 7) (n : Fin 32768) :
    vTurn d s (ix3 b c n) = if n.val = 0 then 0 else
      Ideal.div (d (ix4 b c n 0) * d (ix4 b c (Tracks.prev n) 0) + d (ix4 b c n 1) * d (ix4 b c (Tracks.prev n) 1))
        (s (ix3 b c n) * s (ix3 b c (Tracks.prev n)) + Tracks.eps4) := by
  unfold vTurn catTurn
  obtain ⟨nv, hlt⟩ := n
  cases nv with
  | zero =>
    rw [if_pos rfl]
    refine (concat3_axis2_left _ _ _ b c (⟨0, hlt⟩ : Fin 32768) (⟨0, by decide⟩ : Fin 1) rfl).trans ?_
    rw [bcast_word_apply]; exact Ideal.ofBits_zero_f32
  | succ p =>
    rw [if_neg (Nat.succ_ne_zero p)]
    have hq : p < 32767 := by omega
    refine (concat3_axis2_right _ _ _ b c (⟨p + 1, hlt⟩ : Fin 32768) (⟨p, hq⟩ : Fin 32767) rfl).trans ?_
    show Ideal.div _ _ = _
    rw [reduceAdd_pair _ _ (by decide) _ b c (⟨p, hq⟩ : Fin 32767), addf_apply, mulf_apply, mulf_apply, mulf_apply, bcast_word_apply,
      slice4_axis2_apply 1 d _ b c (⟨p, hq⟩ : Fin 32767) 0 (⟨p + 1, hlt⟩ : Fin 32768) (Nat.add_comm _ _),
      slice4_axis2_apply 0 d _ b c (⟨p, hq⟩ : Fin 32767) 0 (⟨p, by omega⟩ : Fin 32768) (Nat.zero_add _).symm,
      slice4_axis2_apply 1 d _ b c (⟨p, hq⟩ : Fin 32767) 1 (⟨p + 1, hlt⟩ : Fin 32768) (Nat.add_comm _ _),
      slice4_axis2_apply 0 d _ b c (⟨p, hq⟩ : Fin 32767) 1 (⟨p, by omega⟩ : Fin 32768) (Nat.zero_add _).symm,
      slice3_axis2_apply 1 s _ b c (⟨p, hq⟩ : Fin 32767) (⟨p + 1, hlt⟩ : Fin 32768) (Nat.add_comm _ _),
      slice3_axis2_apply 0 s _ b c (⟨p, hq⟩ : Fin 32767) (⟨p, by omega⟩ : Fin 32768) (Nat.zero_add _).symm]
    rfl

theorem vTurn_turn (a : FVec Ideal S16x7x32768x2 .f32) (b : Fin 16) (c : Fin 7) (n : Fin 32768) :
    vTurn (vDiff a) (vNorm (vDiff a)) (ix3 b c n) = Tracks.turn (trk a b) c n := by
  rw [vTurn_apply, vDiff_step, vDiff_step, vDiff_step, vDiff_step, vNorm_speed, vNorm_speed]; rfl

/-! ## The regularised cosines -/

theorem vCos_apply (num s₁ s₂ : FVec Ideal S16x7x32768 .f32) (j : S16x7x32768.Idx) :
    vCos num s₁ s₂ j = Ideal.div (num j) (s₁ j * s₂ j + Tracks.eps6) := rfl

theorem vCos_align (x₁ x₂ : FVec Ideal S16x7x32768x2 .f32) (b : Fin 16) (c : Fin 7) (n : Fin 32768) :
    vCos (vDot (vDiff x₁) (vDiff x₂)) (vNorm (vDiff x₁)) (vNorm (vDiff x₂)) (ix3 b c n) = Tracks.align (trk x₁ b) (trk x₂ b) c n := by
  rw [vCos_apply, vDot_apply, vNorm_speed, vNorm_speed, vDiff_step, vDiff_step, vDiff_step, vDiff_step]; rfl

/-- The vector between the two animals, and its length. -/
theorem rel_apply (x₁ x₂ : FVec Ideal S16x7x32768x2 .f32) (b : Fin 16) (c : Fin 7) (n : Fin 32768) (k : Fin 2) :
    subf x₁ x₂ (ix4 b c n k) = Tracks.rel (trk x₁ b) (trk x₂ b) c n k := rfl

theorem vNorm_gap (x₁ x₂ : FVec Ideal S16x7x32768x2 .f32) (b : Fin 16) (c : Fin 7) (n : Fin 32768) :
    vNorm (subf x₁ x₂) (ix3 b c n) = Tracks.gap (trk x₁ b) (trk x₂ b) c n := by
  rw [vNorm_apply]; rfl

theorem vCos_lead1 (x₁ x₂ : FVec Ideal S16x7x32768x2 .f32) (b : Fin 16) (c : Fin 7) (n : Fin 32768) :
    vCos (vDot (vDiff x₁) (subf x₁ x₂)) (vNorm (vDiff x₁)) (vNorm (subf x₁ x₂)) (ix3 b c n)
      = Tracks.lead1 (trk x₁ b) (trk x₂ b) c n := by
  rw [vCos_apply, vDot_apply, vNorm_speed, vNorm_gap, vDiff_step, vDiff_step, rel_apply, rel_apply]; rfl

theorem vCos_lead2 (x₁ x₂ : FVec Ideal S16x7x32768x2 .f32) (b : Fin 16) (c : Fin 7) (n : Fin 32768) :
    vCos (vDot (vDiff x₂) (Host.negf (subf x₁ x₂))) (vNorm (vDiff x₂)) (vNorm (subf x₁ x₂)) (ix3 b c n)
      = Tracks.lead2 (trk x₁ b) (trk x₂ b) c n := by
  rw [vCos_apply, vDot_apply, vNorm_speed, vNorm_gap, vDiff_step, vDiff_step]
  show Ideal.div (_ * -(subf x₁ x₂ (ix4 b c n 0)) + _ * -(subf x₁ x₂ (ix4 b c n 1))) _ = _
  rw [rel_apply, rel_apply]; rfl

end Cert.ReferenceIdeal.RefValue

end
-- ==== Proof.RefReadC.lean ====
/-
  The 49 distances and their differences in time, read at an index: the table of partners entry by entry (49 small
  integers, by computation), the keypoints of animal one picked by it, the keypoints of animal two repeated seven
  times, the regularised length of their difference, and its forward difference in time with a zero after the last
  frame — the specification's distance and its difference for rotation `r / 7` and keypoint `r % 7`.
-/
import proofs.«129414_j76424648065748_2_alg».proof.Proof.RefReadB

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

/-! ## The table of partners -/

set_option maxRecDepth 100000 in
/-- Entry `r = 7·i + j` is `(j − i − 1) mod 7`, read as a signed word. -/
theorem vTable_val : ∀ r : Fin 49, (vTable (ix2 r (0 : Fin 1))).toInt.toNat = (r.val % 7 + 13 - r.val / 7) % 7 := by
  decide +kernel

/-! ## Animal one picked by a column of channel numbers -/

/-- Where row `r` reads its channel number: the column's entry `r`. -/
theorem pick_siIdx (b : Fin 16) (r : Fin 49) (n : Fin 32768) (k : Fin 2) (h : 0 < (gather_S16x7x32768x2_S49x1_S16x49x32768x2_023_1_n_n_1_1_161327682).startIndexMap.length) :
    (gather_S16x7x32768x2_S49x1_S16x49x32768x2_023_1_n_n_1_1_161327682).siIdx (ix4 b r n k) ⟨0, h⟩ = ix2 r (0 : Fin 1) :=
  funext fun ax => Fin.ext (by
    match ax with
    | ⟨0, _⟩ => rfl
    | ⟨1, _⟩ => rfl)

theorem vPick_apply (x : FVec Ideal S16x7x32768x2 .f32) (T : IVec S49x1 32) (b : Fin 16) (r : Fin 49) (n : Fin 32768) (k : Fin 2)
    (m : Fin 7) (hm : (T (ix2 r (0 : Fin 1))).toInt.toNat = m.val) : vPick x T (ix4 b r n k) = x (ix4 b m n k) := by
  unfold vPick Host.gather
  refine congrArg x (funext fun ax => Fin.ext ?_)
  match ax with
  | ⟨0, _⟩ => show 0 + 0 + b.val = b.val; omega
  | ⟨1, _⟩ =>
    show min (T ((gather_S16x7x32768x2_S49x1_S16x49x32768x2_023_1_n_n_1_1_161327682).siIdx (ix4 b r n k) ⟨0, by decide⟩)).toInt.toNat (7 - 1) + 0 + 0 = m.val
    rw [pick_siIdx, hm]; have := m.isLt; omega
  | ⟨2, _⟩ => show 0 + 0 + n.val = n.val; omega
  | ⟨3, _⟩ => show 0 + 0 + k.val = k.val; omega

/-! ## Animal two repeated seven times -/

/-- A rank-8 index from its coordinates. -/
abbrev ix8 {n0 n1 n2 n3 n4 n5 n6 n7 : Nat} (a0 : Fin n0) (a1 : Fin n1) (a2 : Fin n2) (a3 : Fin n3) (a4 : Fin n4) (a5 : Fin n5)
    (a6 : Fin n6) (a7 : Fin n7) : (⟨8, ![n0, n1, n2, n3, n4, n5, n6, n7]⟩ : Shape).Idx :=
  fun e => match e with
    | ⟨0, _⟩ => a0 | ⟨1, _⟩ => a1 | ⟨2, _⟩ => a2 | ⟨3, _⟩ => a3 | ⟨4, _⟩ => a4 | ⟨5, _⟩ => a5 | ⟨6, _⟩ => a6 | ⟨7, _⟩ => a7

/-- Rank 8: the row-major position. -/
theorem rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5 + (i 5).val) * d 6
          + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-- Row `r` of the repeated array is keypoint `r % 7`. -/
theorem vTile_apply (x : FVec Ideal S16x7x32768x2 .f32) (b : Fin 16) (r : Fin 49) (n : Fin 32768) (k : Fin 2) (j : Fin 7)
    (hj : j.val = r.val % 7) : vTile x (ix4 b r n k) = x (ix4 b j n k) := by
  unfold vTile
  have hr := r.isLt
  refine (shapeCast_apply _ _ (ix4 b r n k)
    (ix8 (0 : Fin 1) b (⟨r.val / 7, by omega⟩ : Fin 7) j (0 : Fin 1) n (0 : Fin 1) k) ?_).trans ?_
  · rw [rowMajor_val_eight, Shape.rowMajor_val_four]
    show ((((((0 * 16 + b.val) * 7 + r.val / 7) * 7 + j.val) * 1 + 0) * 32768 + n.val) * 1 + 0) * 2 + k.val
      = ((b.val * 49 + r.val) * 32768 + n.val) * 2 + k.val
    omega
  refine (broadcastInDim_apply _ _ _ _ (ix8 (0 : Fin 1) b (0 : Fin 1) j (0 : Fin 1) n (0 : Fin 1) k) (fun ax => by
    match ax with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl)).trans ?_
  refine shapeCast_apply _ _ _ (ix4 b j n k) ?_
  rw [rowMajor_val_eight, Shape.rowMajor_val_four]
  show ((b.val * 7 + j.val) * 32768 + n.val) * 2 + k.val
    = ((((((0 * 16 + b.val) * 1 + 0) * 7 + j.val) * 1 + 0) * 32768 + n.val) * 1 + 0) * 2 + k.val
  omega

/-! ## The distances -/

theorem vGap_apply (x₁ x₂ : FVec Ideal S16x7x32768x2 .f32) (T : IVec S49x1 32) (b : Fin 16) (r : Fin 49) (n : Fin 32768) (k : Fin 2)
    (m j : Fin 7) (hm : (T (ix2 r (0 : Fin 1))).toInt.toNat = m.val) (hj : j.val = r.val % 7) :
    vGap x₁ x₂ T (ix4 b r n k) = x₁ (ix4 b m n k) - x₂ (ix4 b j n k) + Tracks.eps6 := by
  unfold vGap
  rw [addf_apply, subf_apply, bcast_word_apply, vPick_apply x₁ T b r n k m hm, vTile_apply x₂ b r n k j hj]; rfl

theorem vDist_apply (x₁ x₂ : FVec Ideal S16x7x32768x2 .f32) (T : IVec S49x1 32) (b : Fin 16) (r : Fin 49) (n : Fin 32768)
    (m j : Fin 7) (hm : (T (ix2 r (0 : Fin 1))).toInt.toNat = m.val) (hj : j.val = r.val % 7) :
    vDist x₁ x₂ T (ix3 b r n)
      = Tracks.len (x₁ (ix4 b m n 0) - x₂ (ix4 b j n 0) + Tracks.eps6) (x₁ (ix4 b m n 1) - x₂ (ix4 b j n 1) + Tracks.eps6) := by
  unfold vDist Host.sqrt
  rw [Ideal.hostUnary_sqrt_def, reduceAdd_pair _ _ (by decide) _ b r n, mulf_apply, mulf_apply,
    vGap_apply x₁ x₂ T b r n 0 m j hm hj, vGap_apply x₁ x₂ T b r n 1 m j hm hj]; rfl

/-- Row `r` is the specification's distance for rotation `r / 7` and keypoint `r % 7`. -/
theorem vDist_dist (x₁ x₂ : FVec Ideal S16x7x32768x2 .f32) (b : Fin 16) (r : Fin 49) (n : Fin 32768) :
    vDist x₁ x₂ vTable (ix3 b r n)
      = Tracks.dist (trk x₁ b) (trk x₂ b) (r.val / 7) ⟨r.val % 7, Nat.mod_lt _ (by decide)⟩ n := by
  rw [vDist_apply x₁ x₂ vTable b r n (Tracks.partner (r.val / 7) ⟨r.val % 7, Nat.mod_lt _ (by decide)⟩)
    ⟨r.val % 7, Nat.mod_lt _ (by decide)⟩ (vTable_val r) rfl]
  rfl

/-! ## Their forward difference in time -/

theorem vDdist_apply (d : FVec Ideal S16x49x32768 .f32) (b : Fin 16) (r : Fin 49) (n : Fin 32768) :
    vDdist d (ix3 b r n) = if n.val = 32767 then -(d (ix3 b r n)) else d (ix3 b r (Tracks.next n)) - d (ix3 b r n) := by
  have hn := n.isLt
  unfold vDdist
  rw [subf_apply, slice3_axis2_apply 1 (vApp d) _ b r n ⟨n.val + 1, by omega⟩ (Nat.add_comm _ _),
    slice3_axis2_apply 0 (vApp d) _ b r n ⟨n.val, by omega⟩ (Nat.zero_add _).symm]
  have h0 : vApp d (ix3 b r (⟨n.val, by omega⟩ : Fin 32769)) = d (ix3 b r n) := by
    unfold vApp catApp
    exact concat3_axis2_left d _ _ b r _ n rfl
  rw [h0]
  by_cases hl : n.val = 32767
  · rw [if_pos hl]
    have h1 : vApp d (ix3 b r (⟨n.val + 1, by omega⟩ : Fin 32769)) = 0 := by
      unfold vApp catApp
      refine (concat3_axis2_right d _ _ b r (⟨n.val + 1, by omega⟩ : Fin 32769) (⟨0, by decide⟩ : Fin 1)
        (by show 0 + 32768 = n.val + 1; omega)).trans ?_
      rw [bcast_word_apply]; exact Ideal.ofBits_zero_f32
    rw [h1, zero_sub]
  · rw [if_neg hl]
    have e : Tracks.next n = ⟨n.val + 1, by omega⟩ := Fin.ext (Nat.mod_eq_of_lt (by omega))
    have h1 : vApp d (ix3 b r (⟨n.val + 1, by omega⟩ : Fin 32769)) = d (ix3 b r (Tracks.next n)) := by
      rw [e]
      unfold vApp catApp
      exact concat3_axis2_left d _ _ b r _ (⟨n.val + 1, by omega⟩ : Fin 32768) rfl
    rw [h1]

theorem vDdist_ddist (x₁ x₂ : FVec Ideal S16x7x32768x2 .f32) (b : Fin 16) (r : Fin 49) (n : Fin 32768) :
    vDdist (vDist x₁ x₂ vTable) (ix3 b r n)
      = Tracks.ddist (trk x₁ b) (trk x₂ b) (r.val / 7) ⟨r.val % 7, Nat.mod_lt _ (by decide)⟩ n := by
  rw [vDdist_apply, vDist_dist, vDist_dist]; rfl

end Cert.ReferenceIdeal.RefValue

end
-- ==== Proof.RefReadD.lean ====
/-
  The 161 rows: row `r` of the whole array lies in one of the eleven groups laid one after the other (the rows before
  group `k`: 0, 7, 14, 21, 28, 35, 42, 49, 98, 147, 154), and in each group it is the specification's feature of group
  `r / 7` and keypoint `r % 7`. So the reference's term is the specification's feature array.
-/
import proofs.«129414_j76424648065748_2_alg».proof.Proof.RefReadC

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

/-! ## The whole array read at a row of each group -/

theorem vOut_at0 (g₀ g₁ g₂ g₃ g₄ g₅ g₆ : FVec Ideal S16x7x32768 .f32) (g₇ g₈ : FVec Ideal S16x49x32768 .f32) (g₉ g₁₀ : FVec Ideal S16x7x32768 .f32)
    (b : Fin 16) (r : Fin 161) (n : Fin 32768) (c : Fin 7) (hc : 0 + c.val = r.val) :
    vOut g₀ g₁ g₂ g₃ g₄ g₅ g₆ g₇ g₈ g₉ g₁₀ (ix3 b r n) = g₀ (ix3 b c n) := by
  unfold vOut
  exact concatenate_apply_piece 1 _ _ (ix3 b r n) 0 (by show 0 < 11; decide) S16x7x32768 g₀ rfl rfl 0 rfl (ix3 b c n)
    (fun ax hax => by
      match ax, hax with
      | ⟨0, _⟩, _ => rfl
      | ⟨1, _⟩, hax => exact absurd rfl hax
      | ⟨2, _⟩, _ => rfl) hc

theorem vOut_at1 (g₀ g₁ g₂ g₃ g₄ g₅ g₆ : FVec Ideal S16x7x32768 .f32) (g₇ g₈ : FVec Ideal S16x49x32768 .f32) (g₉ g₁₀ : FVec Ideal S16x7x32768 .f32)
    (b : Fin 16) (r : Fin 161) (n : Fin 32768) (c : Fin 7) (hc : 7 + c.val = r.val) :
    vOut g₀ g₁ g₂ g₃ g₄ g₅ g₆ g₇ g₈ g₉ g₁₀ (ix3 b r n) = g₁ (ix3 b c n) := by
  unfold vOut
  exact concatenate_apply_piece 1 _ _ (ix3 b r n) 1 (by show 1 < 11; decide) S16x7x32768 g₁ rfl rfl 7 rfl (ix3 b c n)
    (fun ax hax => by
      match ax, hax with
      | ⟨0, _⟩, _ => rfl
      | ⟨1, _⟩, hax => exact absurd rfl hax
      | ⟨2, _⟩, _ => rfl) hc

theorem vOut_at2 (g₀ g₁ g₂ g₃ g₄ g₅ g₆ : FVec Ideal S16x7x32768 .f32) (g₇ g₈ : FVec Ideal S16x49x32768 .f32) (g₉ g₁₀ : FVec Ideal S16x7x32768 .f32)
    (b : Fin 16) (r : Fin 161) (n : Fin 32768) (c : Fin 7) (hc : 14 + c.val = r.val) :
    vOut g₀ g₁ g₂ g₃ g₄ g₅ g₆ g₇ g₈ g₉ g₁₀ (ix3 b r n) = g₂ (ix3 b c n) := by
  unfold vOut
  exact concatenate_apply_piece 1 _ _ (ix3 b r n) 2 (by show 2 < 11; decide) S16x7x32768 g₂ rfl rfl 14 rfl (ix3 b c n)
    (fun ax hax => by
      match ax, hax with
      | ⟨0, _⟩, _ => rfl
      | ⟨1, _⟩, hax => exact absurd rfl hax
      | ⟨2, _⟩, _ => rfl) hc

theorem vOut_at3 (g₀ g₁ g₂ g₃ g₄ g₅ g₆ : FVec Ideal S16x7x32768 .f32) (g₇ g₈ : FVec Ideal S16x49x32768 .f32) (g₉ g₁₀ : FVec Ideal S16x7x32768 .f32)
    (b : Fin 16) (r : Fin 161) (n : Fin 32768) (c : Fin 7) (hc : 21 + c.val = r.val) :
    vOut g₀ g₁ g₂ g₃ g₄ g₅ g₆ g₇ g₈ g₉ g₁₀ (ix3 b r n) = g₃ (ix3 b c n) := by
  unfold vOut
  exact concatenate_apply_piece 1 _ _ (ix3 b r n) 3 (by show 3 < 11; decide) S16x7x32768 g₃ rfl rfl 21 rfl (ix3 b c n)
    (fun ax hax => by
      match ax, hax with
      | ⟨0, _⟩, _ => rfl
      | ⟨1, _⟩, hax => exact absurd rfl hax
      | ⟨2, _⟩, _ => rfl) hc

theorem vOut_at4 (g₀ g₁ g₂ g₃ g₄ g₅ g₆ : FVec Ideal S16x7x32768 .f32) (g₇ g₈ : FVec Ideal S16x49x32768 .f32) (g₉ g₁₀ : FVec Ideal S16x7x32768 .f32)
    (b : Fin 16) (r : Fin 161) (n : Fin 32768) (c : Fin 7) (hc : 28 + c.val = r.val) :
    vOut g₀ g₁ g₂ g₃ g₄ g₅ g₆ g₇ g₈ g₉ g₁₀ (ix3 b r n) = g₄ (ix3 b c n) := by
  unfold vOut
  exact concatenate_apply_piece 1 _ _ (ix3 b r n) 4 (by show 4 < 11; decide) S16x7x32768 g₄ rfl rfl 28 rfl (ix3 b c n)
    (fun ax hax => by
      match ax, hax with
      | ⟨0, _⟩, _ => rfl
      | ⟨1, _⟩, hax => exact absurd rfl hax
      | ⟨2, _⟩, _ => rfl) hc

theorem vOut_at5 (g₀ g₁ g₂ g₃ g₄ g₅ g₆ : FVec Ideal S16x7x32768 .f32) (g₇ g₈ : FVec Ideal S16x49x32768 .f32) (g₉ g₁₀ : FVec Ideal S16x7x32768 .f32)
    (b : Fin 16) (r : Fin 161) (n : Fin 32768) (c : Fin 7) (hc : 35 + c.val = r.val) :
    vOut g₀ g₁ g₂ g₃ g₄ g₅ g₆ g₇ g₈ g₉ g₁₀ (ix3 b r n) = g₅ (ix3 b c n) := by
  unfold vOut
  exact concatenate_apply_piece 1 _ _ (ix3 b r n) 5 (by show 5 < 11; decide) S16x7x32768 g₅ rfl rfl 35 rfl (ix3 b c n)
    (fun ax hax => by
      match ax, hax with
      | ⟨0, _⟩, _ => rfl
      | ⟨1, _⟩, hax => exact absurd rfl hax
      | ⟨2, _⟩, _ => rfl) hc

theorem vOut_at6 (g₀ g₁ g₂ g₃ g₄ g₅ g₆ : FVec Ideal S16x7x32768 .f32) (g₇ g₈ : FVec Ideal S16x49x32768 .f32) (g₉ g₁₀ : FVec Ideal S16x7x32768 .f32)
    (b : Fin 16) (r : Fin 161) (n : Fin 32768) (c : Fin 7) (hc : 42 + c.val = r.val) :
    vOut g₀ g₁ g₂ g₃ g₄ g₅ g₆ g₇ g₈ g₉ g₁₀ (ix3 b r n) = g₆ (ix3 b c n) := by
  unfold vOut
  exact concatenate_apply_piece 1 _ _ (ix3 b r n) 6 (by show 6 < 11; decide) S16x7x32768 g₆ rfl rfl 42 rfl (ix3 b c n)
    (fun ax hax => by
      match ax, hax with
      | ⟨0, _⟩, _ => rfl
      | ⟨1, _⟩, hax => exact absurd rfl hax
      | ⟨2, _⟩, _ => rfl) hc

theorem vOut_at7 (g₀ g₁ g₂ g₃ g₄ g₅ g₆ : FVec Ideal S16x7x32768 .f32) (g₇ g₈ : FVec Ideal S16x49x32768 .f32) (g₉ g₁₀ : FVec Ideal S16x7x32768 .f32)
    (b : Fin 16) (r : Fin 161) (n : Fin 32768) (c : Fin 49) (hc : 49 + c.val = r.val) :
    vOut g₀ g₁ g₂ g₃ g₄ g₅ g₆ g₇ g₈ g₉ g₁₀ (ix3 b r n) = g₇ (ix3 b c n) := by
  unfold vOut
  exact concatenate_apply_piece 1 _ _ (ix3 b r n) 7 (by show 7 < 11; decide) S16x49x32768 g₇ rfl rfl 49 rfl (ix3 b c n)
    (fun ax hax => by
      match ax, hax with
      | ⟨0, _⟩, _ => rfl
      | ⟨1, _⟩, hax => exact absurd rfl hax
      | ⟨2, _⟩, _ => rfl) hc

theorem vOut_at8 (g₀ g₁ g₂ g₃ g₄ g₅ g₆ : FVec Ideal S16x7x32768 .f32) (g₇ g₈ : FVec Ideal S16x49x32768 .f32) (g₉ g₁₀ : FVec Ideal S16x7x32768 .f32)
    (b : Fin 16) (r : Fin 161) (n : Fin 32768) (c : Fin 49) (hc : 98 + c.val = r.val) :
    vOut g₀ g₁ g₂ g₃ g₄ g₅ g₆ g₇ g₈ g₉ g₁₀ (ix3 b r n) = g₈ (ix3 b c n) := by
  unfold vOut
  exact concatenate_apply_piece 1 _ _ (ix3 b r n) 8 (by show 8 < 11; decide) S16x49x32768 g₈ rfl rfl 98 rfl (ix3 b c n)
    (fun ax hax => by
      match ax, hax with
      | ⟨0, _⟩, _ => rfl
      | ⟨1, _⟩, hax => exact absurd rfl hax
      | ⟨2, _⟩, _ => rfl) hc

theorem vOut_at9 (g₀ g₁ g₂ g₃ g₄ g₅ g₆ : FVec Ideal S16x7x32768 .f32) (g₇ g₈ : FVec Ideal S16x49x32768 .f32) (g₉ g₁₀ : FVec Ideal S16x7x32768 .f32)
    (b : Fin 16) (r : Fin 161) (n : Fin 32768) (c : Fin 7) (hc : 147 + c.val = r.val) :
    vOut g₀ g₁ g₂ g₃ g₄ g₅ g₆ g₇ g₈ g₉ g₁₀ (ix3 b r n) = g₉ (ix3 b c n) := by
  unfold vOut
  exact concatenate_apply_piece 1 _ _ (ix3 b r n) 9 (by show 9 < 11; decide) S16x7x32768 g₉ rfl rfl 147 rfl (ix3 b c n)
    (fun ax hax => by
      match ax, hax with
      | ⟨0, _⟩, _ => rfl
      | ⟨1, _⟩, hax => exact absurd rfl hax
      | ⟨2, _⟩, _ => rfl) hc

theorem vOut_at10 (g₀ g₁ g₂ g₃ g₄ g₅ g₆ : FVec Ideal S16x7x32768 .f32) (g₇ g₈ : FVec Ideal S16x49x32768 .f32) (g₉ g₁₀ : FVec Ideal S16x7x32768 .f32)
    (b : Fin 16) (r : Fin 161) (n : Fin 32768) (c : Fin 7) (hc : 154 + c.val = r.val) :
    vOut g₀ g₁ g₂ g₃ g₄ g₅ g₆ g₇ g₈ g₉ g₁₀ (ix3 b r n) = g₁₀ (ix3 b c n) := by
  unfold vOut
  exact concatenate_apply_piece 1 _ _ (ix3 b r n) 10 (by show 10 < 11; decide) S16x7x32768 g₁₀ rfl rfl 154 rfl (ix3 b c n)
    (fun ax hax => by
      match ax, hax with
      | ⟨0, _⟩, _ => rfl
      | ⟨1, _⟩, hax => exact absurd rfl hax
      | ⟨2, _⟩, _ => rfl) hc

/-! ## Row by row against the specification -/

theorem dist_congr (p q : Tracks.Track) {i i' : Nat} {j j' : Fin 7} (hi : i = i') (hj : j = j') (n : Fin 32768) :
    Tracks.dist p q i j n = Tracks.dist p q i' j' n := by subst hi hj; rfl

theorem ddist_congr (p q : Tracks.Track) {i i' : Nat} {j j' : Fin 7} (hi : i = i') (hj : j = j') (n : Fin 32768) :
    Tracks.ddist p q i j n = Tracks.ddist p q i' j' n := by subst hi hj; rfl

set_option maxRecDepth 8192 in
/-- Row `r` of the reference's term is the specification's feature of group `r / 7` and keypoint `r % 7`. -/
theorem refTerm_apply (X : FVec Ideal S16x14x32768x2 .f32) (b : Fin 16) (r : Fin 161) (n : Fin 32768) :
    refTerm X (ix3 b r n) = Tracks.feature X b (r.val / 7) ⟨r.val % 7, Nat.mod_lt _ (by decide)⟩ n := by
  have hr := r.isLt
  unfold refTerm Tracks.feature Tracks.featureOf
  rw [← trk_vOne X b, ← trk_vTwo X b]
  by_cases h0 : r.val < 7
  · rw [if_pos (show r.val / 7 = 0 by omega),
      vOut_at0 _ _ _ _ _ _ _ _ _ _ _ b r n ⟨r.val % 7, Nat.mod_lt _ (by decide)⟩ (by show 0 + r.val % 7 = r.val; omega)]
    exact vNorm_speed _ b _ n
  · by_cases h1 : r.val < 14
    · rw [if_neg (show ¬ r.val / 7 = 0 by omega), if_pos (show r.val / 7 = 1 by omega),
        vOut_at1 _ _ _ _ _ _ _ _ _ _ _ b r n ⟨r.val % 7, Nat.mod_lt _ (by decide)⟩ (by show 7 + r.val % 7 = r.val; omega)]
      exact vNorm_speed _ b _ n
    · by_cases h2 : r.val < 21
      · rw [if_neg (show ¬ r.val / 7 = 0 by omega), if_neg (show ¬ r.val / 7 = 1 by omega), if_pos (show r.val / 7 = 2 by omega),
          vOut_at2 _ _ _ _ _ _ _ _ _ _ _ b r n ⟨r.val % 7, Nat.mod_lt _ (by decide)⟩ (by show 14 + r.val % 7 = r.val; omega)]
        exact vCross_cross _ b _ n
      · by_cases h3 : r.val < 28
        · rw [if_neg (show ¬ r.val / 7 = 0 by omega), if_neg (show ¬ r.val / 7 = 1 by omega), if_neg (show ¬ r.val / 7 = 2 by omega), if_pos (show r.val / 7 = 3 by omega),
            vOut_at3 _ _ _ _ _ _ _ _ _ _ _ b r n ⟨r.val % 7, Nat.mod_lt _ (by decide)⟩ (by show 21 + r.val % 7 = r.val; omega)]
          exact vCross_cross _ b _ n
        · by_cases h4 : r.val < 35
          · rw [if_neg (show ¬ r.val / 7 = 0 by omega), if_neg (show ¬ r.val / 7 = 1 by omega), if_neg (show ¬ r.val / 7 = 2 by omega), if_neg (show ¬ r.val / 7 = 3 by omega), if_pos (show r.val / 7 = 4 by omega),
              vOut_at4 _ _ _ _ _ _ _ _ _ _ _ b r n ⟨r.val % 7, Nat.mod_lt _ (by decide)⟩ (by show 28 + r.val % 7 = r.val; omega)]
            exact vTurn_turn _ b _ n
          · by_cases h5 : r.val < 42
            · rw [if_neg (show ¬ r.val / 7 = 0 by omega), if_neg (show ¬ r.val / 7 = 1 by omega), if_neg (show ¬ r.val / 7 = 2 by omega), if_neg (show ¬ r.val / 7 = 3 by omega), if_neg (show ¬ r.val / 7 = 4 by omega), if_pos (show r.val / 7 = 5 by omega),
                vOut_at5 _ _ _ _ _ _ _ _ _ _ _ b r n ⟨r.val % 7, Nat.mod_lt _ (by decide)⟩ (by show 35 + r.val % 7 = r.val; omega)]
              exact vTurn_turn _ b _ n
            · by_cases h6 : r.val < 49
              · rw [if_neg (show ¬ r.val / 7 = 0 by omega), if_neg (show ¬ r.val / 7 = 1 by omega), if_neg (show ¬ r.val / 7 = 2 by omega), if_neg (show ¬ r.val / 7 = 3 by omega), if_neg (show ¬ r.val / 7 = 4 by omega), if_neg (show ¬ r.val / 7 = 5 by omega), if_pos (show r.val / 7 = 6 by omega),
                  vOut_at6 _ _ _ _ _ _ _ _ _ _ _ b r n ⟨r.val % 7, Nat.mod_lt _ (by decide)⟩ (by show 42 + r.val % 7 = r.val; omega)]
                exact vCos_align _ _ b _ n
              · by_cases h7 : r.val < 98
                · rw [if_neg (show ¬ r.val / 7 = 0 by omega), if_neg (show ¬ r.val / 7 = 1 by omega), if_neg (show ¬ r.val / 7 = 2 by omega), if_neg (show ¬ r.val / 7 = 3 by omega), if_neg (show ¬ r.val / 7 = 4 by omega), if_neg (show ¬ r.val / 7 = 5 by omega), if_neg (show ¬ r.val / 7 = 6 by omega), if_pos (show r.val / 7 < 14 by omega),
                    vOut_at7 _ _ _ _ _ _ _ _ _ _ _ b r n ⟨r.val - 49, by omega⟩ (by show 49 + (r.val - 49) = r.val; omega), vDist_dist]
                  exact dist_congr _ _ (by show (r.val - 49) / 7 = r.val / 7 - 7; omega) (Fin.ext (by show (r.val - 49) % 7 = r.val % 7; omega)) n
                · by_cases h8 : r.val < 147
                  · rw [if_neg (show ¬ r.val / 7 = 0 by omega), if_neg (show ¬ r.val / 7 = 1 by omega), if_neg (show ¬ r.val / 7 = 2 by omega), if_neg (show ¬ r.val / 7 = 3 by omega), if_neg (show ¬ r.val / 7 = 4 by omega), if_neg (show ¬ r.val / 7 = 5 by omega), if_neg (show ¬ r.val / 7 = 6 by omega), if_neg (show ¬ r.val / 7 < 14 by omega), if_pos (show r.val / 7 < 21 by omega),
                      vOut_at8 _ _ _ _ _ _ _ _ _ _ _ b r n ⟨r.val - 98, by omega⟩ (by show 98 + (r.val - 98) = r.val; omega), vDdist_ddist]
                    exact ddist_congr _ _ (by show (r.val - 98) / 7 = r.val / 7 - 14; omega) (Fin.ext (by show (r.val - 98) % 7 = r.val % 7; omega)) n
                  · by_cases h9 : r.val < 154
                    · rw [if_neg (show ¬ r.val / 7 = 0 by omega), if_neg (show ¬ r.val / 7 = 1 by omega), if_neg (show ¬ r.val / 7 = 2 by omega), if_neg (show ¬ r.val / 7 = 3 by omega), if_neg (show ¬ r.val / 7 = 4 by omega), if_neg (show ¬ r.val / 7 = 5 by omega), if_neg (show ¬ r.val / 7 = 6 by omega), if_neg (show ¬ r.val / 7 < 14 by omega), if_neg (show ¬ r.val / 7 < 21 by omega), if_pos (show r.val / 7 = 21 by omega),
                        vOut_at9 _ _ _ _ _ _ _ _ _ _ _ b r n ⟨r.val % 7, Nat.mod_lt _ (by decide)⟩ (by show 147 + r.val % 7 = r.val; omega)]
                      exact vCos_lead1 _ _ b _ n
                    · rw [if_neg (show ¬ r.val / 7 = 0 by omega), if_neg (show ¬ r.val / 7 = 1 by omega), if_neg (show ¬ r.val / 7 = 2 by omega), if_neg (show ¬ r.val / 7 = 3 by omega), if_neg (show ¬ r.val / 7 = 4 by omega), if_neg (show ¬ r.val / 7 = 5 by omega), if_neg (show ¬ r.val / 7 = 6 by omega), if_neg (show ¬ r.val / 7 < 14 by omega), if_neg (show ¬ r.val / 7 < 21 by omega), if_neg (show ¬ r.val / 7 = 21 by omega),
                        vOut_at10 _ _ _ _ _ _ _ _ _ _ _ b r n ⟨r.val % 7, Nat.mod_lt _ (by decide)⟩ (by show 154 + r.val % 7 = r.val; omega)]
                      exact vCos_lead2 _ _ b _ n

/-- The reference's term is the specification's feature array. -/
theorem refTerm_eq (X : FVec Ideal S16x14x32768x2 .f32) : refTerm X = Tracks.features X := by
  funext o
  rw [eq_ix3 o]
  exact refTerm_apply X (o 0) (o 1) (o 2)

end Cert.ReferenceIdeal.RefValue

end
-- ==== Proof.RefRun.lean ====
/-
  The reference's run against the specification: from any memory with zero counters every weakly fair execution of the
  reference program, at the extended reals, terminates with the result buffer holding the specification's feature array
  of the position array, and both argument buffers holding what they held.
-/
import proofs.«129414_j76424648065748_2_alg».proof.Proof.RefStages
import proofs.«129414_j76424648065748_2_alg».proof.Proof.RefReadD

noncomputable section

namespace Cert.ReferenceIdeal.RefValue

open Cert.ReferenceIdeal Cert.ReferenceIdeal.Gen Idealize.ShloMosaic Idealize.ShloMosaic.TcCoe Idealize.SL.Sem Idealize.ShloMosaic.StableHlo

/-- Every weakly fair execution terminates, the result the feature array of the positions, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v110) = Cert.Tracks.features (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ h c => ⟨(h c main_v110).trans ((after_ops_out (launchContents m c)).trans (refTerm_eq _)),
      (h c main_arg0).trans (after_ops_arg0 (launchContents m c)),
      (h c main_arg1).trans (after_ops_arg1 (launchContents m c))⟩)
    (run_after (F := Ideal) m ρ)

end Cert.ReferenceIdeal.RefValue

end
-- ==== Proof.lean ====
/-
  Two animals of seven keypoints tracked over 32768 frames, sixteen recordings: from the positions, 161 rows of
  features per recording — speeds, planar cross products of the step with its change, turning cosines, the cosine
  between the two animals' steps, the seven rotations of the pairwise keypoint distances and their forward differences
  in time, and the two leading cosines (proof/Proof/Tracks.lean states them, `Cert.Tracks.features`).

  The kernel computes them one recording at a time on [7, 32768] vectors, frames along the lanes, after the host has
  moved the coordinate axis in front; a time shift is a lane rotation whose wrapped lane is repaired by a select, and
  the speeds are read back from the rows already stored. The reference computes them on the whole array by slices,
  concatenations, sums over the coordinate axis and one gather through a 7 × 7 table of keypoint rotations. Over the
  extended reals both are `Cert.Tracks.features` of the argument, index by index: the only laws used are
  `0 + x = x` and `0 − x = −x`, which hold at the infinities too, so the precondition is never opened.

  The kernel's side: each of the body's 23 stores holds its group of the loaded block's features (MotionA–C, Dist0–6),
  so the block read back is the block's features (KernelOut) and the array after the run, block by block, is the
  features of the argument (Array*). The reference's side: its run, operation by operation (RefOps, RefStages), and its
  result read at an index (RefRead*). The three frames are the generated ones and the reference's run with the result
  dropped; the idealization rewrote nothing, so `preserves` is `True`.
-/
import proofs.«129414_j76424648065748_2_alg».proof.Defs
import proofs.«129414_j76424648065748_2_alg».proof.Proof.Gen.Kernel
import proofs.«129414_j76424648065748_2_alg».proof.Proof.Gen.Kernel.Skeleton
import proofs.«129414_j76424648065748_2_alg».proof.Proof.Gen.Kernel.Launch
import proofs.«129414_j76424648065748_2_alg».proof.Proof.Gen.Kernel.Points
import proofs.«129414_j76424648065748_2_alg».proof.Proof.Gen.Kernel.Frame
import proofs.«129414_j76424648065748_2_alg».proof.Proof.Gen.KernelIdeal
import proofs.«129414_j76424648065748_2_alg».proof.Proof.Gen.KernelIdeal.Skeleton
import proofs.«129414_j76424648065748_2_alg».proof.Proof.Gen.KernelIdeal.Launch
import proofs.«129414_j76424648065748_2_alg».proof.Proof.Gen.KernelIdeal.Points
import proofs.«129414_j76424648065748_2_alg».proof.Proof.Gen.KernelIdeal.Frame
import proofs.«129414_j76424648065748_2_alg».proof.Proof.Gen.KernelIdeal.Value
import proofs.«129414_j76424648065748_2_alg».proof.Proof.Gen.ReferenceIdeal
import proofs.«129414_j76424648065748_2_alg».proof.Proof.Gen.Pre_finite_inputs
import proofs.«129414_j76424648065748_2_alg».proof.Proof.ArrayRun
import proofs.«129414_j76424648065748_2_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- Both runs end with the features of the argument, and the arguments agree. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.RefValue.run m' ρ')
  rw [(hagree c).1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
